-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S128 .f32) (main_arg10 : FVec F S256x128 .f32) (main_arg11 : FVec F S128 .f32) (main_arg12 : FVec F S256x2 .f32) (main_arg13 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x2 .f32 := Host.absf main_arg12
  let main_cst_18 : FVec F S_ .f32 := constant S_ .f32 0x7F800000#32
  let main_v50 : FVec F S256x2 .f32 := broadcastInDim S256x2 ![] bcast_S_S256x2 main_cst_18
  fn_part3 (F := F) main_arg13 main_v48 main_v49 main_v50

def fn_part1 {F : FTy → Type} [FloatOps F] (main_arg6 : FVec F S256x128 .f32) (main_arg7 : FVec F S128 .f32) (main_arg8 : FVec F S192x128 .f32) (main_arg9 : FVec F S128 .f32) (main_arg10 : FVec F S256x128 .f32) (main_arg11 : FVec F S128 .f32) (main_arg12 : FVec F S256x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x128 .f32 := Host.absf main_arg8
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S800000x64 .f32) (main_arg2 : IVec S800000 32) (main_arg3 : IVec S800000 32) (main_arg4 : FVec F S192x128 .f32) (main_arg5 : FVec F S128 .f32) (main_arg6 : FVec F S256x128 .f32) (main_arg7 : FVec F S128 .f32) (main_arg8 : FVec F S192x128 .f32) (main_arg9 : FVec F S128 .f32) (main_arg10 : FVec F S256x128 .f32) (main_arg11 : FVec F S128 .f32) (main_arg12 : FVec F S256x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S128x128 : Shape := ⟨2, ![128, 128]⟩
abbrev S64x128 : Shape := ⟨2, ![64, 128]⟩
abbrev S1x128 : Shape := ⟨2, ![1, 128]⟩
abbrev S8000x128 : Shape := ⟨2, ![8000, 128]⟩
abbrev S8000x64 : Shape := ⟨2, ![8000, 64]⟩
abbrev S5000x128 : Shape := ⟨2, ![5000, 128]⟩
abbrev S128x2 : Shape := ⟨2, ![128, 2]⟩
abbrev S1x2 : Shape := ⟨2, ![1, 2]⟩
abbrev S800000x2 : Shape := ⟨2, ![800000, 2]⟩
abbrev S8000x2 : Shape := ⟨2, ![8000, 2]⟩

abbrev nBuf : Space → Nat
  | .hbm => 108
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S50000x128, .bf16⟩
  | .hbm, ⟨15, _⟩ => ⟨S800000x64, .bf16⟩
  | .hbm, ⟨16, _⟩ => ⟨S_, .f32⟩
  | .hbm, ⟨17, _⟩ => ⟨S800000x1, .f32⟩
  | .hbm, ⟨18, _⟩ => ⟨S_, .f32⟩
  | .hbm, ⟨19, _⟩ => ⟨S50000x1, .f32⟩
  | .hbm, ⟨20, _⟩ => ⟨S800000x1, .i32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .bf16⟩
  | .hbm, ⟨31, _⟩ => ⟨S128x128, .f32⟩
  | .hbm, ⟨32, _⟩ => ⟨S128x128, .bf16⟩
  | .hbm, ⟨33, _⟩ => ⟨S64x128, .f32⟩
  | .hbm, ⟨34, _⟩ => ⟨S64x128, .bf16⟩
  | .hbm, ⟨35, _⟩ => ⟨S1x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .bf16⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S1x128, .f32⟩
  | .hbm, ⟨52, _⟩ => ⟨S50000x128, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .bf16⟩
  | .hbm, ⟨62, _⟩ => ⟨S128x128, .f32⟩
  | .hbm, ⟨63, _⟩ => ⟨S128x128, .bf16⟩
  | .hbm, ⟨64, _⟩ => ⟨S64x128, .f32⟩
  | .hbm, ⟨65, _⟩ => ⟨S64x128, .bf16⟩
  | .hbm, ⟨66, _⟩ => ⟨S1x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .bf16⟩
  | .hbm, ⟨78, _⟩ => ⟨S128x128, .f32⟩
  | .hbm, ⟨79, _⟩ => ⟨S128x128, .bf16⟩
  | .hbm, ⟨80, _⟩ => ⟨S128x128, .f32⟩
  | .hbm, ⟨81, _⟩ => ⟨S128x128, .bf16⟩
  | .hbm, ⟨82, _⟩ => ⟨S1x128, .f32⟩
  | .hbm, ⟨83, _⟩ => ⟨S50000x128, .bf16⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .bf16⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .bf16⟩
  | .hbm, ⟨102, _⟩ => ⟨S128x2, .f32⟩
  | .hbm, ⟨103, _⟩ => ⟨S128x2, .bf16⟩
  | .hbm, ⟨104, _⟩ => ⟨S128x2, .f32⟩
  | .hbm, ⟨105, _⟩ => ⟨S128x2, .bf16⟩
  | .hbm, ⟨106, _⟩ => ⟨S1x2, .f32⟩
  | .hbm, ⟨107, _⟩ => ⟨S800000x2, .f32⟩
  | .local _ .vmem, ⟨0, _⟩ => ⟨S8000x128, .bf16⟩
  | .local _ .vmem, ⟨1, _⟩ => ⟨S8000x128, .bf16⟩
  | .local _ .vmem, ⟨2, _⟩ => ⟨S8000x64, .bf16⟩
  | .local _ .vmem, ⟨3, _⟩ => ⟨S8000x64, .bf16⟩
  | .local _ .vmem, ⟨4, _⟩ => ⟨S128x128, .bf16⟩
  | .local _ .vmem, ⟨5, _⟩ => ⟨S64x128, .bf16⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S8000x128, .bf16⟩
  | .local _ .vmem, ⟨19, _⟩ => ⟨S8000x128, .bf16⟩
  | .local _ .vmem, ⟨20, _⟩ => ⟨S8000x64, .bf16⟩
  | .local _ .vmem, ⟨21, _⟩ => ⟨S8000x64, .bf16⟩
  | .local _ .vmem, ⟨22, _⟩ => ⟨S128x128, .bf16⟩
  | .local _ .vmem, ⟨23, _⟩ => ⟨S64x128, .bf16⟩
  | .local _ .vmem, ⟨24, _⟩ => ⟨S1x128, .f32⟩
  | .local _ .vmem, ⟨25, _⟩ => ⟨S8000x128, .f32⟩
  | .local _ .vmem, ⟨26, _⟩ => ⟨S8000x128, .f32⟩
  | .local _ .vmem, ⟨27, _⟩ => ⟨S5000x128, .bf16⟩
  | .local _ .vmem, ⟨28, _⟩ => ⟨S5000x128, .bf16⟩
  | .local _ .vmem, ⟨29, _⟩ => ⟨S5000x128, .bf16⟩
  | .local _ .vmem, ⟨30, _⟩ => ⟨S5000x128, .bf16⟩
  | .local _ .vmem, ⟨31, _⟩ => ⟨S128x128, .bf16⟩
  | .local _ .vmem, ⟨32, _⟩ => ⟨S128x128, .bf16⟩
  | .local _ .vmem, ⟨33, _⟩ => ⟨S1x128, .f32⟩
  | .local _ .vmem, ⟨34, _⟩ => ⟨S5000x128, .bf16⟩
  | .local _ .vmem, ⟨35, _⟩ => ⟨S5000x128, .bf16⟩
  | .local _ .vmem, ⟨36, _⟩ => ⟨S8000x128, .bf16⟩
  | .local _ .vmem, ⟨37, _⟩ => ⟨S8000x128, .bf16⟩
  | .local _ .vmem, ⟨38, _⟩ => ⟨S8000x128, .bf16⟩
  | .local _ .vmem, ⟨39, _⟩ => ⟨S8000x128, .bf16⟩
  | .local _ .vmem, ⟨40, _⟩ => ⟨S128x2, .bf16⟩
  | .local _ .vmem, ⟨41, _⟩ => ⟨S128x2, .bf16⟩
  | .local _ .vmem, ⟨42, _⟩ => ⟨S1x2, .f32⟩
  | .local _ .vmem, ⟨43, _⟩ => ⟨S8000x2, .f32⟩
  | .local _ .vmem, ⟨44, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_c_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x2 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bitsLt_bf16_f32 : FTy.bits .bf16 < FTy.bits .f32
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  slices_S192x128_S128x128_0_0 : S192x128.Slices ![0, 0] S128x128
  slices_S192x128_S64x128_128_0 : S192x128.Slices ![128, 0] S64x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S256x2_S128x2_0_0 : S256x2.Slices ![0, 0] S128x2
  slices_S256x2_S128x2_128_0 : S256x2.Slices ![128, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S8000x128_S128x2_S8000x2_1_0_0_1_n_n_wf : DotDims.WF S8000x128 S128x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .bf16 = 32 ∨ (Rect.block (s := S800000x64) S8000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .bf16 = 32 ∨ (Rect.block (s := S64x128) S64x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S800000x128.size a
  hwx2_5 : ∀ i : grid2.Coords, EltTy.bits .f32 = 32 ∨ (Rect.block (s := S800000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .bf16 = 32 ∨ (Rect.block (s := S50000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .bf16 = 32 ∨ (Rect.block (s := S50000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .bf16 = 32 ∨ (Rect.block (s := S50000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .bf16 = 32 ∨ (Rect.block (s := S800000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .bf16 = 32 ∨ (Rect.block (s := S800000x128) S8000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x2.size a ≤ S128x2.size a
  hwx4_2 : ∀ i : grid4.Coords, EltTy.bits .bf16 = 32 ∨ (Rect.block (s := S128x2) S128x2.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .bf16 = 32 ∨ (Rect.block (s := S128x2) S128x2.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x2.size a ≤ S800000x2.size a
  hwx4_5 : ∀ i : grid4.Coords, EltTy.bits .f32 = 32 ∨ (Rect.block (s := S800000x2) S8000x2.size (cc4_transform_5 i) (hinb4_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf

abbrev win0_0 : Pipeline.Window sig grid0 :=
  Pipeline.Window.ofSpec (Memref.whole main_v12) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S8000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S50000x1 : Shape := ⟨2, ![50000, 1]⟩
abbrev S50000x256 : Shape := ⟨2, ![50000, 256]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x192, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000x1, .f32⟩
  | .hbm, ⟨34, _⟩ => ⟨S_, .f32⟩
  | .hbm, ⟨35, _⟩ => ⟨S50000x1, .f32⟩
  | .hbm, ⟨36, _⟩ => ⟨S800000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x192, .f32⟩
  | .hbm, ⟨61, _⟩ => ⟨S800000x128, .f32⟩
  | .hbm, ⟨62, _⟩ => ⟨S1x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000x1, .f32⟩
  | .hbm, ⟨71, _⟩ => ⟨S_, .f32⟩
  | .hbm, ⟨72, _⟩ => ⟨S50000x1, .f32⟩
  | .hbm, ⟨73, _⟩ => ⟨S800000x1, .i32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x256, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x256, .f32⟩
  | .hbm, ⟨107, _⟩ => ⟨S800000x2, .f32⟩
  | .hbm, ⟨108, _⟩ => ⟨S1x2, .f32⟩
  | .hbm, ⟨109, _⟩ => ⟨S800000x2, .f32⟩
  | .hbm, ⟨110, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x256_S256x128_S50000x128_1_0_0_1_n_n_wf : DotDims.WF S50000x256 S256x128 S50000x128 [1] [0] [0] [1] [] []
  dot_S800000x256_S256x2_S800000x2_1_0_0_1_n_n_wf : DotDims.WF S800000x256 S256x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.RunNamed.lean ====
/-
  The idealized kernel's run with its result named.

  The program is five pipelined regions among stretches of host operations.  Its buffer contents at each boundary
  between a stretch and a region are a fold from the launch memory: a stretch leaves the host operations' results, a
  region leaves its arrays at what its write-backs hold and every other buffer as it was.  Every weakly fair
  execution terminates without a fault in a state whose unscoped buffers hold the last boundary's contents; read at the
  result buffer this names the result, and read at an argument it gives back the argument as launched.
-/
import proofs.«134400_j56057913147666_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last boundary's contents and every argument array as launched. -/
theorem run_named : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.RunNamed

end
-- ==== Proof.Layers.lean ====
/-
  The graph network, layer by layer, in the reference's own host operations, at the extended reals.

  A node table h : [50000, 128], edge features e : [800000, 64], and the edges' end points src, dst : [800000].
  One layer: every edge gathers its source node's row (a negative index wrapped by the table's height first), the
  message is the linear image of the row joined with the edge's features, the messages are summed into their
  destination nodes and divided by the larger of the node's in-degree and 1, and the node update is the rectified
  linear image of the node's row joined with that mean.  The network is two layers and a linear score of each edge
  from its two end points' rows.
-/
import proofs.«134400_j56057913147666_2_alg».proof.ReferenceIdeal
import Idealize.ShloMosaic.PureOps.Ideal

noncomputable section

namespace Cert.Layers

open Idealize.ShloMosaic Cert.ReferenceIdeal Cert.ReferenceIdeal.Facts₀

variable [Cert.ReferenceIdeal.Facts]

/-- The contents of a buffer of shape s holding 32-bit integers, resp. floats, at the extended reals. -/
abbrev IArr (s : Shape) : Type := IVec s 32
abbrev FArr (s : Shape) : Type := FVec Ideal s .f32

/-- A vector of row indices as the gather's index column: an index below 0 has the table's height added. -/
def idxCol (idx : IArr S800000) : IArr S800000x1 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Every edge's row of the node table at its index. -/
def gatherRows (h : FArr S50000x128) (idx : IArr S800000) : FArr S800000x128 :=
  Host.gather gather_S50000x128_S800000x1_S800000x128_1_0_n_n_0_1_1128 h (idxCol idx)

/-- The edge messages: the linear image of the gathered row joined with the edge's features, plus the bias. -/
def msg (hs : FArr S800000x128) (e : FArr S800000x64) (W : FArr S192x128) (b : FArr S128) : FArr S800000x128 :=
  addf (F := Ideal) (Host.dotGeneral (F := Ideal) dot_S800000x192_S192x128_S800000x128_1_0_0_1_n_n none
      (concatenate S800000x192 1 [⟨S800000x128, hs⟩, ⟨S800000x64, e⟩] concatenates_S800000x128_S800000x64_S800000x192_d1) W)
    (broadcastInDim S800000x128 ![0, 1] bcast_S1x128_S800000x128_0_1 (broadcastInDim S1x128 ![1] bcast_S128_S1x128_1 b))

/-- Every node's in-degree: a one summed into each edge's destination. -/
def cnt (dst : IArr S800000) : FArr S50000x1 :=
  Host.scatterAdd (F := Ideal) scatter_S50000x1_S800000x1_S800000x1_1_0_0_1
    (broadcastInDim S50000x1 ![] bcast_S_S50000x1 (constant (F := Ideal) S_ .f32 0x00000000#32))
    (broadcastInDim S800000x1 ![0] bcast_S800000_S800000x1_0 dst)
    (broadcastInDim S800000x1 ![] bcast_S_S800000x1 (constant (F := Ideal) S_ .f32 0x3F800000#32))

/-- The messages summed into their destination nodes, divided by the larger of the in-degree d and 1. -/
def meanBy (m : FArr S800000x128) (dst : IArr S800000) (d : FArr S50000x1) : FArr S50000x128 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) m)
    (broadcastInDim S50000x128 ![0, 1] bcast_S50000x1_S50000x128_0_1
      (maximumf (F := Ideal) d (broadcastInDim S50000x1 ![] bcast_S_S50000x1 (constant (F := Ideal) S_ .f32 0x3F800000#32))))

/-- The node update: the rectified linear image of the node's row joined with its neighbourhood mean. -/
def upd (h hn : FArr S50000x128) (W : FArr S256x128) (b : FArr S128) : FArr S50000x128 :=
  maximumf (F := Ideal)
    (addf (F := Ideal) (Host.dotGeneral (F := Ideal) dot_S50000x256_S256x128_S50000x128_1_0_0_1_n_n none
        (concatenate S50000x256 1 [⟨S50000x128, h⟩, ⟨S50000x128, hn⟩] concatenates_S50000x128_S50000x128_S50000x256_d1) W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The edge score: the linear image of the two end points' rows joined, plus the bias. -/
def score (hs hd : FArr S800000x128) (W : FArr S256x2) (b : FArr S2) : FArr S800000x2 :=
  addf (F := Ideal) (Host.dotGeneral (F := Ideal) dot_S800000x256_S256x2_S800000x2_1_0_0_1_n_n none
      (concatenate S800000x256 1 [⟨S800000x128, hs⟩, ⟨S800000x128, hd⟩] concatenates_S800000x128_S800000x128_S800000x256_d1) W)
    (broadcastInDim S800000x2 ![0, 1] bcast_S1x2_S800000x2_0_1 (broadcastInDim S1x2 ![1] bcast_S2_S1x2_1 b))

/-- One layer of the network. -/
def layer (h : FArr S50000x128) (e : FArr S800000x64) (src dst : IArr S800000)
    (Wm : FArr S192x128) (bm : FArr S128) (Wa : FArr S256x128) (ba : FArr S128) : FArr S50000x128 :=
  upd h (meanBy (msg (gatherRows h src) e Wm bm) dst (cnt dst)) Wa ba

/-- The network: two layers, then the score of every edge. -/
def net (a0 : FArr S50000x128) (a1 : FArr S800000x64) (a2 a3 : IArr S800000)
    (a4 : FArr S192x128) (a5 : FArr S128) (a6 : FArr S256x128) (a7 : FArr S128)
    (a8 : FArr S192x128) (a9 : FArr S128) (a10 : FArr S256x128) (a11 : FArr S128)
    (a12 : FArr S256x2) (a13 : FArr S2) : FArr S800000x2 :=
  score (gatherRows (layer (layer a0 a1 a2 a3 a4 a5 a6 a7) a1 a2 a3 a8 a9 a10 a11) a2)
    (gatherRows (layer (layer a0 a1 a2 a3 a4 a5 a6 a7) a1 a2 a3 a8 a9 a10 a11) a3) a12 a13

end Cert.Layers

end
-- ==== Proof.LibSplitLinearDef.lean ====
/-
  A linear layer whose input is split in two column groups.

  For a table of M rows the layer takes the two groups x1 : [M, K1] and x2 : [M, K2], a weight block for each,
  w1 : [K1, N] and w2 : [K2, N], and a bias laid as a one-row table b : [1, N].  Entry (p, q) of the result is

      (sum over c < K1 of x1 (p, c) * w1 (c, q)) + (sum over c < K2 of x2 (p, c) * w2 (c, q)) + b (0, q),

  on the extended reals.  The rectified layer takes the maximum of that entry and 0.
-/
import Idealize.ShloMosaic.PureOps.Ideal
import Idealize.ShloMosaic.Lib.ValueIdx

noncomputable section

open scoped BigOperators

namespace Cert.SplitLinear

open Idealize.ShloMosaic Idealize.ShloMosaic.ValueIdx

variable {M K1 K2 N : Nat}

/-- The split linear layer, entry by entry. -/
def lin (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) : (⟨2, ![M, N]⟩ : Shape).Idx → EReal :=
  fun i => (∑ c : Fin K1, x1 (ix2 (i 0) c) * w1 (ix2 c (i 1))) + (∑ c : Fin K2, x2 (ix2 (i 0) c) * w2 (ix2 c (i 1)))
    + b (ix2 (0 : Fin 1) (i 1))

/-- The layer at the entry of row p and column q. -/
theorem lin_apply (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) (p : Fin M) (q : Fin N) :
    lin x1 x2 w1 w2 b (ix2 p q)
      = (∑ c : Fin K1, x1 (ix2 p c) * w1 (ix2 c q)) + (∑ c : Fin K2, x2 (ix2 p c) * w2 (ix2 c q)) + b (ix2 (0 : Fin 1) q) := rfl

/-- The rectified layer: the maximum of the layer's entry and 0. -/
def linRelu (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) : (⟨2, ![M, N]⟩ : Shape).Idx → EReal :=
  fun i => max (lin x1 x2 w1 w2 b i) 0

/-- The rectified layer at the entry of row p and column q. -/
theorem linRelu_apply (x1 : (⟨2, ![M, K1]⟩ : Shape).Idx → EReal) (x2 : (⟨2, ![M, K2]⟩ : Shape).Idx → EReal)
    (w1 : (⟨2, ![K1, N]⟩ : Shape).Idx → EReal) (w2 : (⟨2, ![K2, N]⟩ : Shape).Idx → EReal)
    (b : (⟨2, ![1, N]⟩ : Shape).Idx → EReal) (p : Fin M) (q : Fin N) :
    linRelu x1 x2 w1 w2 b (ix2 p q)
      = max ((∑ c : Fin K1, x1 (ix2 p c) * w1 (ix2 c q)) + (∑ c : Fin K2, x2 (ix2 p c) * w2 (ix2 c q)) + b (ix2 (0 : Fin 1) q)) 0 := rfl

end Cert.SplitLinear

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.LibSplitLinear.lean ====
/-
  The split linear layer is the linear layer of the joined input.

  A table of K1 + K2 columns is cut into its first K1 and its last K2 columns, x1 and x2, and a weight table W of
  K1 + K2 rows into its first K1 and its last K2 rows.  Then for every row p and column q

      (sum over c < K1 of x1 (p, c) * W (c, q)) + (sum over c < K2 of x2 (p, c) * W (K1 + c, q))
        = sum over c < K1 + K2 of (x1 joined with x2) (p, c) * W (c, q),

  because a finite sum over the first K1 + K2 naturals splits into the sum over the first K1 and the sum over the
  next K2; on the extended reals this is the algebra of a commutative additive monoid, no finiteness of the terms
  is asked.  The bias is the same number on both sides: a vector laid as a one-row table and read at row 0, against
  the same vector stretched first to one row and then to all rows.  The rectified layer takes the maximum with 0 on
  both sides.

  The small lemmas read one layout operation at one entry each; the two theorems at the end put them together as
  equalities of whole arrays.
-/
import proofs.«134400_j56057913147666_2_alg».proof.Proof.LibSplitLinearDef
import proofs.«134400_j56057913147666_2_alg».proof.Proof.LibTileMatmul
import proofs.«134400_j56057913147666_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SplitLinear

open Idealize.ShloMosaic Idealize.ShloMosaic.ValueIdx

variable {M K1 K2 K N : Nat} {α : Type}

/-- The first K1 rows of a table of K1 + K2 rows: row c of the block is row c of the table. -/
theorem slice_top_apply (W : (⟨2, ![K1 + K2, N]⟩ : Shape).Idx → α)
    (hs : (⟨2, ![K1 + K2, N]⟩ : Shape).Slices ![0, 0] ⟨2, ![K1, N]⟩) (c : Fin K1) (q : Fin N) :
    extractStridedSlice ⟨2, ![K1, N]⟩ ![0, 0] W hs (ix2 c q) = W (ix2 (Fin.castAdd K2 c) q) := by
  refine extractStridedSlice_apply _ W hs _ _ fun a => ?_
  match a with
  | ⟨0, _⟩ => show c.val = 0 + c.val; omega
  | ⟨1, _⟩ => show q.val = 0 + q.val; omega

/-- The last K2 rows of a table of K1 + K2 rows: row c of the block is row K1 + c of the table. -/
theorem slice_bot_apply (W : (⟨2, ![K1 + K2, N]⟩ : Shape).Idx → α)
    (hs : (⟨2, ![K1 + K2, N]⟩ : Shape).Slices ![K1, 0] ⟨2, ![K2, N]⟩) (c : Fin K2) (q : Fin N) :
    extractStridedSlice ⟨2, ![K2, N]⟩ ![K1, 0] W hs (ix2 c q) = W (ix2 (Fin.natAdd K1 c) q) := by
  refine extractStridedSlice_apply _ W hs _ _ fun a => ?_
  match a with
  | ⟨0, _⟩ => show K1 + c.val = K1 + c.val; rfl
  | ⟨1, _⟩ => show q.val = 0 + q.val; omega

/-- Two tables joined along their columns, read at one of the first K1 columns: the first table there. -/
theorem concat_left_apply (X1 : (⟨2, ![M, K1]⟩ : Shape).Idx → α) (X2 : (⟨2, ![M, K2]⟩ : Shape).Idx → α)
    (hc : Shape.Concatenates ([(⟨⟨2, ![M, K1]⟩, X1⟩ : (s : Shape) × (s.Idx → α)), ⟨⟨2, ![M, K2]⟩, X2⟩].map (·.1))
      ⟨2, ![M, K1 + K2]⟩ 1) (p : Fin M) (c : Fin K1) :
    concatenate ⟨2, ![M, K1 + K2]⟩ 1 [⟨⟨2, ![M, K1]⟩, X1⟩, ⟨⟨2, ![M, K2]⟩, X2⟩] hc (ix2 p (Fin.castAdd K2 c))
      = X1 (ix2 p c) := by
  refine concatenate_pair_apply_left (t := ⟨2, ![M, K1 + K2]⟩) (1 : Fin 2) X1 X2 hc _ rfl _ fun b => ?_
  match b with
  | ⟨0, _⟩ => rfl
  | ⟨1, _⟩ => rfl

/-- Two tables joined along their columns, read at one of the last K2 columns: the second table, K1 columns back. -/
theorem concat_right_apply (X1 : (⟨2, ![M, K1]⟩ : Shape).Idx → α) (X2 : (⟨2, ![M, K2]⟩ : Shape).Idx → α)
    (hc : Shape.Concatenates ([(⟨⟨2, ![M, K1]⟩, X1⟩ : (s : Shape) × (s.Idx → α)), ⟨⟨2, ![M, K2]⟩, X2⟩].map (·.1))
      ⟨2, ![M, K1 + K2]⟩ 1) (p : Fin M) (c : Fin K2) :
    concatenate ⟨2, ![M, K1 + K2]⟩ 1 [⟨⟨2, ![M, K1]⟩, X1⟩, ⟨⟨2, ![M, K2]⟩, X2⟩] hc (ix2 p (Fin.natAdd K1 c))
      = X2 (ix2 p c) := by
  refine concatenate_pair_apply_right (t := ⟨2, ![M, K1 + K2]⟩) (1 : Fin 2) X1 X2 hc _ rfl rfl _ (fun b hb => ?_) ?_
  · match b with
    | ⟨0, _⟩ => rfl
    | ⟨1, _⟩ => exact absurd rfl hb
  · show c.val + K1 = K1 + c.val
    omega

/-- A vector stretched to a one-row table and that row stretched to M rows reads, at (p, q), the vector's entry q. -/
theorem bias_bcast_apply (bias : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (p : Fin M) (q : Fin N) :
    broadcastInDim ⟨2, ![M, N]⟩ ![0, 1] hb2 (broadcastInDim ⟨2, ![1, N]⟩ ![1] hb1 bias) (ix2 p q) = bias (ix1 q) := by
  refine (broadcastInDim_apply _ hb2 _ (ix2 p q) (ix2 (0 : Fin 1) q) fun a => ?_).trans
    (broadcastInDim_apply _ hb1 bias (ix2 (0 : Fin 1) q) (ix1 q) fun a => ?_)
  · match a with
    | ⟨0, _⟩ => exact (if_pos rfl).symm
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The zero number stretched to a whole table reads 0 at every entry. -/
theorem zero_bcast_apply (hb0 : (⟨0, ![]⟩ : Shape).BroadcastsInDim ⟨2, ![M, N]⟩ ![]) (i : (⟨2, ![M, N]⟩ : Shape).Idx) :
    broadcastInDim ⟨2, ![M, N]⟩ ![] hb0 (constant (F := Ideal) ⟨0, ![]⟩ .f32 0x00000000#32) i = (0 : EReal) := by
  show Ideal.ofBits .f32 0x00000000#32 = 0
  exact Ideal.ofBits_zero_f32

/-- The split layer fed the two row blocks of one weight table, and the bias laid as a one-row table, is the
    product of the joined input with the whole table plus the bias stretched over all rows: entry (p, q) of both is
    (sum over c < K1 of x1 (p, c) * W (c, q)) + (sum over c < K2 of x2 (p, c) * W (K1 + c, q)) + bias q, the sum
    over K1 + K2 columns split at K1. -/
theorem lin_eq_host (hK : K1 + K2 = K)
    (X1 : (⟨2, ![M, K1]⟩ : Shape).Idx → EReal) (X2 : (⟨2, ![M, K2]⟩ : Shape).Idx → EReal)
    (W : (⟨2, ![K, N]⟩ : Shape).Idx → EReal) (bias : (⟨1, ![N]⟩ : Shape).Idx → EReal)
    (wd : DotDims.WF ⟨2, ![M, K]⟩ ⟨2, ![K, N]⟩ ⟨2, ![M, N]⟩ [1] [0] [0] [1] [] [])
    (hc : Shape.Concatenates ([(⟨⟨2, ![M, K1]⟩, X1⟩ : (s : Shape) × (s.Idx → EReal)), ⟨⟨2, ![M, K2]⟩, X2⟩].map (·.1))
      ⟨2, ![M, K]⟩ 1)
    (hs1 : (⟨2, ![K, N]⟩ : Shape).Slices ![0, 0] ⟨2, ![K1, N]⟩)
    (hs2 : (⟨2, ![K, N]⟩ : Shape).Slices ![K1, 0] ⟨2, ![K2, N]⟩)
    (hr : (⟨1, ![N]⟩ : Shape).ShapeCasts ⟨2, ![1, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) :
    lin X1 X2 (extractStridedSlice ⟨2, ![K1, N]⟩ ![0, 0] W hs1) (extractStridedSlice ⟨2, ![K2, N]⟩ ![K1, 0] W hs2)
        (shapeCast ⟨2, ![1, N]⟩ bias hr)
      = addf (F := Ideal) (φ := .f32)
          (Host.dotGeneral (F := Ideal) (φ₁ := .f32) (φ₂ := .f32) (TileMatmul.plainDims wd) none
            (concatenate ⟨2, ![M, K]⟩ 1 [⟨⟨2, ![M, K1]⟩, X1⟩, ⟨⟨2, ![M, K2]⟩, X2⟩] hc) W)
          (broadcastInDim ⟨2, ![M, N]⟩ ![0, 1] hb2 (broadcastInDim ⟨2, ![1, N]⟩ ![1] hb1 bias)) := by
  subst hK
  funext i
  obtain ⟨p, q, rfl⟩ : ∃ p q, i = ix2 p q := ⟨i 0, i 1, eq_ix2 i⟩
  refine (lin_apply _ _ _ _ _ p q).trans ?_
  refine Eq.trans ?_ (addf_apply _ _ _).symm
  refine congr (congrArg HAdd.hAdd ?_) ?_
  · refine Eq.trans ?_ (TileMatmul.dotGeneral_apply wd none _ W p q).symm
    refine Eq.trans ?_ (Fin.sum_univ_add _).symm
    refine congr (congrArg HAdd.hAdd ?_) ?_
    · refine Finset.sum_congr rfl fun c _ => ?_
      rw [slice_top_apply, concat_left_apply]
    · refine Finset.sum_congr rfl fun c _ => ?_
      rw [slice_bot_apply, concat_right_apply]
  · exact (LibRowBias.row_of_vec_apply bias hr q).trans (bias_bcast_apply bias hb1 hb2 p q).symm

/-- The rectified split layer, fed the same way, is the maximum of that product-plus-bias and the zero table. -/
theorem linRelu_eq_host (hK : K1 + K2 = K)
    (X1 : (⟨2, ![M, K1]⟩ : Shape).Idx → EReal) (X2 : (⟨2, ![M, K2]⟩ : Shape).Idx → EReal)
    (W : (⟨2, ![K, N]⟩ : Shape).Idx → EReal) (bias : (⟨1, ![N]⟩ : Shape).Idx → EReal)
    (wd : DotDims.WF ⟨2, ![M, K]⟩ ⟨2, ![K, N]⟩ ⟨2, ![M, N]⟩ [1] [0] [0] [1] [] [])
    (hc : Shape.Concatenates ([(⟨⟨2, ![M, K1]⟩, X1⟩ : (s : Shape) × (s.Idx → EReal)), ⟨⟨2, ![M, K2]⟩, X2⟩].map (·.1))
      ⟨2, ![M, K]⟩ 1)
    (hs1 : (⟨2, ![K, N]⟩ : Shape).Slices ![0, 0] ⟨2, ![K1, N]⟩)
    (hs2 : (⟨2, ![K, N]⟩ : Shape).Slices ![K1, 0] ⟨2, ![K2, N]⟩)
    (hr : (⟨1, ![N]⟩ : Shape).ShapeCasts ⟨2, ![1, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : (⟨0, ![]⟩ : Shape).BroadcastsInDim ⟨2, ![M, N]⟩ ![]) :
    linRelu X1 X2 (extractStridedSlice ⟨2, ![K1, N]⟩ ![0, 0] W hs1) (extractStridedSlice ⟨2, ![K2, N]⟩ ![K1, 0] W hs2)
        (shapeCast ⟨2, ![1, N]⟩ bias hr)
      = maximumf (F := Ideal) (φ := .f32)
          (addf (F := Ideal) (φ := .f32)
            (Host.dotGeneral (F := Ideal) (φ₁ := .f32) (φ₂ := .f32) (TileMatmul.plainDims wd) none
              (concatenate ⟨2, ![M, K]⟩ 1 [⟨⟨2, ![M, K1]⟩, X1⟩, ⟨⟨2, ![M, K2]⟩, X2⟩] hc) W)
            (broadcastInDim ⟨2, ![M, N]⟩ ![0, 1] hb2 (broadcastInDim ⟨2, ![1, N]⟩ ![1] hb1 bias)))
          (broadcastInDim ⟨2, ![M, N]⟩ ![] hb0 (constant (F := Ideal) ⟨0, ![]⟩ .f32 0x00000000#32)) := by
  funext i
  refine Eq.trans ?_ (maximumf_apply _ _ i).symm
  show max (lin X1 X2 _ _ _ i) 0 = _
  rw [zero_bcast_apply hb0 i, lin_eq_host hK X1 X2 W bias wd hc hs1 hs2 hr hb1 hb2]

end Cert.SplitLinear

end
-- ==== Proof.Bridge.lean ====
/-
  The kernel's three split layers are the reference's three linear layers.

  The kernel computes each linear layer of the network in two halves: the weight table is cut into its upper and
  lower row blocks, each block multiplies its own half of the input's columns, and the bias is laid as a one-row
  table.  The reference joins the two halves of the input along their columns and multiplies by the whole table,
  then adds the bias stretched over all rows (and, for the node update, takes the maximum with the zero table).
  A sum over 192 = 128 + 64, resp. 256 = 128 + 128, columns splits at column 128, so the two are the same array.
  This file states that once for each of the network's three layers, at the layers' own sizes:

    the edge messages   [800000, 128 + 64]  x [192, 128],
    the node update     [50000, 128 + 128]  x [256, 128], rectified,
    the edge scores     [800000, 128 + 128] x [256, 2].
-/
import proofs.«134400_j56057913147666_2_alg».proof.KernelIdeal
import proofs.«134400_j56057913147666_2_alg».proof.Proof.Layers
import proofs.«134400_j56057913147666_2_alg».proof.Proof.LibSplitLinear

noncomputable section

namespace Cert.Bridge

open Idealize.ShloMosaic Cert.KernelIdeal Cert.KernelIdeal.Facts₀

variable [Cert.KernelIdeal.Facts] [Cert.ReferenceIdeal.Facts]

/-- The edge messages: the split layer over the row blocks [0, 128) and [128, 192) of the message weights is the
    product of the gathered rows joined with the edge features with the whole table, plus the bias. -/
theorem msg_eq (X1 : FVec Ideal Cert.KernelIdeal.S800000x128 .f32) (X2 : FVec Ideal Cert.KernelIdeal.S800000x64 .f32)
    (W : FVec Ideal Cert.KernelIdeal.S192x128 .f32) (b : FVec Ideal Cert.KernelIdeal.S128 .f32) :
    Cert.SplitLinear.lin (M := 800000) (K1 := 128) (K2 := 64) (N := 128) X1 X2
        (extractStridedSlice S128x128 ![0, 0] W slices_S192x128_S128x128_0_0)
        (extractStridedSlice S64x128 ![128, 0] W slices_S192x128_S64x128_128_0)
        (shapeCast S1x128 b shapeCasts_S128_S1x128)
      = Cert.Layers.msg X1 X2 W b := by
  unfold Cert.Layers.msg
  exact Cert.SplitLinear.lin_eq_host (K := 192) (by norm_num) X1 X2 W b
    Cert.ReferenceIdeal.Facts₀.dot_S800000x192_S192x128_S800000x128_1_0_0_1_n_n_wf
    Cert.ReferenceIdeal.Facts₀.concatenates_S800000x128_S800000x64_S800000x192_d1
    slices_S192x128_S128x128_0_0 slices_S192x128_S64x128_128_0 shapeCasts_S128_S1x128
    Cert.ReferenceIdeal.Facts₀.bcast_S128_S1x128_1 Cert.ReferenceIdeal.Facts₀.bcast_S1x128_S800000x128_0_1

/-- The node update: the rectified split layer over the row blocks [0, 128) and [128, 256) of the update weights
    is the maximum of 0 and the product of the node rows joined with the neighbourhood means with the whole table,
    plus the bias. -/
theorem upd_eq (h hn : FVec Ideal Cert.KernelIdeal.S50000x128 .f32) (W : FVec Ideal Cert.KernelIdeal.S256x128 .f32)
    (b : FVec Ideal Cert.KernelIdeal.S128 .f32) :
    Cert.SplitLinear.linRelu (M := 50000) (K1 := 128) (K2 := 128) (N := 128) h hn
        (extractStridedSlice S128x128 ![0, 0] W slices_S256x128_S128x128_0_0)
        (extractStridedSlice S128x128 ![128, 0] W slices_S256x128_S128x128_128_0)
        (shapeCast S1x128 b shapeCasts_S128_S1x128)
      = Cert.Layers.upd h hn W b := by
  unfold Cert.Layers.upd
  exact Cert.SplitLinear.linRelu_eq_host (K := 256) (by norm_num) h hn W b
    Cert.ReferenceIdeal.Facts₀.dot_S50000x256_S256x128_S50000x128_1_0_0_1_n_n_wf
    Cert.ReferenceIdeal.Facts₀.concatenates_S50000x128_S50000x128_S50000x256_d1
    slices_S256x128_S128x128_0_0 slices_S256x128_S128x128_128_0 shapeCasts_S128_S1x128
    Cert.ReferenceIdeal.Facts₀.bcast_S128_S1x128_1 Cert.ReferenceIdeal.Facts₀.bcast_S1x128_S50000x128_0_1
    Cert.ReferenceIdeal.Facts₀.bcast_S_S50000x128

/-- The edge scores: the split layer over the row blocks [0, 128) and [128, 256) of the score weights is the
    product of the two end points' rows joined with the whole table, plus the bias. -/
theorem score_eq (hs hd : FVec Ideal Cert.KernelIdeal.S800000x128 .f32) (W : FVec Ideal Cert.KernelIdeal.S256x2 .f32)
    (b : FVec Ideal Cert.KernelIdeal.S2 .f32) :
    Cert.SplitLinear.lin (M := 800000) (K1 := 128) (K2 := 128) (N := 2) hs hd
        (extractStridedSlice S128x2 ![0, 0] W slices_S256x2_S128x2_0_0)
        (extractStridedSlice S128x2 ![128, 0] W slices_S256x2_S128x2_128_0)
        (shapeCast S1x2 b shapeCasts_S2_S1x2)
      = Cert.Layers.score hs hd W b := by
  unfold Cert.Layers.score
  exact Cert.SplitLinear.lin_eq_host (K := 256) (by norm_num) hs hd W b
    Cert.ReferenceIdeal.Facts₀.dot_S800000x256_S256x2_S800000x2_1_0_0_1_n_n_wf
    Cert.ReferenceIdeal.Facts₀.concatenates_S800000x128_S800000x128_S800000x256_d1
    slices_S256x2_S128x2_0_0 slices_S256x2_S128x2_128_0 shapeCasts_S2_S1x2
    Cert.ReferenceIdeal.Facts₀.bcast_S2_S1x2_1 Cert.ReferenceIdeal.Facts₀.bcast_S1x2_S800000x2_0_1

end Cert.Bridge

end
-- ==== Proof.Stretch0.lean ====
/-
  The first stretch of host operations of the idealized kernel, read at the buffers the rest of the program uses.

  From any buffer contents the stretch leaves: the node table and the edge features unchanged in value (a change of float
  format is the identity on the extended reals), every node's in-degree, every edge's source row of the node table, the
  two row blocks of the first message weight, and the first message bias laid as a row.  The arguments it does not
  write keep their contents.
-/
import proofs.«134400_j56057913147666_2_alg».proof.Proof.Gen.KernelIdeal.Launch
import proofs.«134400_j56057913147666_2_alg».proof.Proof.Layers
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀ Cert.KernelIdeal.Facts

variable [Cert.KernelIdeal.Facts] [Cert.ReferenceIdeal.Facts]
variable (Wv : Valuation τ sig (Elt Ideal))

/-- The node table, re-typed. -/
theorem s0_v0 : StableHlo.after (hostOps0 (F := Ideal)) Wv (Proc.devRef .tc main_v0) = Wv (Proc.devRef .tc main_arg0) := by
  after_results_simp <;> rfl
/-- The edge features, re-typed. -/
theorem s0_v1 : StableHlo.after (hostOps0 (F := Ideal)) Wv (Proc.devRef .tc main_v1) = Wv (Proc.devRef .tc main_arg1) := by
  after_results_simp <;> rfl
/-- Every node's in-degree. -/
theorem s0_v5 : StableHlo.after (hostOps0 (F := Ideal)) Wv (Proc.devRef .tc main_v5) = Cert.Layers.cnt (Wv (Proc.devRef .tc main_arg3)) := by
  after_results_simp <;> rfl
/-- Every edge's source row of the node table. -/
theorem s0_v12 : StableHlo.after (hostOps0 (F := Ideal)) Wv (Proc.devRef .tc main_v12)
    = Cert.Layers.gatherRows (Wv (Proc.devRef .tc main_arg0)) (Wv (Proc.devRef .tc main_arg2)) := by
  after_results_simp <;> rfl
/-- The first 128 rows of the message weight. -/
theorem s0_v14 : StableHlo.after (hostOps0 (F := Ideal)) Wv (Proc.devRef .tc main_v14)
    = extractStridedSlice S128x128 ![0, 0] (Wv (Proc.devRef .tc main_arg4)) Facts₀.slices_S192x128_S128x128_0_0 := by
  after_results_simp <;> rfl
/-- Its last 64 rows. -/
theorem s0_v16 : StableHlo.after (hostOps0 (F := Ideal)) Wv (Proc.devRef .tc main_v16)
    = extractStridedSlice S64x128 ![128, 0] (Wv (Proc.devRef .tc main_arg4)) Facts₀.slices_S192x128_S64x128_128_0 := by
  after_results_simp <;> rfl
/-- The message bias laid as a one-row table. -/
theorem s0_v17 : StableHlo.after (hostOps0 (F := Ideal)) Wv (Proc.devRef .tc main_v17)
    = shapeCast S1x128 (Wv (Proc.devRef .tc main_arg5)) Facts₀.shapeCasts_S128_S1x128 := by
  after_results_simp <;> rfl

/-! The buffers the stretch does not write. -/
theorem keep0_arg2 : StableHlo.after (hostOps0 (F := Ideal)) Wv (Proc.devRef .tc main_arg2) = Wv (Proc.devRef .tc main_arg2) := by
  after_results_simp <;> rfl
theorem keep0_arg3 : StableHlo.after (hostOps0 (F := Ideal)) Wv (Proc.devRef .tc main_arg3) = Wv (Proc.devRef .tc main_arg3) := by
  after_results_simp <;> rfl
theorem keep0_arg6 : StableHlo.after (hostOps0 (F := Ideal)) Wv (Proc.devRef .tc main_arg6) = Wv (Proc.devRef .tc main_arg6) := by
  after_results_simp <;> rfl
theorem keep0_arg7 : StableHlo.after (hostOps0 (F := Ideal)) Wv (Proc.devRef .tc main_arg7) = Wv (Proc.devRef .tc main_arg7) := by
  after_results_simp <;> rfl
theorem keep0_arg8 : StableHlo.after (hostOps0 (F := Ideal)) Wv (Proc.devRef .tc main_arg8) = Wv (Proc.devRef .tc main_arg8) := by
  after_results_simp <;> rfl
theorem keep0_arg9 : StableHlo.after (hostOps0 (F := Ideal)) Wv (Proc.devRef .tc main_arg9) = Wv (Proc.devRef .tc main_arg9) := by
  after_results_simp <;> rfl
theorem keep0_arg10 : StableHlo.after (hostOps0 (F := Ideal)) Wv (Proc.devRef .tc main_arg10) = Wv (Proc.devRef .tc main_arg10) := by
  after_results_simp <;> rfl
theorem keep0_arg11 : StableHlo.after (hostOps0 (F := Ideal)) Wv (Proc.devRef .tc main_arg11) = Wv (Proc.devRef .tc main_arg11) := by
  after_results_simp <;> rfl
theorem keep0_arg12 : StableHlo.after (hostOps0 (F := Ideal)) Wv (Proc.devRef .tc main_arg12) = Wv (Proc.devRef .tc main_arg12) := by
  after_results_simp <;> rfl
theorem keep0_arg13 : StableHlo.after (hostOps0 (F := Ideal)) Wv (Proc.devRef .tc main_arg13) = Wv (Proc.devRef .tc main_arg13) := by
  after_results_simp <;> rfl

end Cert.KernelIdeal.HostValue

end
-- ==== Proof.Stretch1.lean ====
/-
  The second stretch of host operations of the idealized kernel, read at the buffers the rest of the program uses.

  From any buffer contents the stretch leaves: the first layer's messages summed into their destination nodes and divided
  by the larger of the in-degree and 1, the two row blocks of the first update weight, and the first update bias laid
  as a row.  The buffers it does not write keep their contents.
-/
import proofs.«134400_j56057913147666_2_alg».proof.Proof.Gen.KernelIdeal.Launch
import proofs.«134400_j56057913147666_2_alg».proof.Proof.Layers
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀ Cert.KernelIdeal.Facts

variable [Cert.KernelIdeal.Facts] [Cert.ReferenceIdeal.Facts]
variable (Wv : Valuation τ sig (Elt Ideal))

/-- The neighbourhood mean of the messages the first region left. -/
theorem s1_v26 : StableHlo.after (hostOps1 (F := Ideal)) Wv (Proc.devRef .tc main_v26)
    = Cert.Layers.meanBy (Wv (Proc.devRef .tc main_v18)) (Wv (Proc.devRef .tc main_arg3)) (Wv (Proc.devRef .tc main_v5)) := by
  after_results_simp <;> rfl
/-- The first 128 rows of the update weight. -/
theorem s1_v28 : StableHlo.after (hostOps1 (F := Ideal)) Wv (Proc.devRef .tc main_v28)
    = extractStridedSlice S128x128 ![0, 0] (Wv (Proc.devRef .tc main_arg6)) Facts₀.slices_S256x128_S128x128_0_0 := by
  after_results_simp <;> rfl
/-- Its last 128 rows. -/
theorem s1_v30 : StableHlo.after (hostOps1 (F := Ideal)) Wv (Proc.devRef .tc main_v30)
    = extractStridedSlice S128x128 ![128, 0] (Wv (Proc.devRef .tc main_arg6)) Facts₀.slices_S256x128_S128x128_128_0 := by
  after_results_simp <;> rfl
/-- The update bias laid as a one-row table. -/
theorem s1_v31 : StableHlo.after (hostOps1 (F := Ideal)) Wv (Proc.devRef .tc main_v31)
    = shapeCast S1x128 (Wv (Proc.devRef .tc main_arg7)) Facts₀.shapeCasts_S128_S1x128 := by
  after_results_simp <;> rfl

/-! The buffers the stretch does not write. -/
theorem keep1_v0 : StableHlo.after (hostOps1 (F := Ideal)) Wv (Proc.devRef .tc main_v0) = Wv (Proc.devRef .tc main_v0) := by
  after_results_simp <;> rfl
theorem keep1_v1 : StableHlo.after (hostOps1 (F := Ideal)) Wv (Proc.devRef .tc main_v1) = Wv (Proc.devRef .tc main_v1) := by
  after_results_simp <;> rfl
theorem keep1_v5 : StableHlo.after (hostOps1 (F := Ideal)) Wv (Proc.devRef .tc main_v5) = Wv (Proc.devRef .tc main_v5) := by
  after_results_simp <;> rfl
theorem keep1_arg2 : StableHlo.after (hostOps1 (F := Ideal)) Wv (Proc.devRef .tc main_arg2) = Wv (Proc.devRef .tc main_arg2) := by
  after_results_simp <;> rfl
theorem keep1_arg3 : StableHlo.after (hostOps1 (F := Ideal)) Wv (Proc.devRef .tc main_arg3) = Wv (Proc.devRef .tc main_arg3) := by
  after_results_simp <;> rfl
theorem keep1_arg8 : StableHlo.after (hostOps1 (F := Ideal)) Wv (Proc.devRef .tc main_arg8) = Wv (Proc.devRef .tc main_arg8) := by
  after_results_simp <;> rfl
theorem keep1_arg9 : StableHlo.after (hostOps1 (F := Ideal)) Wv (Proc.devRef .tc main_arg9) = Wv (Proc.devRef .tc main_arg9) := by
  after_results_simp <;> rfl
theorem keep1_arg10 : StableHlo.after (hostOps1 (F := Ideal)) Wv (Proc.devRef .tc main_arg10) = Wv (Proc.devRef .tc main_arg10) := by
  after_results_simp <;> rfl
theorem keep1_arg11 : StableHlo.after (hostOps1 (F := Ideal)) Wv (Proc.devRef .tc main_arg11) = Wv (Proc.devRef .tc main_arg11) := by
  after_results_simp <;> rfl
theorem keep1_arg12 : StableHlo.after (hostOps1 (F := Ideal)) Wv (Proc.devRef .tc main_arg12) = Wv (Proc.devRef .tc main_arg12) := by
  after_results_simp <;> rfl
theorem keep1_arg13 : StableHlo.after (hostOps1 (F := Ideal)) Wv (Proc.devRef .tc main_arg13) = Wv (Proc.devRef .tc main_arg13) := by
  after_results_simp <;> rfl

end Cert.KernelIdeal.HostValue

end
-- ==== Proof.Stretch2.lean ====
/-
  The third stretch of host operations of the idealized kernel, read at the buffers the rest of the program uses.

  From any buffer contents the stretch leaves: every edge's source row of the node table the second region left, the two
  row blocks of the second message weight, and the second message bias laid as a row.  The buffers it does not write
  keep their contents.
-/
import proofs.«134400_j56057913147666_2_alg».proof.Proof.Gen.KernelIdeal.Launch
import proofs.«134400_j56057913147666_2_alg».proof.Proof.Layers
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀ Cert.KernelIdeal.Facts

variable [Cert.KernelIdeal.Facts] [Cert.ReferenceIdeal.Facts]
variable (Wv : Valuation τ sig (Elt Ideal))

/-- Every edge's source row of the updated node table. -/
theorem s2_v39 : StableHlo.after (hostOps2 (F := Ideal)) Wv (Proc.devRef .tc main_v39)
    = Cert.Layers.gatherRows (Wv (Proc.devRef .tc main_v32)) (Wv (Proc.devRef .tc main_arg2)) := by
  after_results_simp <;> rfl
/-- The first 128 rows of the message weight. -/
theorem s2_v41 : StableHlo.after (hostOps2 (F := Ideal)) Wv (Proc.devRef .tc main_v41)
    = extractStridedSlice S128x128 ![0, 0] (Wv (Proc.devRef .tc main_arg8)) Facts₀.slices_S192x128_S128x128_0_0 := by
  after_results_simp <;> rfl
/-- Its last 64 rows. -/
theorem s2_v43 : StableHlo.after (hostOps2 (F := Ideal)) Wv (Proc.devRef .tc main_v43)
    = extractStridedSlice S64x128 ![128, 0] (Wv (Proc.devRef .tc main_arg8)) Facts₀.slices_S192x128_S64x128_128_0 := by
  after_results_simp <;> rfl
/-- The message bias laid as a one-row table. -/
theorem s2_v44 : StableHlo.after (hostOps2 (F := Ideal)) Wv (Proc.devRef .tc main_v44)
    = shapeCast S1x128 (Wv (Proc.devRef .tc main_arg9)) Facts₀.shapeCasts_S128_S1x128 := by
  after_results_simp <;> rfl

/-! The buffers the stretch does not write. -/
theorem keep2_v1 : StableHlo.after (hostOps2 (F := Ideal)) Wv (Proc.devRef .tc main_v1) = Wv (Proc.devRef .tc main_v1) := by
  after_results_simp <;> rfl
theorem keep2_v5 : StableHlo.after (hostOps2 (F := Ideal)) Wv (Proc.devRef .tc main_v5) = Wv (Proc.devRef .tc main_v5) := by
  after_results_simp <;> rfl
theorem keep2_v32 : StableHlo.after (hostOps2 (F := Ideal)) Wv (Proc.devRef .tc main_v32) = Wv (Proc.devRef .tc main_v32) := by
  after_results_simp <;> rfl
theorem keep2_arg2 : StableHlo.after (hostOps2 (F := Ideal)) Wv (Proc.devRef .tc main_arg2) = Wv (Proc.devRef .tc main_arg2) := by
  after_results_simp <;> rfl
theorem keep2_arg3 : StableHlo.after (hostOps2 (F := Ideal)) Wv (Proc.devRef .tc main_arg3) = Wv (Proc.devRef .tc main_arg3) := by
  after_results_simp <;> rfl
theorem keep2_arg10 : StableHlo.after (hostOps2 (F := Ideal)) Wv (Proc.devRef .tc main_arg10) = Wv (Proc.devRef .tc main_arg10) := by
  after_results_simp <;> rfl
theorem keep2_arg11 : StableHlo.after (hostOps2 (F := Ideal)) Wv (Proc.devRef .tc main_arg11) = Wv (Proc.devRef .tc main_arg11) := by
  after_results_simp <;> rfl
theorem keep2_arg12 : StableHlo.after (hostOps2 (F := Ideal)) Wv (Proc.devRef .tc main_arg12) = Wv (Proc.devRef .tc main_arg12) := by
  after_results_simp <;> rfl
theorem keep2_arg13 : StableHlo.after (hostOps2 (F := Ideal)) Wv (Proc.devRef .tc main_arg13) = Wv (Proc.devRef .tc main_arg13) := by
  after_results_simp <;> rfl

end Cert.KernelIdeal.HostValue

end
-- ==== Proof.Stretch3.lean ====
/-
  The fourth stretch of host operations of the idealized kernel, read at the buffers the rest of the program uses.

  From any buffer contents the stretch leaves: the second layer's messages summed into their destination nodes and
  divided by the larger of the in-degree and 1, the two row blocks of the second update weight, and the second update
  bias laid as a row.  The buffers it does not write keep their contents.
-/
import proofs.«134400_j56057913147666_2_alg».proof.Proof.Gen.KernelIdeal.Launch
import proofs.«134400_j56057913147666_2_alg».proof.Proof.Layers
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀ Cert.KernelIdeal.Facts

variable [Cert.KernelIdeal.Facts] [Cert.ReferenceIdeal.Facts]
variable (Wv : Valuation τ sig (Elt Ideal))

/-- The neighbourhood mean of the messages the third region left. -/
theorem s3_v53 : StableHlo.after (hostOps3 (F := Ideal)) Wv (Proc.devRef .tc main_v53)
    = Cert.Layers.meanBy (Wv (Proc.devRef .tc main_v45)) (Wv (Proc.devRef .tc main_arg3)) (Wv (Proc.devRef .tc main_v5)) := by
  after_results_simp <;> rfl
/-- The first 128 rows of the update weight. -/
theorem s3_v55 : StableHlo.after (hostOps3 (F := Ideal)) Wv (Proc.devRef .tc main_v55)
    = extractStridedSlice S128x128 ![0, 0] (Wv (Proc.devRef .tc main_arg10)) Facts₀.slices_S256x128_S128x128_0_0 := by
  after_results_simp <;> rfl
/-- Its last 128 rows. -/
theorem s3_v57 : StableHlo.after (hostOps3 (F := Ideal)) Wv (Proc.devRef .tc main_v57)
    = extractStridedSlice S128x128 ![128, 0] (Wv (Proc.devRef .tc main_arg10)) Facts₀.slices_S256x128_S128x128_128_0 := by
  after_results_simp <;> rfl
/-- The update bias laid as a one-row table. -/
theorem s3_v58 : StableHlo.after (hostOps3 (F := Ideal)) Wv (Proc.devRef .tc main_v58)
    = shapeCast S1x128 (Wv (Proc.devRef .tc main_arg11)) Facts₀.shapeCasts_S128_S1x128 := by
  after_results_simp <;> rfl

/-! The buffers the stretch does not write. -/
theorem keep3_v32 : StableHlo.after (hostOps3 (F := Ideal)) Wv (Proc.devRef .tc main_v32) = Wv (Proc.devRef .tc main_v32) := by
  after_results_simp <;> rfl
theorem keep3_arg2 : StableHlo.after (hostOps3 (F := Ideal)) Wv (Proc.devRef .tc main_arg2) = Wv (Proc.devRef .tc main_arg2) := by
  after_results_simp <;> rfl
theorem keep3_arg3 : StableHlo.after (hostOps3 (F := Ideal)) Wv (Proc.devRef .tc main_arg3) = Wv (Proc.devRef .tc main_arg3) := by
  after_results_simp <;> rfl
theorem keep3_arg12 : StableHlo.after (hostOps3 (F := Ideal)) Wv (Proc.devRef .tc main_arg12) = Wv (Proc.devRef .tc main_arg12) := by
  after_results_simp <;> rfl
theorem keep3_arg13 : StableHlo.after (hostOps3 (F := Ideal)) Wv (Proc.devRef .tc main_arg13) = Wv (Proc.devRef .tc main_arg13) := by
  after_results_simp <;> rfl

end Cert.KernelIdeal.HostValue

end
-- ==== Proof.Stretch4.lean ====
/-
  The last stretch of host operations of the idealized kernel, read at the buffers the last region takes.

  From any buffer contents the stretch leaves: every edge's source row and destination row of the node table the fourth
  region left, the two row blocks of the score weight, and the score bias laid as a row.
-/
import proofs.«134400_j56057913147666_2_alg».proof.Proof.Gen.KernelIdeal.Launch
import proofs.«134400_j56057913147666_2_alg».proof.Proof.Layers
import Idealize.ShloMosaic.Lib.StableHlo.Run

set_option maxRecDepth 16384

noncomputable section

namespace Cert.KernelIdeal.HostValue

open Idealize.ShloMosaic Idealize.ShloMosaic.TcCoe Idealize.ShloMosaic.StableHlo
open Cert.KernelIdeal Cert.KernelIdeal.Gen Cert.KernelIdeal.Facts₀ Cert.KernelIdeal.Facts

variable [Cert.KernelIdeal.Facts] [Cert.ReferenceIdeal.Facts]
variable (Wv : Valuation τ sig (Elt Ideal))

/-- Every edge's source row of the final node table. -/
theorem s4_v66 : StableHlo.after (hostOps4 (F := Ideal)) Wv (Proc.devRef .tc main_v66)
    = Cert.Layers.gatherRows (Wv (Proc.devRef .tc main_v59)) (Wv (Proc.devRef .tc main_arg2)) := by
  after_results_simp <;> rfl
/-- Every edge's destination row of the final node table. -/
theorem s4_v73 : StableHlo.after (hostOps4 (F := Ideal)) Wv (Proc.devRef .tc main_v73)
    = Cert.Layers.gatherRows (Wv (Proc.devRef .tc main_v59)) (Wv (Proc.devRef .tc main_arg3)) := by
  after_results_simp <;> rfl
/-- The first 128 rows of the score weight. -/
theorem s4_v75 : StableHlo.after (hostOps4 (F := Ideal)) Wv (Proc.devRef .tc main_v75)
    = extractStridedSlice S128x2 ![0, 0] (Wv (Proc.devRef .tc main_arg12)) Facts₀.slices_S256x2_S128x2_0_0 := by
  after_results_simp <;> rfl
/-- Its last 128 rows. -/
theorem s4_v77 : StableHlo.after (hostOps4 (F := Ideal)) Wv (Proc.devRef .tc main_v77)
    = extractStridedSlice S128x2 ![128, 0] (Wv (Proc.devRef .tc main_arg12)) Facts₀.slices_S256x2_S128x2_128_0 := by
  after_results_simp <;> rfl
/-- The score bias laid as a one-row table. -/
theorem s4_v78 : StableHlo.after (hostOps4 (F := Ideal)) Wv (Proc.devRef .tc main_v78)
    = shapeCast S1x2 (Wv (Proc.devRef .tc main_arg13)) Facts₀.shapeCasts_S2_S1x2 := by
  after_results_simp <;> rfl

end Cert.KernelIdeal.HostValue

end
-- ==== Proof.RegionValue0.lean ====
/-
  The first of the kernel's five split linear layers (region 0), over a table of 800000 rows, computed tile by tile.

  The table is cut in 100 tiles of 8000 consecutive rows.  At tile t the body reads rows 8000·t … 8000·t + 7999 of the
  two input groups (128 and 64 columns), the whole of the two weight blocks (128 × 128 and 64 × 128) and the whole bias row
  (1 × 128), and leaves in the output tile, at row p and column q,

      (sum over c < 128 of x1 (p, c) * w1 (c, q)) + (sum over c < 64 of x2 (p, c) * w2 (c, q)) + b (0, q):

  two matrix products into zero accumulators, added, plus the bias row repeated down the rows.  Row p of tile t is row
  8000·t + p of the table, and the weights and the bias do not move with t, so that value is entry (8000·t + p, q) of the
  split linear layer of the five whole arrays: each tile written back is the matching tile of ONE function of the arrays.
  Every row r < 800000 lies in tile r / 8000, since 8000·(r / 8000) ≤ r < 8000·(r / 8000) + 8000 and r / 8000 < 100, and a
  tile spans all 128 columns; so the tiles cover the table, and after the last tile the output array is the layer, entry
  by entry.

  All on the extended reals, where no rounding is left, and for arbitrary contents of the five input arrays.
-/
import proofs.«134400_j56057913147666_2_alg».proof.Proof.Gen.KernelIdeal.Frame
import proofs.«134400_j56057913147666_2_alg».proof.Proof.LibSplitLinearDef
import proofs.«134400_j56057913147666_2_alg».proof.Proof.LibTileMatmul
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.ValueIdx Idealize.ShloMosaic.TcCoe Cert.KernelIdeal Cert.KernelIdeal.Gen
open Idealize.ShloMosaic.Pipeline (Dat)

/- The contents of every array when the layer starts: arbitrary. -/
variable (V : (c : Dev nD) → (b : Ref sig .tc) → Buf (Elt Ideal) ((c : Thread nD τ).loc b))

/-- The zero offsets of a whole-tile access, as the constant function. -/
theorem hz0 : (![0, 0] : Fin 2 → Nat) = fun _ => 0 := funext fun a => by fin_cases a <;> rfl

/-! ## One tile: the body's value at row p, column q -/

/-- What the body leaves at (p, q) of its output tile, from the tiles it read: the two products' sums over the contracted
    column, added, plus the bias row's entry q (the bias row is repeated down the rows, so row p reads its row 0). -/
theorem pay0_apply (x0 : Vec Ideal S8000x128 .bf16) (x1 : Vec Ideal S8000x64 .bf16) (x2 : Vec Ideal S128x128 .bf16)
    (x3 : Vec Ideal S64x128 .bf16) (x4 : Vec Ideal S1x128 .f32) (p : Fin 8000) (q : Fin 128) :
    k0_pay1 (F := Ideal) x0 x1 x2 x3 x4 (ix2 p q)
      = (∑ c : Fin 128, x0 (ix2 p c) * x2 (ix2 c q)) + (∑ c : Fin 64, x1 (ix2 p c) * x3 (ix2 c q)) + x4 (ix2 (0 : Fin 1) q) := by
  unfold k0_pay1
  simp only [shapeCast_self]
  rw [addf_apply, addf_apply]
  congr 1
  · congr 1
    · exact TileMatmul.matmul_zero_apply _ none x0 x2 p q
    · exact TileMatmul.matmul_zero_apply _ none x1 x3 p q
  · refine broadcastTo_apply _ _ _ _ ?_
    intro a
    match a with
    | ⟨0, _⟩ => rfl
    | ⟨1, _⟩ => rfl

/-- A TILE OF THE LAYER IS THE LAYER'S TILE.  If row p of the two input tiles is row r of the two input tables, and the
    weight and bias tiles are the weight and bias tables, then the body's value at (p, q) is the split linear layer of the
    tables at (r, q): the sums have the same terms. -/
theorem tile_lin0 (x0 : Vec Ideal S8000x128 .bf16) (x1 : Vec Ideal S8000x64 .bf16) (x2 : Vec Ideal S128x128 .bf16)
    (x3 : Vec Ideal S64x128 .bf16) (x4 : Vec Ideal S1x128 .f32)
    (a0 : (⟨2, ![800000, 128]⟩ : Shape).Idx → EReal) (a1 : (⟨2, ![800000, 64]⟩ : Shape).Idx → EReal)
    (a2 : (⟨2, ![128, 128]⟩ : Shape).Idx → EReal) (a3 : (⟨2, ![64, 128]⟩ : Shape).Idx → EReal)
    (a4 : (⟨2, ![1, 128]⟩ : Shape).Idx → EReal)
    (r : Fin 800000) (p : Fin 8000) (q : Fin 128)
    (h0 : ∀ c : Fin 128, x0 (ix2 p c) = a0 (ix2 r c)) (h1 : ∀ c : Fin 64, x1 (ix2 p c) = a1 (ix2 r c))
    (h2 : ∀ c : Fin 128, x2 (ix2 c q) = a2 (ix2 c q)) (h3 : ∀ c : Fin 64, x3 (ix2 c q) = a3 (ix2 c q))
    (h4 : x4 (ix2 (0 : Fin 1) q) = a4 (ix2 (0 : Fin 1) q)) :
    k0_pay1 (F := Ideal) x0 x1 x2 x3 x4 (ix2 p q)
      = Cert.SplitLinear.lin (M := 800000) (K1 := 128) (K2 := 64) (N := 128) a0 a1 a2 a3 a4 (ix2 r q) := by
  rw [pay0_apply, Cert.SplitLinear.lin_apply, h4]
  congr 2
  · exact Finset.sum_congr rfl fun c _ => by rw [h0 c, h2 c]
  · exact Finset.sum_congr rfl fun c _ => by rw [h1 c, h3 c]

/-! ## Where the tiles sit in the tables -/

/-- The tile numbers at step t, decided over the 100 steps: the output and the two input groups are at row tile t,
    column tile 0; the two weight blocks and the bias row are at tile (0, 0) throughout. -/
theorem idx_facts0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry (p, c) of the first input group's tile t is entry (8000·t + p, c) of its table. -/
theorem emb0_0 (t : Fin cfg0.N) (p : Fin 8000) (cc : Fin 128) (r : Fin 800000) (hr : r.val = t.val * 8000 + p.val) :
    ((cfg0.win 0).blk t).view.emb (ix2 p cc) = ix2 r cc := by
  obtain ⟨-, -, e0, e1, -⟩ := idx_facts0 t
  funext a; apply Fin.ext
  match a with
  | ⟨0, _⟩ => show win0_0.index t 0 * 8000 + 1 * p.val = r.val; omega
  | ⟨1, _⟩ => show win0_0.index t 1 * 128 + 1 * cc.val = cc.val; omega

/-- Entry (p, c) of the second input group's tile t is entry (8000·t + p, c) of its table. -/
theorem emb0_1 (t : Fin cfg0.N) (p : Fin 8000) (cc : Fin 64) (r : Fin 800000) (hr : r.val = t.val * 8000 + p.val) :
    ((cfg0.win 1).blk t).view.emb (ix2 p cc) = ix2 r cc := by
  obtain ⟨-, -, -, -, e0, e1, -⟩ := idx_facts0 t
  funext a; apply Fin.ext
  match a with
  | ⟨0, _⟩ => show win0_1.index t 0 * 8000 + 1 * p.val = r.val; omega
  | ⟨1, _⟩ => show win0_1.index t 1 * 64 + 1 * cc.val = cc.val; omega

/-- The first weight block's tile is the whole block at every step. -/
theorem emb0_2 (t : Fin cfg0.N) (cc : Fin 128) (q : Fin 128) :
    ((cfg0.win 2).blk t).view.emb (ix2 cc q) = ix2 cc q := by
  obtain ⟨-, -, -, -, -, -, e0, e1, -⟩ := idx_facts0 t
  funext a; apply Fin.ext
  match a with
  | ⟨0, _⟩ => show win0_2.index t 0 * 128 + 1 * cc.val = cc.val; omega
  | ⟨1, _⟩ => show win0_2.index t 1 * 128 + 1 * q.val = q.val; omega

/-- The second weight block's tile is the whole block at every step. -/
theorem emb0_3 (t : Fin cfg0.N) (cc : Fin 64) (q : Fin 128) :
    ((cfg0.win 3).blk t).view.emb (ix2 cc q) = ix2 cc q := by
  obtain ⟨-, -, -, -, -, -, -, -, e0, e1, -⟩ := idx_facts0 t
  funext a; apply Fin.ext
  match a with
  | ⟨0, _⟩ => show win0_3.index t 0 * 64 + 1 * cc.val = cc.val; omega
  | ⟨1, _⟩ => show win0_3.index t 1 * 128 + 1 * q.val = q.val; omega

/-- The bias row's tile is the whole row at every step. -/
theorem emb0_4 (t : Fin cfg0.N) (u : Fin 1) (q : Fin 128) :
    ((cfg0.win 4).blk t).view.emb (ix2 u q) = ix2 u q := by
  obtain ⟨-, -, -, -, -, -, -, -, -, -, e0, e1⟩ := idx_facts0 t
  funext a; apply Fin.ext
  match a with
  | ⟨0, _⟩ => show win0_4.index t 0 * 1 + 1 * u.val = u.val; omega
  | ⟨1, _⟩ => show win0_4.index t 1 * 128 + 1 * q.val = q.val; omega

/-- Entry (p, q) of the output's tile t is entry (8000·t + p, q) of the output table. -/
theorem emb0_5 (t : Fin cfg0.N) (p : Fin 8000) (q : Fin 128) (r : Fin 800000) (hr : r.val = t.val * 8000 + p.val) :
    ((cfg0.win 5).blk t).view.emb (ix2 p q) = ix2 r q := by
  obtain ⟨e0, e1, -⟩ := idx_facts0 t
  funext a; apply Fin.ext
  match a with
  | ⟨0, _⟩ => show win0_5.index t 0 * 8000 + 1 * p.val = r.val; omega
  | ⟨1, _⟩ => show win0_5.index t 1 * 128 + 1 * q.val = q.val; omega

/-! ## What step t writes back, and the whole table -/

set_option maxHeartbeats 2000000 in
/-- WHAT STEP t WRITES BACK is tile t of the split linear layer of the five arrays as the layer finds them: at (p, q)
    of the tile, the body's value from rows 8000·t + p of the input tables and the whole weights and bias
    (`tile_lin0`), which is the layer at (8000·t + p, q). -/
theorem flushed0_eq (c : Dev nD) (t : Fin cfg0.N) :
    (dat0 (F := Ideal) V c).flushed 5 t
      = ((cfg0.win 5).blk t).view.read (Elt Ideal)
          (Cert.SplitLinear.lin (M := 800000) (K1 := 128) (K2 := 64) (N := 128)
            (V c (Pipeline.arrRef spec0 0)) (V c (Pipeline.arrRef spec0 1)) (V c (Pipeline.arrRef spec0 2))
          (V c (Pipeline.arrRef spec0 3)) (V c (Pipeline.arrRef spec0 4))) := by
  show (cfg0.win 5).cut (grid0.coords t) ((dat0 V c).after 5 t) = _
  rw [after0_5]
  unfold out0_5
  rw [View.canon_unit_zero hz0]
  simp only [View.ld_unit_zero (S := S8000x128) hz0,
    View.ld_unit_zero (S := S8000x64) hz0,
    View.ld_unit_zero (S := S128x128) hz0,
    View.ld_unit_zero (S := S64x128) hz0,
    View.ld_unit_zero (S := S1x128) hz0]
  refine funext fun (y : S8000x128.Idx) => ?_
  obtain ⟨p, q, rfl⟩ : ∃ (p : Fin 8000) (q : Fin 128), y = ix2 p q := ⟨y 0, y 1, eq_ix2 y⟩
  have hN : cfg0.N = 100 := N_0
  have ht : t.val < 100 := by have := t.isLt; omega
  have hr : t.val * 8000 + p.val < 800000 := by have := p.isLt; omega
  show k0_pay1 (F := Ideal) (iblk0 V c 0 t) (iblk0 V c 1 t) (iblk0 V c 2 t) (iblk0 V c 3 t) (iblk0 V c 4 t) (ix2 p q)
      = Cert.SplitLinear.lin (M := 800000) (K1 := 128) (K2 := 64) (N := 128)
          (V c (Pipeline.arrRef spec0 0)) (V c (Pipeline.arrRef spec0 1)) (V c (Pipeline.arrRef spec0 2))
          (V c (Pipeline.arrRef spec0 3)) (V c (Pipeline.arrRef spec0 4)) (((cfg0.win 5).blk t).view.emb (ix2 p q))
  rw [emb0_5 t p q ⟨t.val * 8000 + p.val, hr⟩ rfl]
  refine tile_lin0 _ _ _ _ _ _ _ _ _ _ ⟨t.val * 8000 + p.val, hr⟩ p q ?_ ?_ ?_ ?_ ?_
  · intro cc
    show V c (Pipeline.arrRef spec0 0) (((cfg0.win 0).blk t).view.emb (ix2 p cc)) = _
    rw [emb0_0 t p cc ⟨t.val * 8000 + p.val, hr⟩ rfl]
  · intro cc
    show V c (Pipeline.arrRef spec0 1) (((cfg0.win 1).blk t).view.emb (ix2 p cc)) = _
    rw [emb0_1 t p cc ⟨t.val * 8000 + p.val, hr⟩ rfl]
  · intro cc
    show V c (Pipeline.arrRef spec0 2) (((cfg0.win 2).blk t).view.emb (ix2 cc q)) = _
    rw [emb0_2 t cc q]
  · intro cc
    show V c (Pipeline.arrRef spec0 3) (((cfg0.win 3).blk t).view.emb (ix2 cc q)) = _
    rw [emb0_3 t cc q]
  · show V c (Pipeline.arrRef spec0 4) (((cfg0.win 4).blk t).view.emb (ix2 (0 : Fin 1) q)) = _
    rw [emb0_4 t 0 q]

/-- An entry of the output table is in tile t iff each coordinate is in the tile's range on its axis. -/
theorem mem_blk0 (t : Fin cfg0.N) (i : S800000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v18).slice (win0_5.rect t)).set ↔ _
  rw [View.set_slice_whole, Rect.mem_set_unit]
  exact Iff.rfl

/-- THE TILES COVER THE TABLE: entry (r, q) lies in tile r / 8000, for 8000·(r / 8000) ≤ r < 8000·(r / 8000) + 8000 and
    r / 8000 < 100; a tile spans all 128 columns. -/
theorem cover0 (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 100 := N_0
  have hlt : (i 0).val / 8000 < cfg0.N := by omega
  obtain ⟨e0, e1, -⟩ := idx_facts0 ⟨(i 0).val / 8000, hlt⟩
  refine ⟨⟨(i 0).val / 8000, hlt⟩, flush0_5 _, ?_⟩
  rw [mem_blk0]
  intro a
  match a with
  | ⟨0, _⟩ =>
    show win0_5.index ⟨(i 0).val / 8000, hlt⟩ (0 : Fin 2) * 8000 ≤ (i 0).val
      ∧ (i 0).val < win0_5.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win0_5.index ⟨(i 0).val / 8000, hlt⟩ (1 : Fin 2) * 128 ≤ (i 1).val
      ∧ (i 1).val < win0_5.index ⟨(i 0).val / 8000, hlt⟩ (1 : Fin 2) * 128 + 128
    rw [e1]; omega

/-- THE OUTPUT TABLE after the last tile is the split linear layer of the five input arrays as the layer found them:
    every tile written back is the layer's tile (`flushed0_eq`) and the tiles cover the table (`cover0`). -/
theorem final0 (c : Dev nD) :
    (dat0 (F := Ideal) V c).arrAt 5 cfg0.N
      = Cert.SplitLinear.lin (M := 800000) (K1 := 128) (K2 := 64) (N := 128)
          (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed0_eq V c t) cover0

end Cert.KernelIdeal.RegionValue

end
-- ==== Proof.RegionValue1.lean ====
/-
  The value of region 1: the rectified split linear layer over the 50000 node rows.

  The region takes two tables of 50000 rows and 128 columns, x1 and x2, a 128 × 128 weight block for each, w1 and w2,
  and a bias laid as one row b of 128 entries.  Its grid has 10 points.  Point t reads rows 5000 t … 5000 t + 4999 of
  x1 and of x2 and the whole of w1, w2 and b, and writes rows 5000 t … 5000 t + 4999 of the result: entry (p, q) of the
  tile it writes is

      max ((sum over c < 128 of x1 (5000 t + p, c) * w1 (c, q)) + (sum over c < 128 of x2 (5000 t + p, c) * w2 (c, q))
            + b (0, q), 0).

  On the extended reals no operation rounds and a change of float format is the identity, so this is entry
  (5000 t + p, q) of the rectified layer of the whole tables: a row of a product only reads the same row of its left
  operand.  Row r of the result lies in the tile of point r / 5000, and 10 * 5000 = 50000, so the ten tiles cover every
  row; hence after the last point the result array is the rectified layer of the five input arrays as the region finds
  them.
-/
import proofs.«134400_j56057913147666_2_alg».proof.Proof.Gen.KernelIdeal.Frame
import proofs.«134400_j56057913147666_2_alg».proof.Proof.LibSplitLinearDef
import proofs.«134400_j56057913147666_2_alg».proof.Proof.LibTileMatmul
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.ValueIdx Idealize.ShloMosaic.TcCoe Cert.KernelIdeal Cert.KernelIdeal.Gen
open Idealize.ShloMosaic.Pipeline (Dat)

/-- The offsets (0, 0), as the constant function 0. -/
theorem hz1 : (![0, 0] : Fin 2 → Nat) = fun _ => 0 := funext fun a => by fin_cases a <;> rfl

/-! ## One tile's arithmetic at an entry -/

/-- Entry (p, q) of what the body computes from its five blocks: the two products' entries added, the bias entry of
    column q added, and the maximum with 0 taken.  Each product into the zero accumulator is the finite sum over the
    contracted coordinate; the bias row is broadcast along the rows; the final narrowing is the identity. -/
theorem pay1_apply (x0 x1 : Vec Ideal S5000x128 .bf16) (x2 x3 : Vec Ideal S128x128 .bf16) (x4 : Vec Ideal S1x128 .f32)
    (p : Fin 5000) (q : Fin 128) :
    k1_pay1 (F := Ideal) x0 x1 x2 x3 x4 (ix2 p q)
      = max ((∑ c : Fin 128, x0 (ix2 p c) * x2 (ix2 c q)) + (∑ c : Fin 128, x1 (ix2 p c) * x3 (ix2 c q))
          + x4 (ix2 (0 : Fin 1) q)) 0 := by
  unfold k1_pay1
  simp only [shapeCast_self]
  rw [truncf_apply, maximumf_apply, addf_apply, addf_apply, broadcast_apply]
  have hb : broadcastTo S5000x128 x4 broadcasts_S1x128_S5000x128 (ix2 p q) = x4 (ix2 (0 : Fin 1) q) :=
    broadcastTo_apply x4 broadcasts_S1x128_S5000x128 (ix2 p q) (ix2 (0 : Fin 1) q) fun a => by
      match a with
      | ⟨0, _⟩ => rfl
      | ⟨1, _⟩ => rfl
  have hm0 := TileMatmul.matmul_zero_apply (m := 5000) (k := 128) (n := 128) (φ₁ := .bf16) (φ₂ := .bf16)
    dot_S5000x128_S128x128_S5000x128_1_0_0_1_n_n.wf none x0 x2 p q
  have hm1 := TileMatmul.matmul_zero_apply (m := 5000) (k := 128) (n := 128) (φ₁ := .bf16) (φ₂ := .bf16)
    dot_S5000x128_S128x128_S5000x128_1_0_0_1_n_n.wf none x1 x3 p q
  have h0 : (FloatOps.ofBits (F := Ideal) FTy.f32 0#32) = (0 : EReal) := Ideal.ofBits_zero_f32
  exact congrArg₂ max (congrArg₂ (· + ·) (congrArg₂ (· + ·) hm0 hm1) hb) h0

/-! ## Which block each point reads and writes -/

/-- At point t the two row tables and the result are at block (t, 0): rows 5000 t onwards, all the columns.  The two
    weight blocks and the bias row are at block (0, 0): the whole array at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first row table's block at point t, at (p, k), is the table at (5000 t + p, k) — for any table. -/
theorem rows_read1_0 (A : (⟨2, ![50000, 128]⟩ : Shape).Idx → EReal) (t : Fin cfg1.N) (p : Fin 5000) (k : Fin 128)
    (h : t.val * 5000 + p.val < 50000) :
    ((cfg1.win 0).blk t).view.read (Elt Ideal) A (ix2 p k) = A (ix2 ⟨t.val * 5000 + p.val, h⟩ k) := by
  obtain ⟨e0, e1, -⟩ := idx_facts1 t
  rw [View.read_apply]
  show A _ = A _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The second row table's block at point t, at (p, k), is the table at (5000 t + p, k). -/
theorem rows_read1_1 (A : (⟨2, ![50000, 128]⟩ : Shape).Idx → EReal) (t : Fin cfg1.N) (p : Fin 5000) (k : Fin 128)
    (h : t.val * 5000 + p.val < 50000) :
    ((cfg1.win 1).blk t).view.read (Elt Ideal) A (ix2 p k) = A (ix2 ⟨t.val * 5000 + p.val, h⟩ k) := by
  obtain ⟨-, -, e0, e1, -⟩ := idx_facts1 t
  rw [View.read_apply]
  show A _ = A _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The first weight block's block at any point is the whole weight block. -/
theorem weights_read1_2 (A : (⟨2, ![128, 128]⟩ : Shape).Idx → EReal) (t : Fin cfg1.N) (k : Fin 128) (q : Fin 128) :
    ((cfg1.win 2).blk t).view.read (Elt Ideal) A (ix2 k q) = A (ix2 k q) := by
  obtain ⟨-, -, -, -, e0, e1, -⟩ := idx_facts1 t
  rw [View.read_apply]
  show A _ = A _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight block's block at any point is the whole weight block. -/
theorem weights_read1_3 (A : (⟨2, ![128, 128]⟩ : Shape).Idx → EReal) (t : Fin cfg1.N) (k : Fin 128) (q : Fin 128) :
    ((cfg1.win 3).blk t).view.read (Elt Ideal) A (ix2 k q) = A (ix2 k q) := by
  obtain ⟨-, -, -, -, -, -, e0, e1, -⟩ := idx_facts1 t
  rw [View.read_apply]
  show A _ = A _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block at any point is the whole row. -/
theorem bias_read1_4 (A : (⟨2, ![1, 128]⟩ : Shape).Idx → EReal) (t : Fin cfg1.N) (u : Fin 1) (q : Fin 128) :
    ((cfg1.win 4).blk t).view.read (Elt Ideal) A (ix2 u q) = A (ix2 u q) := by
  obtain ⟨-, -, -, -, -, -, -, -, e0, e1, -⟩ := idx_facts1 t
  rw [View.read_apply]
  show A _ = A _
  congr 1
  funext a
  apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-- The result's block at point t, at (p, k), is the result table at (5000 t + p, k) — for any table. -/
theorem rows_read1_5 (A : (⟨2, ![50000, 128]⟩ : Shape).Idx → EReal) (t : Fin cfg1.N) (p : Fin 5000) (k : Fin 128)
    (h : t.val * 5000 + p.val < 50000) :
    ((cfg1.win 5).blk t).view.read (Elt Ideal) A (ix2 p k) = A (ix2 ⟨t.val * 5000 + p.val, h⟩ k) := by
  obtain ⟨-, -, -, -, -, -, -, -, -, -, e0, e1⟩ := idx_facts1 t
  rw [View.read_apply]
  show A _ = A _
  congr 1
  funext a
  apply Fin.ext
  match a with
  | ⟨0, _⟩ => show win1_5.index t (0 : Fin 2) * 5000 + 1 * p.val = t.val * 5000 + p.val; rw [e0]; omega
  | ⟨1, _⟩ => show win1_5.index t (1 : Fin 2) * 128 + 1 * k.val = k.val; rw [e1]; omega

/-! ## What a point writes back, and the whole array -/

section
variable (V : (c : Dev nD) → (b : Ref sig .tc) → Buf (Elt Ideal) ((c : Thread nD τ).loc b))

/-- What point t writes back is block t of the rectified layer of the five input arrays: entry (p, q) of the tile is
    the body's arithmetic on rows 5000 t + p of the two row tables and on the whole weights and bias, which is the
    layer's entry (5000 t + p, q). -/
theorem flushed1_eq (c : Dev nD) (t : Fin cfg1.N) :
    (dat1 (F := Ideal) V c).flushed 5 t
      = ((cfg1.win 5).blk t).view.read (Elt Ideal)
          (Cert.SplitLinear.linRelu (M := 50000) (K1 := 128) (K2 := 128) (N := 128)
            (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1,
    View.ld_unit_zero (S := S1x128) hz1]
  funext y
  obtain ⟨p, q, rfl⟩ : ∃ (p : Fin 5000) (q : Fin 128), y = ix2 p q := ⟨y 0, y 1, eq_ix2 y⟩
  have hN : cfg1.N = 10 := N_1
  have hp : t.val * 5000 + p.val < 50000 := by have := t.isLt; have := p.isLt; omega
  have h0 : ∀ k : Fin 128, iblk1 V c 0 t (ix2 p k)
      = V c (Pipeline.arrRef spec1 0) (ix2 ⟨t.val * 5000 + p.val, hp⟩ k) := fun k => rows_read1_0 _ t p k hp
  have h1 : ∀ k : Fin 128, iblk1 V c 1 t (ix2 p k)
      = V c (Pipeline.arrRef spec1 1) (ix2 ⟨t.val * 5000 + p.val, hp⟩ k) := fun k => rows_read1_1 _ t p k hp
  have h2 : ∀ k : Fin 128, iblk1 V c 2 t (ix2 k q) = V c (Pipeline.arrRef spec1 2) (ix2 k q) :=
    fun k => weights_read1_2 _ t k q
  have h3 : ∀ k : Fin 128, iblk1 V c 3 t (ix2 k q) = V c (Pipeline.arrRef spec1 3) (ix2 k q) :=
    fun k => weights_read1_3 _ t k q
  have h4 : iblk1 V c 4 t (ix2 (0 : Fin 1) q) = V c (Pipeline.arrRef spec1 4) (ix2 (0 : Fin 1) q) :=
    bias_read1_4 _ t 0 q
  refine (pay1_apply _ _ _ _ _ p q).trans ?_
  refine Eq.trans ?_ (rows_read1_5 _ t p q hp).symm
  rw [Cert.SplitLinear.linRelu_apply]
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h3 k))) h4) rfl

end

/-- An entry of the result table is in point t's block iff its row is among rows 5000 t … 5000 t + 4999 (and its column
    among all 128). -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- The ten tiles cover the table: the entry of row r is in the block of point r / 5000, which writes back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e0, e1⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]
    omega

section
variable (V : (c : Dev nD) → (b : Ref sig .tc) → Buf (Elt Ideal) ((c : Thread nD τ).loc b))

/-- THE RESULT ARRAY after the region's last point: the rectified split linear layer of the five input arrays as the
    region finds them. -/
theorem final1 (c : Dev nD) :
    (dat1 (F := Ideal) V c).arrAt 5 cfg1.N
      = Cert.SplitLinear.linRelu (M := 50000) (K1 := 128) (K2 := 128) (N := 128)
          (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed1_eq V c t) cover1

end

end Cert.KernelIdeal.RegionValue

end
-- ==== Proof.RegionValue2.lean ====
/-
  The third of the kernel's five split linear layers (region 2), over a table of 800000 rows, computed tile by tile.

  The table is cut in 100 tiles of 8000 consecutive rows.  At tile t the body reads rows 8000·t … 8000·t + 7999 of the
  two input groups (128 and 64 columns), the whole of the two weight blocks (128 × 128 and 64 × 128) and the whole bias row
  (1 × 128), and leaves in the output tile, at row p and column q,

      (sum over c < 128 of x1 (p, c) * w1 (c, q)) + (sum over c < 64 of x2 (p, c) * w2 (c, q)) + b (0, q):

  two matrix products into zero accumulators, added, plus the bias row repeated down the rows.  Row p of tile t is row
  8000·t + p of the table, and the weights and the bias do not move with t, so that value is entry (8000·t + p, q) of the
  split linear layer of the five whole arrays: each tile written back is the matching tile of ONE function of the arrays.
  Every row r < 800000 lies in tile r / 8000, since 8000·(r / 8000) ≤ r < 8000·(r / 8000) + 8000 and r / 8000 < 100, and a
  tile spans all 128 columns; so the tiles cover the table, and after the last tile the output array is the layer, entry
  by entry.

  All on the extended reals, where no rounding is left, and for arbitrary contents of the five input arrays.
-/
import proofs.«134400_j56057913147666_2_alg».proof.Proof.Gen.KernelIdeal.Frame
import proofs.«134400_j56057913147666_2_alg».proof.Proof.LibSplitLinearDef
import proofs.«134400_j56057913147666_2_alg».proof.Proof.LibTileMatmul
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.ValueIdx Idealize.ShloMosaic.TcCoe Cert.KernelIdeal Cert.KernelIdeal.Gen
open Idealize.ShloMosaic.Pipeline (Dat)

/- The contents of every array when the layer starts: arbitrary. -/
variable (V : (c : Dev nD) → (b : Ref sig .tc) → Buf (Elt Ideal) ((c : Thread nD τ).loc b))

/-- The zero offsets of a whole-tile access, as the constant function. -/
theorem hz2 : (![0, 0] : Fin 2 → Nat) = fun _ => 0 := funext fun a => by fin_cases a <;> rfl

/-! ## One tile: the body's value at row p, column q -/

/-- What the body leaves at (p, q) of its output tile, from the tiles it read: the two products' sums over the contracted
    column, added, plus the bias row's entry q (the bias row is repeated down the rows, so row p reads its row 0). -/
theorem pay2_apply (x0 : Vec Ideal S8000x128 .bf16) (x1 : Vec Ideal S8000x64 .bf16) (x2 : Vec Ideal S128x128 .bf16)
    (x3 : Vec Ideal S64x128 .bf16) (x4 : Vec Ideal S1x128 .f32) (p : Fin 8000) (q : Fin 128) :
    k2_pay1 (F := Ideal) x0 x1 x2 x3 x4 (ix2 p q)
      = (∑ c : Fin 128, x0 (ix2 p c) * x2 (ix2 c q)) + (∑ c : Fin 64, x1 (ix2 p c) * x3 (ix2 c q)) + x4 (ix2 (0 : Fin 1) q) := by
  unfold k2_pay1
  simp only [shapeCast_self]
  rw [addf_apply, addf_apply]
  congr 1
  · congr 1
    · exact TileMatmul.matmul_zero_apply _ none x0 x2 p q
    · exact TileMatmul.matmul_zero_apply _ none x1 x3 p q
  · refine broadcastTo_apply _ _ _ _ ?_
    intro a
    match a with
    | ⟨0, _⟩ => rfl
    | ⟨1, _⟩ => rfl

/-- A TILE OF THE LAYER IS THE LAYER'S TILE.  If row p of the two input tiles is row r of the two input tables, and the
    weight and bias tiles are the weight and bias tables, then the body's value at (p, q) is the split linear layer of the
    tables at (r, q): the sums have the same terms. -/
theorem tile_lin2 (x0 : Vec Ideal S8000x128 .bf16) (x1 : Vec Ideal S8000x64 .bf16) (x2 : Vec Ideal S128x128 .bf16)
    (x3 : Vec Ideal S64x128 .bf16) (x4 : Vec Ideal S1x128 .f32)
    (a0 : (⟨2, ![800000, 128]⟩ : Shape).Idx → EReal) (a1 : (⟨2, ![800000, 64]⟩ : Shape).Idx → EReal)
    (a2 : (⟨2, ![128, 128]⟩ : Shape).Idx → EReal) (a3 : (⟨2, ![64, 128]⟩ : Shape).Idx → EReal)
    (a4 : (⟨2, ![1, 128]⟩ : Shape).Idx → EReal)
    (r : Fin 800000) (p : Fin 8000) (q : Fin 128)
    (h0 : ∀ c : Fin 128, x0 (ix2 p c) = a0 (ix2 r c)) (h1 : ∀ c : Fin 64, x1 (ix2 p c) = a1 (ix2 r c))
    (h2 : ∀ c : Fin 128, x2 (ix2 c q) = a2 (ix2 c q)) (h3 : ∀ c : Fin 64, x3 (ix2 c q) = a3 (ix2 c q))
    (h4 : x4 (ix2 (0 : Fin 1) q) = a4 (ix2 (0 : Fin 1) q)) :
    k2_pay1 (F := Ideal) x0 x1 x2 x3 x4 (ix2 p q)
      = Cert.SplitLinear.lin (M := 800000) (K1 := 128) (K2 := 64) (N := 128) a0 a1 a2 a3 a4 (ix2 r q) := by
  rw [pay2_apply, Cert.SplitLinear.lin_apply, h4]
  congr 2
  · exact Finset.sum_congr rfl fun c _ => by rw [h0 c, h2 c]
  · exact Finset.sum_congr rfl fun c _ => by rw [h1 c, h3 c]

/-! ## Where the tiles sit in the tables -/

/-- The tile numbers at step t, decided over the 100 steps: the output and the two input groups are at row tile t,
    column tile 0; the two weight blocks and the bias row are at tile (0, 0) throughout. -/
theorem idx_facts2 : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Entry (p, c) of the first input group's tile t is entry (8000·t + p, c) of its table. -/
theorem emb2_0 (t : Fin cfg2.N) (p : Fin 8000) (cc : Fin 128) (r : Fin 800000) (hr : r.val = t.val * 8000 + p.val) :
    ((cfg2.win 0).blk t).view.emb (ix2 p cc) = ix2 r cc := by
  obtain ⟨-, -, e0, e1, -⟩ := idx_facts2 t
  funext a; apply Fin.ext
  match a with
  | ⟨0, _⟩ => show win2_0.index t 0 * 8000 + 1 * p.val = r.val; omega
  | ⟨1, _⟩ => show win2_0.index t 1 * 128 + 1 * cc.val = cc.val; omega

/-- Entry (p, c) of the second input group's tile t is entry (8000·t + p, c) of its table. -/
theorem emb2_1 (t : Fin cfg2.N) (p : Fin 8000) (cc : Fin 64) (r : Fin 800000) (hr : r.val = t.val * 8000 + p.val) :
    ((cfg2.win 1).blk t).view.emb (ix2 p cc) = ix2 r cc := by
  obtain ⟨-, -, -, -, e0, e1, -⟩ := idx_facts2 t
  funext a; apply Fin.ext
  match a with
  | ⟨0, _⟩ => show win2_1.index t 0 * 8000 + 1 * p.val = r.val; omega
  | ⟨1, _⟩ => show win2_1.index t 1 * 64 + 1 * cc.val = cc.val; omega

/-- The first weight block's tile is the whole block at every step. -/
theorem emb2_2 (t : Fin cfg2.N) (cc : Fin 128) (q : Fin 128) :
    ((cfg2.win 2).blk t).view.emb (ix2 cc q) = ix2 cc q := by
  obtain ⟨-, -, -, -, -, -, e0, e1, -⟩ := idx_facts2 t
  funext a; apply Fin.ext
  match a with
  | ⟨0, _⟩ => show win2_2.index t 0 * 128 + 1 * cc.val = cc.val; omega
  | ⟨1, _⟩ => show win2_2.index t 1 * 128 + 1 * q.val = q.val; omega

/-- The second weight block's tile is the whole block at every step. -/
theorem emb2_3 (t : Fin cfg2.N) (cc : Fin 64) (q : Fin 128) :
    ((cfg2.win 3).blk t).view.emb (ix2 cc q) = ix2 cc q := by
  obtain ⟨-, -, -, -, -, -, -, -, e0, e1, -⟩ := idx_facts2 t
  funext a; apply Fin.ext
  match a with
  | ⟨0, _⟩ => show win2_3.index t 0 * 64 + 1 * cc.val = cc.val; omega
  | ⟨1, _⟩ => show win2_3.index t 1 * 128 + 1 * q.val = q.val; omega

/-- The bias row's tile is the whole row at every step. -/
theorem emb2_4 (t : Fin cfg2.N) (u : Fin 1) (q : Fin 128) :
    ((cfg2.win 4).blk t).view.emb (ix2 u q) = ix2 u q := by
  obtain ⟨-, -, -, -, -, -, -, -, -, -, e0, e1⟩ := idx_facts2 t
  funext a; apply Fin.ext
  match a with
  | ⟨0, _⟩ => show win2_4.index t 0 * 1 + 1 * u.val = u.val; omega
  | ⟨1, _⟩ => show win2_4.index t 1 * 128 + 1 * q.val = q.val; omega

/-- Entry (p, q) of the output's tile t is entry (8000·t + p, q) of the output table. -/
theorem emb2_5 (t : Fin cfg2.N) (p : Fin 8000) (q : Fin 128) (r : Fin 800000) (hr : r.val = t.val * 8000 + p.val) :
    ((cfg2.win 5).blk t).view.emb (ix2 p q) = ix2 r q := by
  obtain ⟨e0, e1, -⟩ := idx_facts2 t
  funext a; apply Fin.ext
  match a with
  | ⟨0, _⟩ => show win2_5.index t 0 * 8000 + 1 * p.val = r.val; omega
  | ⟨1, _⟩ => show win2_5.index t 1 * 128 + 1 * q.val = q.val; omega

/-! ## What step t writes back, and the whole table -/

set_option maxHeartbeats 2000000 in
/-- WHAT STEP t WRITES BACK is tile t of the split linear layer of the five arrays as the layer finds them: at (p, q)
    of the tile, the body's value from rows 8000·t + p of the input tables and the whole weights and bias
    (`tile_lin2`), which is the layer at (8000·t + p, q). -/
theorem flushed2_eq (c : Dev nD) (t : Fin cfg2.N) :
    (dat2 (F := Ideal) V c).flushed 5 t
      = ((cfg2.win 5).blk t).view.read (Elt Ideal)
          (Cert.SplitLinear.lin (M := 800000) (K1 := 128) (K2 := 64) (N := 128)
            (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S8000x128) hz2,
    View.ld_unit_zero (S := S8000x64) hz2,
    View.ld_unit_zero (S := S128x128) hz2,
    View.ld_unit_zero (S := S64x128) hz2,
    View.ld_unit_zero (S := S1x128) hz2]
  refine funext fun (y : S8000x128.Idx) => ?_
  obtain ⟨p, q, rfl⟩ : ∃ (p : Fin 8000) (q : Fin 128), y = ix2 p q := ⟨y 0, y 1, eq_ix2 y⟩
  have hN : cfg2.N = 100 := N_2
  have ht : t.val < 100 := by have := t.isLt; omega
  have hr : t.val * 8000 + p.val < 800000 := by have := p.isLt; omega
  show k2_pay1 (F := Ideal) (iblk2 V c 0 t) (iblk2 V c 1 t) (iblk2 V c 2 t) (iblk2 V c 3 t) (iblk2 V c 4 t) (ix2 p q)
      = Cert.SplitLinear.lin (M := 800000) (K1 := 128) (K2 := 64) (N := 128)
          (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb (ix2 p q))
  rw [emb2_5 t p q ⟨t.val * 8000 + p.val, hr⟩ rfl]
  refine tile_lin2 _ _ _ _ _ _ _ _ _ _ ⟨t.val * 8000 + p.val, hr⟩ p q ?_ ?_ ?_ ?_ ?_
  · intro cc
    show V c (Pipeline.arrRef spec2 0) (((cfg2.win 0).blk t).view.emb (ix2 p cc)) = _
    rw [emb2_0 t p cc ⟨t.val * 8000 + p.val, hr⟩ rfl]
  · intro cc
    show V c (Pipeline.arrRef spec2 1) (((cfg2.win 1).blk t).view.emb (ix2 p cc)) = _
    rw [emb2_1 t p cc ⟨t.val * 8000 + p.val, hr⟩ rfl]
  · intro cc
    show V c (Pipeline.arrRef spec2 2) (((cfg2.win 2).blk t).view.emb (ix2 cc q)) = _
    rw [emb2_2 t cc q]
  · intro cc
    show V c (Pipeline.arrRef spec2 3) (((cfg2.win 3).blk t).view.emb (ix2 cc q)) = _
    rw [emb2_3 t cc q]
  · show V c (Pipeline.arrRef spec2 4) (((cfg2.win 4).blk t).view.emb (ix2 (0 : Fin 1) q)) = _
    rw [emb2_4 t 0 q]

/-- An entry of the output table is in tile t iff each coordinate is in the tile's range on its axis. -/
theorem mem_blk2 (t : Fin cfg2.N) (i : S800000x128.Idx) :
    i ∈ ((cfg2.win 5).blk t).view.set ↔ ∀ a : Fin 2, win2_5.index t a * S8000x128.size a ≤ (i a).val
      ∧ (i a).val < win2_5.index t a * S8000x128.size a + S8000x128.size a := by
  show i ∈ ((View.whole main_v45).slice (win2_5.rect t)).set ↔ _
  rw [View.set_slice_whole, Rect.mem_set_unit]
  exact Iff.rfl

/-- THE TILES COVER THE TABLE: entry (r, q) lies in tile r / 8000, for 8000·(r / 8000) ≤ r < 8000·(r / 8000) + 8000 and
    r / 8000 < 100; a tile spans all 128 columns. -/
theorem cover2 (i : S800000x128.Idx) :
    ∃ t : Fin cfg2.N, (cfg2.win 5).flush t = true ∧ i ∈ ((cfg2.win 5).blk t).view.set := by
  have hi0 : (i 0).val < 800000 := (i 0).isLt
  have hi1 : (i 1).val < 128 := (i 1).isLt
  have hN : cfg2.N = 100 := N_2
  have hlt : (i 0).val / 8000 < cfg2.N := by omega
  obtain ⟨e0, e1, -⟩ := idx_facts2 ⟨(i 0).val / 8000, hlt⟩
  refine ⟨⟨(i 0).val / 8000, hlt⟩, flush2_5 _, ?_⟩
  rw [mem_blk2]
  intro a
  match a with
  | ⟨0, _⟩ =>
    show win2_5.index ⟨(i 0).val / 8000, hlt⟩ (0 : Fin 2) * 8000 ≤ (i 0).val
      ∧ (i 0).val < win2_5.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win2_5.index ⟨(i 0).val / 8000, hlt⟩ (1 : Fin 2) * 128 ≤ (i 1).val
      ∧ (i 1).val < win2_5.index ⟨(i 0).val / 8000, hlt⟩ (1 : Fin 2) * 128 + 128
    rw [e1]; omega

/-- THE OUTPUT TABLE after the last tile is the split linear layer of the five input arrays as the layer found them:
    every tile written back is the layer's tile (`flushed2_eq`) and the tiles cover the table (`cover2`). -/
theorem final2 (c : Dev nD) :
    (dat2 (F := Ideal) V c).arrAt 5 cfg2.N
      = Cert.SplitLinear.lin (M := 800000) (K1 := 128) (K2 := 64) (N := 128)
          (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed2_eq V c t) cover2

end Cert.KernelIdeal.RegionValue

end
-- ==== Proof.RegionValue3.lean ====
/-
  The value of region 3: the rectified split linear layer over the 50000 node rows.

  The region takes two tables of 50000 rows and 128 columns, x1 and x2, a 128 × 128 weight block for each, w1 and w2,
  and a bias laid as one row b of 128 entries.  Its grid has 10 points.  Point t reads rows 5000 t … 5000 t + 4999 of
  x1 and of x2 and the whole of w1, w2 and b, and writes rows 5000 t … 5000 t + 4999 of the result: entry (p, q) of the
  tile it writes is

      max ((sum over c < 128 of x1 (5000 t + p, c) * w1 (c, q)) + (sum over c < 128 of x2 (5000 t + p, c) * w2 (c, q))
            + b (0, q), 0).

  On the extended reals no operation rounds and a change of float format is the identity, so this is entry
  (5000 t + p, q) of the rectified layer of the whole tables: a row of a product only reads the same row of its left
  operand.  Row r of the result lies in the tile of point r / 5000, and 10 * 5000 = 50000, so the ten tiles cover every
  row; hence after the last point the result array is the rectified layer of the five input arrays as the region finds
  them.
-/
import proofs.«134400_j56057913147666_2_alg».proof.Proof.Gen.KernelIdeal.Frame
import proofs.«134400_j56057913147666_2_alg».proof.Proof.LibSplitLinearDef
import proofs.«134400_j56057913147666_2_alg».proof.Proof.LibTileMatmul
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.ValueIdx Idealize.ShloMosaic.TcCoe Cert.KernelIdeal Cert.KernelIdeal.Gen
open Idealize.ShloMosaic.Pipeline (Dat)

/-- The offsets (0, 0), as the constant function 0. -/
theorem hz3 : (![0, 0] : Fin 2 → Nat) = fun _ => 0 := funext fun a => by fin_cases a <;> rfl

/-! ## One tile's arithmetic at an entry -/

/-- Entry (p, q) of what the body computes from its five blocks: the two products' entries added, the bias entry of
    column q added, and the maximum with 0 taken.  Each product into the zero accumulator is the finite sum over the
    contracted coordinate; the bias row is broadcast along the rows; the final narrowing is the identity. -/
theorem pay3_apply (x0 x1 : Vec Ideal S5000x128 .bf16) (x2 x3 : Vec Ideal S128x128 .bf16) (x4 : Vec Ideal S1x128 .f32)
    (p : Fin 5000) (q : Fin 128) :
    k3_pay1 (F := Ideal) x0 x1 x2 x3 x4 (ix2 p q)
      = max ((∑ c : Fin 128, x0 (ix2 p c) * x2 (ix2 c q)) + (∑ c : Fin 128, x1 (ix2 p c) * x3 (ix2 c q))
          + x4 (ix2 (0 : Fin 1) q)) 0 := by
  unfold k3_pay1
  simp only [shapeCast_self]
  rw [truncf_apply, maximumf_apply, addf_apply, addf_apply, broadcast_apply]
  have hb : broadcastTo S5000x128 x4 broadcasts_S1x128_S5000x128 (ix2 p q) = x4 (ix2 (0 : Fin 1) q) :=
    broadcastTo_apply x4 broadcasts_S1x128_S5000x128 (ix2 p q) (ix2 (0 : Fin 1) q) fun a => by
      match a with
      | ⟨0, _⟩ => rfl
      | ⟨1, _⟩ => rfl
  have hm0 := TileMatmul.matmul_zero_apply (m := 5000) (k := 128) (n := 128) (φ₁ := .bf16) (φ₂ := .bf16)
    dot_S5000x128_S128x128_S5000x128_1_0_0_1_n_n.wf none x0 x2 p q
  have hm1 := TileMatmul.matmul_zero_apply (m := 5000) (k := 128) (n := 128) (φ₁ := .bf16) (φ₂ := .bf16)
    dot_S5000x128_S128x128_S5000x128_1_0_0_1_n_n.wf none x1 x3 p q
  have h0 : (FloatOps.ofBits (F := Ideal) FTy.f32 0#32) = (0 : EReal) := Ideal.ofBits_zero_f32
  exact congrArg₂ max (congrArg₂ (· + ·) (congrArg₂ (· + ·) hm0 hm1) hb) h0

/-! ## Which block each point reads and writes -/

/-- At point t the two row tables and the result are at block (t, 0): rows 5000 t onwards, all the columns.  The two
    weight blocks and the bias row are at block (0, 0): the whole array at every point. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first row table's block at point t, at (p, k), is the table at (5000 t + p, k) — for any table. -/
theorem rows_read3_0 (A : (⟨2, ![50000, 128]⟩ : Shape).Idx → EReal) (t : Fin cfg3.N) (p : Fin 5000) (k : Fin 128)
    (h : t.val * 5000 + p.val < 50000) :
    ((cfg3.win 0).blk t).view.read (Elt Ideal) A (ix2 p k) = A (ix2 ⟨t.val * 5000 + p.val, h⟩ k) := by
  obtain ⟨e0, e1, -⟩ := idx_facts3 t
  rw [View.read_apply]
  show A _ = A _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The second row table's block at point t, at (p, k), is the table at (5000 t + p, k). -/
theorem rows_read3_1 (A : (⟨2, ![50000, 128]⟩ : Shape).Idx → EReal) (t : Fin cfg3.N) (p : Fin 5000) (k : Fin 128)
    (h : t.val * 5000 + p.val < 50000) :
    ((cfg3.win 1).blk t).view.read (Elt Ideal) A (ix2 p k) = A (ix2 ⟨t.val * 5000 + p.val, h⟩ k) := by
  obtain ⟨-, -, e0, e1, -⟩ := idx_facts3 t
  rw [View.read_apply]
  show A _ = A _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

/-- The first weight block's block at any point is the whole weight block. -/
theorem weights_read3_2 (A : (⟨2, ![128, 128]⟩ : Shape).Idx → EReal) (t : Fin cfg3.N) (k : Fin 128) (q : Fin 128) :
    ((cfg3.win 2).blk t).view.read (Elt Ideal) A (ix2 k q) = A (ix2 k q) := by
  obtain ⟨-, -, -, -, e0, e1, -⟩ := idx_facts3 t
  rw [View.read_apply]
  show A _ = A _
  congr 1
  funext a
  apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- The second weight block's block at any point is the whole weight block. -/
theorem weights_read3_3 (A : (⟨2, ![128, 128]⟩ : Shape).Idx → EReal) (t : Fin cfg3.N) (k : Fin 128) (q : Fin 128) :
    ((cfg3.win 3).blk t).view.read (Elt Ideal) A (ix2 k q) = A (ix2 k q) := by
  obtain ⟨-, -, -, -, -, -, e0, e1, -⟩ := idx_facts3 t
  rw [View.read_apply]
  show A _ = A _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The bias row's block at any point is the whole row. -/
theorem bias_read3_4 (A : (⟨2, ![1, 128]⟩ : Shape).Idx → EReal) (t : Fin cfg3.N) (u : Fin 1) (q : Fin 128) :
    ((cfg3.win 4).blk t).view.read (Elt Ideal) A (ix2 u q) = A (ix2 u q) := by
  obtain ⟨-, -, -, -, -, -, -, -, e0, e1, -⟩ := idx_facts3 t
  rw [View.read_apply]
  show A _ = A _
  congr 1
  funext a
  apply Fin.ext
  match a with
  | ⟨0, _⟩ => show win3_4.index t (0 : Fin 2) * 1 + 1 * u.val = u.val; rw [e0]; omega
  | ⟨1, _⟩ => show win3_4.index t (1 : Fin 2) * 128 + 1 * q.val = q.val; rw [e1]; omega

/-- The result's block at point t, at (p, k), is the result table at (5000 t + p, k) — for any table. -/
theorem rows_read3_5 (A : (⟨2, ![50000, 128]⟩ : Shape).Idx → EReal) (t : Fin cfg3.N) (p : Fin 5000) (k : Fin 128)
    (h : t.val * 5000 + p.val < 50000) :
    ((cfg3.win 5).blk t).view.read (Elt Ideal) A (ix2 p k) = A (ix2 ⟨t.val * 5000 + p.val, h⟩ k) := by
  obtain ⟨-, -, -, -, -, -, -, -, -, -, e0, e1⟩ := idx_facts3 t
  rw [View.read_apply]
  show A _ = A _
  congr 1
  funext a
  apply Fin.ext
  match a with
  | ⟨0, _⟩ => show win3_5.index t (0 : Fin 2) * 5000 + 1 * p.val = t.val * 5000 + p.val; rw [e0]; omega
  | ⟨1, _⟩ => show win3_5.index t (1 : Fin 2) * 128 + 1 * k.val = k.val; rw [e1]; omega

/-! ## What a point writes back, and the whole array -/

section
variable (V : (c : Dev nD) → (b : Ref sig .tc) → Buf (Elt Ideal) ((c : Thread nD τ).loc b))

/-- What point t writes back is block t of the rectified layer of the five input arrays: entry (p, q) of the tile is
    the body's arithmetic on rows 5000 t + p of the two row tables and on the whole weights and bias, which is the
    layer's entry (5000 t + p, q). -/
theorem flushed3_eq (c : Dev nD) (t : Fin cfg3.N) :
    (dat3 (F := Ideal) V c).flushed 5 t
      = ((cfg3.win 5).blk t).view.read (Elt Ideal)
          (Cert.SplitLinear.linRelu (M := 50000) (K1 := 128) (K2 := 128) (N := 128)
            (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3,
    View.ld_unit_zero (S := S1x128) hz3]
  funext y
  obtain ⟨p, q, rfl⟩ : ∃ (p : Fin 5000) (q : Fin 128), y = ix2 p q := ⟨y 0, y 1, eq_ix2 y⟩
  have hN : cfg3.N = 10 := N_3
  have hp : t.val * 5000 + p.val < 50000 := by have := t.isLt; have := p.isLt; omega
  have h0 : ∀ k : Fin 128, iblk3 V c 0 t (ix2 p k)
      = V c (Pipeline.arrRef spec3 0) (ix2 ⟨t.val * 5000 + p.val, hp⟩ k) := fun k => rows_read3_0 _ t p k hp
  have h1 : ∀ k : Fin 128, iblk3 V c 1 t (ix2 p k)
      = V c (Pipeline.arrRef spec3 1) (ix2 ⟨t.val * 5000 + p.val, hp⟩ k) := fun k => rows_read3_1 _ t p k hp
  have h2 : ∀ k : Fin 128, iblk3 V c 2 t (ix2 k q) = V c (Pipeline.arrRef spec3 2) (ix2 k q) :=
    fun k => weights_read3_2 _ t k q
  have h3 : ∀ k : Fin 128, iblk3 V c 3 t (ix2 k q) = V c (Pipeline.arrRef spec3 3) (ix2 k q) :=
    fun k => weights_read3_3 _ t k q
  have h4 : iblk3 V c 4 t (ix2 (0 : Fin 1) q) = V c (Pipeline.arrRef spec3 4) (ix2 (0 : Fin 1) q) :=
    bias_read3_4 _ t 0 q
  refine (pay3_apply _ _ _ _ _ p q).trans ?_
  refine Eq.trans ?_ (rows_read3_5 _ t p q hp).symm
  rw [Cert.SplitLinear.linRelu_apply]
  exact congrArg₂ max (congrArg₂ (· + ·) (congrArg₂ (· + ·)
    (Finset.sum_congr rfl fun k _ => congrArg₂ (· * ·) (h0 k) (h2 k))
    (Finset.sum_congr rfl fun k _ => congrArg₂ (· * ·) (h1 k) (h3 k))) h4) rfl

end

/-- An entry of the result table is in point t's block iff its row is among rows 5000 t … 5000 t + 4999 (and its column
    among all 128). -/
theorem mem_blk3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v59).slice (win3_5.rect t)).set ↔ _
  rw [View.set_slice_whole, Rect.mem_set_unit]
  exact Iff.rfl

/-- The ten tiles cover the table: the entry of row r is in the block of point r / 5000, which writes back. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, -, -, -, -, e0, e1⟩ := idx_facts3 ⟨(i 0).val / 5000, ht⟩
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e1]
    omega

section
variable (V : (c : Dev nD) → (b : Ref sig .tc) → Buf (Elt Ideal) ((c : Thread nD τ).loc b))

/-- THE RESULT ARRAY after the region's last point: the rectified split linear layer of the five input arrays as the
    region finds them. -/
theorem final3 (c : Dev nD) :
    (dat3 (F := Ideal) V c).arrAt 5 cfg3.N
      = Cert.SplitLinear.linRelu (M := 50000) (K1 := 128) (K2 := 128) (N := 128)
          (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_eq V c t) cover3

end

end Cert.KernelIdeal.RegionValue

end
-- ==== Proof.RegionValue4.lean ====
/-
  The fifth of the kernel's five split linear layers (region 4), over a table of 800000 rows, computed tile by tile.

  The table is cut in 100 tiles of 8000 consecutive rows.  At tile t the body reads rows 8000·t … 8000·t + 7999 of the
  two input groups (128 and 128 columns), the whole of the two weight blocks (128 × 2 and 128 × 2) and the whole bias row
  (1 × 2), and leaves in the output tile, at row p and column q,

      (sum over c < 128 of x1 (p, c) * w1 (c, q)) + (sum over c < 128 of x2 (p, c) * w2 (c, q)) + b (0, q):

  two matrix products into zero accumulators, added, plus the bias row repeated down the rows.  Row p of tile t is row
  8000·t + p of the table, and the weights and the bias do not move with t, so that value is entry (8000·t + p, q) of the
  split linear layer of the five whole arrays: each tile written back is the matching tile of ONE function of the arrays.
  Every row r < 800000 lies in tile r / 8000, since 8000·(r / 8000) ≤ r < 8000·(r / 8000) + 8000 and r / 8000 < 100, and a
  tile spans all 2 columns; so the tiles cover the table, and after the last tile the output array is the layer, entry
  by entry.

  All on the extended reals, where no rounding is left, and for arbitrary contents of the five input arrays.
-/
import proofs.«134400_j56057913147666_2_alg».proof.Proof.Gen.KernelIdeal.Frame
import proofs.«134400_j56057913147666_2_alg».proof.Proof.LibSplitLinearDef
import proofs.«134400_j56057913147666_2_alg».proof.Proof.LibTileMatmul
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.ValueIdx Idealize.ShloMosaic.TcCoe Cert.KernelIdeal Cert.KernelIdeal.Gen
open Idealize.ShloMosaic.Pipeline (Dat)

/- The contents of every array when the layer starts: arbitrary. -/
variable (V : (c : Dev nD) → (b : Ref sig .tc) → Buf (Elt Ideal) ((c : Thread nD τ).loc b))

/-- The zero offsets of a whole-tile access, as the constant function. -/
theorem hz4 : (![0, 0] : Fin 2 → Nat) = fun _ => 0 := funext fun a => by fin_cases a <;> rfl

/-! ## One tile: the body's value at row p, column q -/

/-- What the body leaves at (p, q) of its output tile, from the tiles it read: the two products' sums over the contracted
    column, added, plus the bias row's entry q (the bias row is repeated down the rows, so row p reads its row 0). -/
theorem pay4_apply (x0 : Vec Ideal S8000x128 .bf16) (x1 : Vec Ideal S8000x128 .bf16) (x2 : Vec Ideal S128x2 .bf16)
    (x3 : Vec Ideal S128x2 .bf16) (x4 : Vec Ideal S1x2 .f32) (p : Fin 8000) (q : Fin 2) :
    k4_pay1 (F := Ideal) x0 x1 x2 x3 x4 (ix2 p q)
      = (∑ c : Fin 128, x0 (ix2 p c) * x2 (ix2 c q)) + (∑ c : Fin 128, x1 (ix2 p c) * x3 (ix2 c q)) + x4 (ix2 (0 : Fin 1) q) := by
  unfold k4_pay1
  simp only [shapeCast_self]
  rw [addf_apply, addf_apply]
  congr 1
  · congr 1
    · exact TileMatmul.matmul_zero_apply _ none x0 x2 p q
    · exact TileMatmul.matmul_zero_apply _ none x1 x3 p q
  · refine broadcastTo_apply _ _ _ _ ?_
    intro a
    match a with
    | ⟨0, _⟩ => rfl
    | ⟨1, _⟩ => rfl

/-- A TILE OF THE LAYER IS THE LAYER'S TILE.  If row p of the two input tiles is row r of the two input tables, and the
    weight and bias tiles are the weight and bias tables, then the body's value at (p, q) is the split linear layer of the
    tables at (r, q): the sums have the same terms. -/
theorem tile_lin4 (x0 : Vec Ideal S8000x128 .bf16) (x1 : Vec Ideal S8000x128 .bf16) (x2 : Vec Ideal S128x2 .bf16)
    (x3 : Vec Ideal S128x2 .bf16) (x4 : Vec Ideal S1x2 .f32)
    (a0 : (⟨2, ![800000, 128]⟩ : Shape).Idx → EReal) (a1 : (⟨2, ![800000, 128]⟩ : Shape).Idx → EReal)
    (a2 : (⟨2, ![128, 2]⟩ : Shape).Idx → EReal) (a3 : (⟨2, ![128, 2]⟩ : Shape).Idx → EReal)
    (a4 : (⟨2, ![1, 2]⟩ : Shape).Idx → EReal)
    (r : Fin 800000) (p : Fin 8000) (q : Fin 2)
    (h0 : ∀ c : Fin 128, x0 (ix2 p c) = a0 (ix2 r c)) (h1 : ∀ c : Fin 128, x1 (ix2 p c) = a1 (ix2 r c))
    (h2 : ∀ c : Fin 128, x2 (ix2 c q) = a2 (ix2 c q)) (h3 : ∀ c : Fin 128, x3 (ix2 c q) = a3 (ix2 c q))
    (h4 : x4 (ix2 (0 : Fin 1) q) = a4 (ix2 (0 : Fin 1) q)) :
    k4_pay1 (F := Ideal) x0 x1 x2 x3 x4 (ix2 p q)
      = Cert.SplitLinear.lin (M := 800000) (K1 := 128) (K2 := 128) (N := 2) a0 a1 a2 a3 a4 (ix2 r q) := by
  rw [pay4_apply, Cert.SplitLinear.lin_apply, h4]
  congr 2
  · exact Finset.sum_congr rfl fun c _ => by rw [h0 c, h2 c]
  · exact Finset.sum_congr rfl fun c _ => by rw [h1 c, h3 c]

/-! ## Where the tiles sit in the tables -/

/-- The tile numbers at step t, decided over the 100 steps: the output and the two input groups are at row tile t,
    column tile 0; the two weight blocks and the bias row are at tile (0, 0) throughout. -/
theorem idx_facts4 : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Entry (p, c) of the first input group's tile t is entry (8000·t + p, c) of its table. -/
theorem emb4_0 (t : Fin cfg4.N) (p : Fin 8000) (cc : Fin 128) (r : Fin 800000) (hr : r.val = t.val * 8000 + p.val) :
    ((cfg4.win 0).blk t).view.emb (ix2 p cc) = ix2 r cc := by
  obtain ⟨-, -, e0, e1, -⟩ := idx_facts4 t
  funext a; apply Fin.ext
  match a with
  | ⟨0, _⟩ => show win4_0.index t 0 * 8000 + 1 * p.val = r.val; omega
  | ⟨1, _⟩ => show win4_0.index t 1 * 128 + 1 * cc.val = cc.val; omega

/-- Entry (p, c) of the second input group's tile t is entry (8000·t + p, c) of its table. -/
theorem emb4_1 (t : Fin cfg4.N) (p : Fin 8000) (cc : Fin 128) (r : Fin 800000) (hr : r.val = t.val * 8000 + p.val) :
    ((cfg4.win 1).blk t).view.emb (ix2 p cc) = ix2 r cc := by
  obtain ⟨-, -, -, -, e0, e1, -⟩ := idx_facts4 t
  funext a; apply Fin.ext
  match a with
  | ⟨0, _⟩ => show win4_1.index t 0 * 8000 + 1 * p.val = r.val; omega
  | ⟨1, _⟩ => show win4_1.index t 1 * 128 + 1 * cc.val = cc.val; omega

/-- The first weight block's tile is the whole block at every step. -/
theorem emb4_2 (t : Fin cfg4.N) (cc : Fin 128) (q : Fin 2) :
    ((cfg4.win 2).blk t).view.emb (ix2 cc q) = ix2 cc q := by
  obtain ⟨-, -, -, -, -, -, e0, e1, -⟩ := idx_facts4 t
  funext a; apply Fin.ext
  match a with
  | ⟨0, _⟩ => show win4_2.index t 0 * 128 + 1 * cc.val = cc.val; omega
  | ⟨1, _⟩ => show win4_2.index t 1 * 2 + 1 * q.val = q.val; omega

/-- The second weight block's tile is the whole block at every step. -/
theorem emb4_3 (t : Fin cfg4.N) (cc : Fin 128) (q : Fin 2) :
    ((cfg4.win 3).blk t).view.emb (ix2 cc q) = ix2 cc q := by
  obtain ⟨-, -, -, -, -, -, -, -, e0, e1, -⟩ := idx_facts4 t
  funext a; apply Fin.ext
  match a with
  | ⟨0, _⟩ => show win4_3.index t 0 * 128 + 1 * cc.val = cc.val; omega
  | ⟨1, _⟩ => show win4_3.index t 1 * 2 + 1 * q.val = q.val; omega

/-- The bias row's tile is the whole row at every step. -/
theorem emb4_4 (t : Fin cfg4.N) (u : Fin 1) (q : Fin 2) :
    ((cfg4.win 4).blk t).view.emb (ix2 u q) = ix2 u q := by
  obtain ⟨-, -, -, -, -, -, -, -, -, -, e0, e1⟩ := idx_facts4 t
  funext a; apply Fin.ext
  match a with
  | ⟨0, _⟩ => show win4_4.index t 0 * 1 + 1 * u.val = u.val; omega
  | ⟨1, _⟩ => show win4_4.index t 1 * 2 + 1 * q.val = q.val; omega

/-- Entry (p, q) of the output's tile t is entry (8000·t + p, q) of the output table. -/
theorem emb4_5 (t : Fin cfg4.N) (p : Fin 8000) (q : Fin 2) (r : Fin 800000) (hr : r.val = t.val * 8000 + p.val) :
    ((cfg4.win 5).blk t).view.emb (ix2 p q) = ix2 r q := by
  obtain ⟨e0, e1, -⟩ := idx_facts4 t
  funext a; apply Fin.ext
  match a with
  | ⟨0, _⟩ => show win4_5.index t 0 * 8000 + 1 * p.val = r.val; omega
  | ⟨1, _⟩ => show win4_5.index t 1 * 2 + 1 * q.val = q.val; omega

/-! ## What step t writes back, and the whole table -/

set_option maxHeartbeats 2000000 in
/-- WHAT STEP t WRITES BACK is tile t of the split linear layer of the five arrays as the layer finds them: at (p, q)
    of the tile, the body's value from rows 8000·t + p of the input tables and the whole weights and bias
    (`tile_lin4`), which is the layer at (8000·t + p, q). -/
theorem flushed4_eq (c : Dev nD) (t : Fin cfg4.N) :
    (dat4 (F := Ideal) V c).flushed 5 t
      = ((cfg4.win 5).blk t).view.read (Elt Ideal)
          (Cert.SplitLinear.lin (M := 800000) (K1 := 128) (K2 := 128) (N := 2)
            (V c (Pipeline.arrRef spec4 0)) (V c (Pipeline.arrRef spec4 1)) (V c (Pipeline.arrRef spec4 2))
          (V c (Pipeline.arrRef spec4 3)) (V c (Pipeline.arrRef spec4 4))) := by
  show (cfg4.win 5).cut (grid4.coords t) ((dat4 V c).after 5 t) = _
  rw [after4_5]
  unfold out4_5
  rw [View.canon_unit_zero hz4]
  simp only [View.ld_unit_zero (S := S8000x128) hz4,
    View.ld_unit_zero (S := S128x2) hz4,
    View.ld_unit_zero (S := S1x2) hz4]
  refine funext fun (y : S8000x2.Idx) => ?_
  obtain ⟨p, q, rfl⟩ : ∃ (p : Fin 8000) (q : Fin 2), y = ix2 p q := ⟨y 0, y 1, eq_ix2 y⟩
  have hN : cfg4.N = 100 := N_4
  have ht : t.val < 100 := by have := t.isLt; omega
  have hr : t.val * 8000 + p.val < 800000 := by have := p.isLt; omega
  show k4_pay1 (F := Ideal) (iblk4 V c 0 t) (iblk4 V c 1 t) (iblk4 V c 2 t) (iblk4 V c 3 t) (iblk4 V c 4 t) (ix2 p q)
      = Cert.SplitLinear.lin (M := 800000) (K1 := 128) (K2 := 128) (N := 2)
          (V c (Pipeline.arrRef spec4 0)) (V c (Pipeline.arrRef spec4 1)) (V c (Pipeline.arrRef spec4 2))
          (V c (Pipeline.arrRef spec4 3)) (V c (Pipeline.arrRef spec4 4)) (((cfg4.win 5).blk t).view.emb (ix2 p q))
  rw [emb4_5 t p q ⟨t.val * 8000 + p.val, hr⟩ rfl]
  refine tile_lin4 _ _ _ _ _ _ _ _ _ _ ⟨t.val * 8000 + p.val, hr⟩ p q ?_ ?_ ?_ ?_ ?_
  · intro cc
    show V c (Pipeline.arrRef spec4 0) (((cfg4.win 0).blk t).view.emb (ix2 p cc)) = _
    rw [emb4_0 t p cc ⟨t.val * 8000 + p.val, hr⟩ rfl]
  · intro cc
    show V c (Pipeline.arrRef spec4 1) (((cfg4.win 1).blk t).view.emb (ix2 p cc)) = _
    rw [emb4_1 t p cc ⟨t.val * 8000 + p.val, hr⟩ rfl]
  · intro cc
    show V c (Pipeline.arrRef spec4 2) (((cfg4.win 2).blk t).view.emb (ix2 cc q)) = _
    rw [emb4_2 t cc q]
  · intro cc
    show V c (Pipeline.arrRef spec4 3) (((cfg4.win 3).blk t).view.emb (ix2 cc q)) = _
    rw [emb4_3 t cc q]
  · show V c (Pipeline.arrRef spec4 4) (((cfg4.win 4).blk t).view.emb (ix2 (0 : Fin 1) q)) = _
    rw [emb4_4 t 0 q]

/-- An entry of the output table is in tile t iff each coordinate is in the tile's range on its axis. -/
theorem mem_blk4 (t : Fin cfg4.N) (i : S800000x2.Idx) :
    i ∈ ((cfg4.win 5).blk t).view.set ↔ ∀ a : Fin 2, win4_5.index t a * S8000x2.size a ≤ (i a).val
      ∧ (i a).val < win4_5.index t a * S8000x2.size a + S8000x2.size a := by
  show i ∈ ((View.whole main_v79).slice (win4_5.rect t)).set ↔ _
  rw [View.set_slice_whole, Rect.mem_set_unit]
  exact Iff.rfl

/-- THE TILES COVER THE TABLE: entry (r, q) lies in tile r / 8000, for 8000·(r / 8000) ≤ r < 8000·(r / 8000) + 8000 and
    r / 8000 < 100; a tile spans all 2 columns. -/
theorem cover4 (i : S800000x2.Idx) :
    ∃ t : Fin cfg4.N, (cfg4.win 5).flush t = true ∧ i ∈ ((cfg4.win 5).blk t).view.set := by
  have hi0 : (i 0).val < 800000 := (i 0).isLt
  have hi1 : (i 1).val < 2 := (i 1).isLt
  have hN : cfg4.N = 100 := N_4
  have hlt : (i 0).val / 8000 < cfg4.N := by omega
  obtain ⟨e0, e1, -⟩ := idx_facts4 ⟨(i 0).val / 8000, hlt⟩
  refine ⟨⟨(i 0).val / 8000, hlt⟩, flush4_5 _, ?_⟩
  rw [mem_blk4]
  intro a
  match a with
  | ⟨0, _⟩ =>
    show win4_5.index ⟨(i 0).val / 8000, hlt⟩ (0 : Fin 2) * 8000 ≤ (i 0).val
      ∧ (i 0).val < win4_5.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win4_5.index ⟨(i 0).val / 8000, hlt⟩ (1 : Fin 2) * 2 ≤ (i 1).val
      ∧ (i 1).val < win4_5.index ⟨(i 0).val / 8000, hlt⟩ (1 : Fin 2) * 2 + 2
    rw [e1]; omega

/-- THE OUTPUT TABLE after the last tile is the split linear layer of the five input arrays as the layer found them:
    every tile written back is the layer's tile (`flushed4_eq`) and the tiles cover the table (`cover4`). -/
theorem final4 (c : Dev nD) :
    (dat4 (F := Ideal) V c).arrAt 5 cfg4.N
      = Cert.SplitLinear.lin (M := 800000) (K1 := 128) (K2 := 128) (N := 2)
          (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => flushed4_eq V c t) cover4

end Cert.KernelIdeal.RegionValue

end
-- ==== Proof.Walk.lean ====
/-
  The idealized kernel's result, walked from the launch memory through the ten boundaries of its run.

  At each boundary between a stretch of host operations and a region the buffers the rest of the program reads are named as
  functions of the fourteen argument arrays: a stretch leaves the values of its operations, a region leaves its output
  array at the split linear layer of its five input arrays — which, fed the two row blocks of one weight table, is the
  linear image of the joined inputs — and every buffer a stretch or a region does not write keeps its contents.  The last
  boundary's result buffer is the network of Layers.lean applied to the arguments.
-/
import proofs.«134400_j56057913147666_2_alg».proof.Proof.Gen.KernelIdeal.Frame
import proofs.«134400_j56057913147666_2_alg».proof.Proof.Layers
import proofs.«134400_j56057913147666_2_alg».proof.Proof.Bridge
import proofs.«134400_j56057913147666_2_alg».proof.Proof.Stretch0
import proofs.«134400_j56057913147666_2_alg».proof.Proof.Stretch1
import proofs.«134400_j56057913147666_2_alg».proof.Proof.Stretch2
import proofs.«134400_j56057913147666_2_alg».proof.Proof.Stretch3
import proofs.«134400_j56057913147666_2_alg».proof.Proof.Stretch4
import proofs.«134400_j56057913147666_2_alg».proof.Proof.RegionValue0
import proofs.«134400_j56057913147666_2_alg».proof.Proof.RegionValue1
import proofs.«134400_j56057913147666_2_alg».proof.Proof.RegionValue2
import proofs.«134400_j56057913147666_2_alg».proof.Proof.RegionValue3
import proofs.«134400_j56057913147666_2_alg».proof.Proof.RegionValue4

set_option maxRecDepth 16384

noncomputable section

namespace Cert.KernelIdeal.Walk

open Idealize.ShloMosaic Idealize.ShloMosaic.TcCoe
open Cert.KernelIdeal Cert.KernelIdeal.Gen Cert.KernelIdeal.Facts₀ Cert.KernelIdeal.Facts
open Cert.KernelIdeal.HostValue Cert.KernelIdeal.RegionValue

variable [Cert.KernelIdeal.Facts] [Cert.ReferenceIdeal.Facts]

/-! ## A region's output array in the reference's words, over any entry contents -/

section Regions
variable (V : (c : Dev nD) → (b : Ref sig .tc) → Buf (Elt Ideal) ((c : Thread nD τ).loc b)) (c : Dev nD)

/-- A message region (the first and the third): from the gathered rows, the edge features, the two row blocks of the
    weight and the bias row it leaves the messages. -/
theorem region0_msg (X1 : FVec Ideal S800000x128 .f32) (X2 : FVec Ideal S800000x64 .f32) (W : FVec Ideal S192x128 .f32) (b : FVec Ideal S128 .f32)
    (h0 : V c (Pipeline.arrRef spec0 0) = X1) (h1 : V c (Pipeline.arrRef spec0 1) = X2)
    (h2 : V c (Pipeline.arrRef spec0 2) = extractStridedSlice S128x128 ![0, 0] W Facts₀.slices_S192x128_S128x128_0_0)
    (h3 : V c (Pipeline.arrRef spec0 3) = extractStridedSlice S64x128 ![128, 0] W Facts₀.slices_S192x128_S64x128_128_0)
    (h4 : V c (Pipeline.arrRef spec0 4) = shapeCast S1x128 b Facts₀.shapeCasts_S128_S1x128) :
    (dat0 (F := Ideal) V c).arrAt 5 cfg0.N = Cert.Layers.msg X1 X2 W b := by
  exact (final0 V c).trans ((congr (congr (congr (congr (congrArg (Cert.SplitLinear.lin (M := 800000) (K1 := 128) (K2 := 64) (N := 128)) h0) h1) h2) h3) h4).trans (Cert.Bridge.msg_eq X1 X2 W b))
theorem region2_msg (X1 : FVec Ideal S800000x128 .f32) (X2 : FVec Ideal S800000x64 .f32) (W : FVec Ideal S192x128 .f32) (b : FVec Ideal S128 .f32)
    (h0 : V c (Pipeline.arrRef spec2 0) = X1) (h1 : V c (Pipeline.arrRef spec2 1) = X2)
    (h2 : V c (Pipeline.arrRef spec2 2) = extractStridedSlice S128x128 ![0, 0] W Facts₀.slices_S192x128_S128x128_0_0)
    (h3 : V c (Pipeline.arrRef spec2 3) = extractStridedSlice S64x128 ![128, 0] W Facts₀.slices_S192x128_S64x128_128_0)
    (h4 : V c (Pipeline.arrRef spec2 4) = shapeCast S1x128 b Facts₀.shapeCasts_S128_S1x128) :
    (dat2 (F := Ideal) V c).arrAt 5 cfg2.N = Cert.Layers.msg X1 X2 W b := by
  exact (final2 V c).trans ((congr (congr (congr (congr (congrArg (Cert.SplitLinear.lin (M := 800000) (K1 := 128) (K2 := 64) (N := 128)) h0) h1) h2) h3) h4).trans (Cert.Bridge.msg_eq X1 X2 W b))
/-- An update region (the second and the fourth): from the node table, the neighbourhood means, the two row blocks of
    the weight and the bias row it leaves the updated node table. -/
theorem region1_upd (X1 X2 : FVec Ideal S50000x128 .f32) (W : FVec Ideal S256x128 .f32) (b : FVec Ideal S128 .f32)
    (h0 : V c (Pipeline.arrRef spec1 0) = X1) (h1 : V c (Pipeline.arrRef spec1 1) = X2)
    (h2 : V c (Pipeline.arrRef spec1 2) = extractStridedSlice S128x128 ![0, 0] W Facts₀.slices_S256x128_S128x128_0_0)
    (h3 : V c (Pipeline.arrRef spec1 3) = extractStridedSlice S128x128 ![128, 0] W Facts₀.slices_S256x128_S128x128_128_0)
    (h4 : V c (Pipeline.arrRef spec1 4) = shapeCast S1x128 b Facts₀.shapeCasts_S128_S1x128) :
    (dat1 (F := Ideal) V c).arrAt 5 cfg1.N = Cert.Layers.upd X1 X2 W b := by
  exact (final1 V c).trans ((congr (congr (congr (congr (congrArg (Cert.SplitLinear.linRelu (M := 50000) (K1 := 128) (K2 := 128) (N := 128)) h0) h1) h2) h3) h4).trans (Cert.Bridge.upd_eq X1 X2 W b))
theorem region3_upd (X1 X2 : FVec Ideal S50000x128 .f32) (W : FVec Ideal S256x128 .f32) (b : FVec Ideal S128 .f32)
    (h0 : V c (Pipeline.arrRef spec3 0) = X1) (h1 : V c (Pipeline.arrRef spec3 1) = X2)
    (h2 : V c (Pipeline.arrRef spec3 2) = extractStridedSlice S128x128 ![0, 0] W Facts₀.slices_S256x128_S128x128_0_0)
    (h3 : V c (Pipeline.arrRef spec3 3) = extractStridedSlice S128x128 ![128, 0] W Facts₀.slices_S256x128_S128x128_128_0)
    (h4 : V c (Pipeline.arrRef spec3 4) = shapeCast S1x128 b Facts₀.shapeCasts_S128_S1x128) :
    (dat3 (F := Ideal) V c).arrAt 5 cfg3.N = Cert.Layers.upd X1 X2 W b := by
  exact (final3 V c).trans ((congr (congr (congr (congr (congrArg (Cert.SplitLinear.linRelu (M := 50000) (K1 := 128) (K2 := 128) (N := 128)) h0) h1) h2) h3) h4).trans (Cert.Bridge.upd_eq X1 X2 W b))
/-- The score region (the last): from the two end points' rows, the two row blocks of the weight and the bias row it
    leaves the edge scores. -/
theorem region4_score (X1 X2 : FVec Ideal S800000x128 .f32) (W : FVec Ideal S256x2 .f32) (b : FVec Ideal S2 .f32)
    (h0 : V c (Pipeline.arrRef spec4 0) = X1) (h1 : V c (Pipeline.arrRef spec4 1) = X2)
    (h2 : V c (Pipeline.arrRef spec4 2) = extractStridedSlice S128x2 ![0, 0] W Facts₀.slices_S256x2_S128x2_0_0)
    (h3 : V c (Pipeline.arrRef spec4 3) = extractStridedSlice S128x2 ![128, 0] W Facts₀.slices_S256x2_S128x2_128_0)
    (h4 : V c (Pipeline.arrRef spec4 4) = shapeCast S1x2 b Facts₀.shapeCasts_S2_S1x2) :
    (dat4 (F := Ideal) V c).arrAt 5 cfg4.N = Cert.Layers.score X1 X2 W b := by
  exact (final4 V c).trans ((congr (congr (congr (congr (congrArg (Cert.SplitLinear.lin (M := 800000) (K1 := 128) (K2 := 128) (N := 2)) h0) h1) h2) h3) h4).trans (Cert.Bridge.score_eq X1 X2 W b))

end Regions

/-! ## The walk -/

variable (m : (ℓ : Loc nD τ sig) → Buf (Elt Ideal) ℓ) (ρ : Dev nD → PrngReg) (c : Dev nD)

/-- Every node's in-degree, from the destination indices as launched. -/
abbrev deg : FVec Ideal Cert.ReferenceIdeal.S50000x1 .f32 := Cert.Layers.cnt (m ((c : Thread nD τ).loc main_arg3))
/-- The first layer's messages. -/
abbrev msg1 : FVec Ideal Cert.ReferenceIdeal.S800000x128 .f32 := Cert.Layers.msg (Cert.Layers.gatherRows (m ((c : Thread nD τ).loc main_arg0)) (m ((c : Thread nD τ).loc main_arg2))) (m ((c : Thread nD τ).loc main_arg1)) (m ((c : Thread nD τ).loc main_arg4)) (m ((c : Thread nD τ).loc main_arg5))
/-- The node table after the first layer. -/
abbrev tab1 : FVec Ideal Cert.ReferenceIdeal.S50000x128 .f32 := Cert.Layers.upd (m ((c : Thread nD τ).loc main_arg0)) (Cert.Layers.meanBy (msg1 m c) (m ((c : Thread nD τ).loc main_arg3)) (deg m c)) (m ((c : Thread nD τ).loc main_arg6)) (m ((c : Thread nD τ).loc main_arg7))
/-- The second layer's messages. -/
abbrev msg2 : FVec Ideal Cert.ReferenceIdeal.S800000x128 .f32 := Cert.Layers.msg (Cert.Layers.gatherRows (tab1 m c) (m ((c : Thread nD τ).loc main_arg2))) (m ((c : Thread nD τ).loc main_arg1)) (m ((c : Thread nD τ).loc main_arg8)) (m ((c : Thread nD τ).loc main_arg9))
/-- The node table after the second layer. -/
abbrev tab2 : FVec Ideal Cert.ReferenceIdeal.S50000x128 .f32 := Cert.Layers.upd (tab1 m c) (Cert.Layers.meanBy (msg2 m c) (m ((c : Thread nD τ).loc main_arg3)) (deg m c)) (m ((c : Thread nD τ).loc main_arg10)) (m ((c : Thread nD τ).loc main_arg11))

/-! ### The launch memory -/
theorem at0_arg0 : W0 m ρ c (Proc.devRef .tc main_arg0) = (m ((c : Thread nD τ).loc main_arg0)) :=
  rfl
theorem at0_arg1 : W0 m ρ c (Proc.devRef .tc main_arg1) = (m ((c : Thread nD τ).loc main_arg1)) :=
  rfl
theorem at0_arg2 : W0 m ρ c (Proc.devRef .tc main_arg2) = (m ((c : Thread nD τ).loc main_arg2)) :=
  rfl
theorem at0_arg3 : W0 m ρ c (Proc.devRef .tc main_arg3) = (m ((c : Thread nD τ).loc main_arg3)) :=
  rfl
theorem at0_arg4 : W0 m ρ c (Proc.devRef .tc main_arg4) = (m ((c : Thread nD τ).loc main_arg4)) :=
  rfl
theorem at0_arg5 : W0 m ρ c (Proc.devRef .tc main_arg5) = (m ((c : Thread nD τ).loc main_arg5)) :=
  rfl
theorem at0_arg6 : W0 m ρ c (Proc.devRef .tc main_arg6) = (m ((c : Thread nD τ).loc main_arg6)) :=
  rfl
theorem at0_arg7 : W0 m ρ c (Proc.devRef .tc main_arg7) = (m ((c : Thread nD τ).loc main_arg7)) :=
  rfl
theorem at0_arg8 : W0 m ρ c (Proc.devRef .tc main_arg8) = (m ((c : Thread nD τ).loc main_arg8)) :=
  rfl
theorem at0_arg9 : W0 m ρ c (Proc.devRef .tc main_arg9) = (m ((c : Thread nD τ).loc main_arg9)) :=
  rfl
theorem at0_arg10 : W0 m ρ c (Proc.devRef .tc main_arg10) = (m ((c : Thread nD τ).loc main_arg10)) :=
  rfl
theorem at0_arg11 : W0 m ρ c (Proc.devRef .tc main_arg11) = (m ((c : Thread nD τ).loc main_arg11)) :=
  rfl
theorem at0_arg12 : W0 m ρ c (Proc.devRef .tc main_arg12) = (m ((c : Thread nD τ).loc main_arg12)) :=
  rfl
theorem at0_arg13 : W0 m ρ c (Proc.devRef .tc main_arg13) = (m ((c : Thread nD τ).loc main_arg13)) :=
  rfl

/-! ### After the first stretch -/
theorem at1_v0 : W1 m ρ c (Proc.devRef .tc main_v0) = (m ((c : Thread nD τ).loc main_arg0)) :=
  (s0_v0 (W0 m ρ c)).trans (by rw [at0_arg0 m ρ c])
theorem at1_v1 : W1 m ρ c (Proc.devRef .tc main_v1) = (m ((c : Thread nD τ).loc main_arg1)) :=
  (s0_v1 (W0 m ρ c)).trans (by rw [at0_arg1 m ρ c])
theorem at1_v5 : W1 m ρ c (Proc.devRef .tc main_v5) = deg m c :=
  (s0_v5 (W0 m ρ c)).trans (by rw [at0_arg3 m ρ c])
theorem at1_v12 : W1 m ρ c (Proc.devRef .tc main_v12) = Cert.Layers.gatherRows (m ((c : Thread nD τ).loc main_arg0)) (m ((c : Thread nD τ).loc main_arg2)) :=
  (s0_v12 (W0 m ρ c)).trans (by rw [at0_arg0 m ρ c, at0_arg2 m ρ c])
theorem at1_v14 : W1 m ρ c (Proc.devRef .tc main_v14) = (extractStridedSlice S128x128 ![0, 0] (m ((c : Thread nD τ).loc main_arg4)) Facts₀.slices_S192x128_S128x128_0_0) :=
  (s0_v14 (W0 m ρ c)).trans (by rw [at0_arg4 m ρ c])
theorem at1_v16 : W1 m ρ c (Proc.devRef .tc main_v16) = (extractStridedSlice S64x128 ![128, 0] (m ((c : Thread nD τ).loc main_arg4)) Facts₀.slices_S192x128_S64x128_128_0) :=
  (s0_v16 (W0 m ρ c)).trans (by rw [at0_arg4 m ρ c])
theorem at1_v17 : W1 m ρ c (Proc.devRef .tc main_v17) = (shapeCast S1x128 (m ((c : Thread nD τ).loc main_arg5)) Facts₀.shapeCasts_S128_S1x128) :=
  (s0_v17 (W0 m ρ c)).trans (by rw [at0_arg5 m ρ c])
theorem at1_arg2 : W1 m ρ c (Proc.devRef .tc main_arg2) = (m ((c : Thread nD τ).loc main_arg2)) :=
  (keep0_arg2 (W0 m ρ c)).trans (at0_arg2 m ρ c)
theorem at1_arg3 : W1 m ρ c (Proc.devRef .tc main_arg3) = (m ((c : Thread nD τ).loc main_arg3)) :=
  (keep0_arg3 (W0 m ρ c)).trans (at0_arg3 m ρ c)
theorem at1_arg6 : W1 m ρ c (Proc.devRef .tc main_arg6) = (m ((c : Thread nD τ).loc main_arg6)) :=
  (keep0_arg6 (W0 m ρ c)).trans (at0_arg6 m ρ c)
theorem at1_arg7 : W1 m ρ c (Proc.devRef .tc main_arg7) = (m ((c : Thread nD τ).loc main_arg7)) :=
  (keep0_arg7 (W0 m ρ c)).trans (at0_arg7 m ρ c)
theorem at1_arg8 : W1 m ρ c (Proc.devRef .tc main_arg8) = (m ((c : Thread nD τ).loc main_arg8)) :=
  (keep0_arg8 (W0 m ρ c)).trans (at0_arg8 m ρ c)
theorem at1_arg9 : W1 m ρ c (Proc.devRef .tc main_arg9) = (m ((c : Thread nD τ).loc main_arg9)) :=
  (keep0_arg9 (W0 m ρ c)).trans (at0_arg9 m ρ c)
theorem at1_arg10 : W1 m ρ c (Proc.devRef .tc main_arg10) = (m ((c : Thread nD τ).loc main_arg10)) :=
  (keep0_arg10 (W0 m ρ c)).trans (at0_arg10 m ρ c)
theorem at1_arg11 : W1 m ρ c (Proc.devRef .tc main_arg11) = (m ((c : Thread nD τ).loc main_arg11)) :=
  (keep0_arg11 (W0 m ρ c)).trans (at0_arg11 m ρ c)
theorem at1_arg12 : W1 m ρ c (Proc.devRef .tc main_arg12) = (m ((c : Thread nD τ).loc main_arg12)) :=
  (keep0_arg12 (W0 m ρ c)).trans (at0_arg12 m ρ c)
theorem at1_arg13 : W1 m ρ c (Proc.devRef .tc main_arg13) = (m ((c : Thread nD τ).loc main_arg13)) :=
  (keep0_arg13 (W0 m ρ c)).trans (at0_arg13 m ρ c)

/-! ### After the first region -/
/-- The first region leaves the first layer's messages. -/
theorem at2_v18 : W2 m ρ c (Proc.devRef .tc main_v18) = msg1 m c :=
  (W2_arr m ρ c 5).trans (region0_msg (V1 m ρ) c _ _ _ _ (at1_v12 m ρ c) (at1_v1 m ρ c) (at1_v14 m ρ c) (at1_v16 m ρ c) (at1_v17 m ρ c))
theorem at2_v0 : W2 m ρ c (Proc.devRef .tc main_v0) = (m ((c : Thread nD τ).loc main_arg0)) :=
  (W2_of_ne m ρ c main_v0 (by decide)).trans (at1_v0 m ρ c)
/-- The edge features are an input array of the first region: it stages them and never writes them back. -/
theorem at2_v1 : W2 m ρ c (Proc.devRef .tc main_v1) = (m ((c : Thread nD τ).loc main_arg1)) :=
  (W2_arr m ρ c 1).trans ((((dat0 (F := Ideal) (V1 m ρ) c).arrAt_in 1 rfl _).trans (A_eq0 (V1 m ρ) c 1)).trans (at1_v1 m ρ c))
theorem at2_v5 : W2 m ρ c (Proc.devRef .tc main_v5) = deg m c :=
  (W2_of_ne m ρ c main_v5 (by decide)).trans (at1_v5 m ρ c)
theorem at2_arg2 : W2 m ρ c (Proc.devRef .tc main_arg2) = (m ((c : Thread nD τ).loc main_arg2)) :=
  (W2_of_ne m ρ c main_arg2 (by decide)).trans (at1_arg2 m ρ c)
theorem at2_arg3 : W2 m ρ c (Proc.devRef .tc main_arg3) = (m ((c : Thread nD τ).loc main_arg3)) :=
  (W2_of_ne m ρ c main_arg3 (by decide)).trans (at1_arg3 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_arg9 : W2 m ρ c (Proc.devRef .tc main_arg9) = (m ((c : Thread nD τ).loc main_arg9)) :=
  (W2_of_ne m ρ c main_arg9 (by decide)).trans (at1_arg9 m ρ c)
theorem at2_arg10 : W2 m ρ c (Proc.devRef .tc main_arg10) = (m ((c : Thread nD τ).loc main_arg10)) :=
  (W2_of_ne m ρ c main_arg10 (by decide)).trans (at1_arg10 m ρ c)
theorem at2_arg11 : W2 m ρ c (Proc.devRef .tc main_arg11) = (m ((c : Thread nD τ).loc main_arg11)) :=
  (W2_of_ne m ρ c main_arg11 (by decide)).trans (at1_arg11 m ρ c)
theorem at2_arg12 : W2 m ρ c (Proc.devRef .tc main_arg12) = (m ((c : Thread nD τ).loc main_arg12)) :=
  (W2_of_ne m ρ c main_arg12 (by decide)).trans (at1_arg12 m ρ c)
theorem at2_arg13 : W2 m ρ c (Proc.devRef .tc main_arg13) = (m ((c : Thread nD τ).loc main_arg13)) :=
  (W2_of_ne m ρ c main_arg13 (by decide)).trans (at1_arg13 m ρ c)

/-! ### After the second stretch -/
theorem at3_v26 : W3 m ρ c (Proc.devRef .tc main_v26) = Cert.Layers.meanBy (msg1 m c) (m ((c : Thread nD τ).loc main_arg3)) (deg m c) :=
  (s1_v26 (W2 m ρ c)).trans (by rw [at2_v18 m ρ c, at2_arg3 m ρ c, at2_v5 m ρ c])
theorem at3_v28 : W3 m ρ c (Proc.devRef .tc main_v28) = (extractStridedSlice S128x128 ![0, 0] (m ((c : Thread nD τ).loc main_arg6)) Facts₀.slices_S256x128_S128x128_0_0) :=
  (s1_v28 (W2 m ρ c)).trans (by rw [at2_arg6 m ρ c])
theorem at3_v30 : W3 m ρ c (Proc.devRef .tc main_v30) = (extractStridedSlice S128x128 ![128, 0] (m ((c : Thread nD τ).loc main_arg6)) Facts₀.slices_S256x128_S128x128_128_0) :=
  (s1_v30 (W2 m ρ c)).trans (by rw [at2_arg6 m ρ c])
theorem at3_v31 : W3 m ρ c (Proc.devRef .tc main_v31) = (shapeCast S1x128 (m ((c : Thread nD τ).loc main_arg7)) Facts₀.shapeCasts_S128_S1x128) :=
  (s1_v31 (W2 m ρ c)).trans (by rw [at2_arg7 m ρ c])
theorem at3_v0 : W3 m ρ c (Proc.devRef .tc main_v0) = (m ((c : Thread nD τ).loc main_arg0)) :=
  (keep1_v0 (W2 m ρ c)).trans (at2_v0 m ρ c)
theorem at3_v1 : W3 m ρ c (Proc.devRef .tc main_v1) = (m ((c : Thread nD τ).loc main_arg1)) :=
  (keep1_v1 (W2 m ρ c)).trans (at2_v1 m ρ c)
theorem at3_v5 : W3 m ρ c (Proc.devRef .tc main_v5) = deg m c :=
  (keep1_v5 (W2 m ρ c)).trans (at2_v5 m ρ c)
theorem at3_arg2 : W3 m ρ c (Proc.devRef .tc main_arg2) = (m ((c : Thread nD τ).loc main_arg2)) :=
  (keep1_arg2 (W2 m ρ c)).trans (at2_arg2 m ρ c)
theorem at3_arg3 : W3 m ρ c (Proc.devRef .tc main_arg3) = (m ((c : Thread nD τ).loc main_arg3)) :=
  (keep1_arg3 (W2 m ρ c)).trans (at2_arg3 m ρ c)
theorem at3_arg8 : W3 m ρ c (Proc.devRef .tc main_arg8) = (m ((c : Thread nD τ).loc main_arg8)) :=
  (keep1_arg8 (W2 m ρ c)).trans (at2_arg8 m ρ c)
theorem at3_arg9 : W3 m ρ c (Proc.devRef .tc main_arg9) = (m ((c : Thread nD τ).loc main_arg9)) :=
  (keep1_arg9 (W2 m ρ c)).trans (at2_arg9 m ρ c)
theorem at3_arg10 : W3 m ρ c (Proc.devRef .tc main_arg10) = (m ((c : Thread nD τ).loc main_arg10)) :=
  (keep1_arg10 (W2 m ρ c)).trans (at2_arg10 m ρ c)
theorem at3_arg11 : W3 m ρ c (Proc.devRef .tc main_arg11) = (m ((c : Thread nD τ).loc main_arg11)) :=
  (keep1_arg11 (W2 m ρ c)).trans (at2_arg11 m ρ c)
theorem at3_arg12 : W3 m ρ c (Proc.devRef .tc main_arg12) = (m ((c : Thread nD τ).loc main_arg12)) :=
  (keep1_arg12 (W2 m ρ c)).trans (at2_arg12 m ρ c)
theorem at3_arg13 : W3 m ρ c (Proc.devRef .tc main_arg13) = (m ((c : Thread nD τ).loc main_arg13)) :=
  (keep1_arg13 (W2 m ρ c)).trans (at2_arg13 m ρ c)

/-! ### After the second region -/
/-- The second region leaves the node table after the first layer. -/
theorem at4_v32 : W4 m ρ c (Proc.devRef .tc main_v32) = tab1 m c :=
  (W4_arr m ρ c 5).trans (region1_upd (V3 m ρ) c _ _ _ _ (at3_v0 m ρ c) (at3_v26 m ρ c) (at3_v28 m ρ c) (at3_v30 m ρ c) (at3_v31 m ρ c))
theorem at4_v1 : W4 m ρ c (Proc.devRef .tc main_v1) = (m ((c : Thread nD τ).loc main_arg1)) :=
  (W4_of_ne m ρ c main_v1 (by decide)).trans (at3_v1 m ρ c)
theorem at4_v5 : W4 m ρ c (Proc.devRef .tc main_v5) = deg m c :=
  (W4_of_ne m ρ c main_v5 (by decide)).trans (at3_v5 m ρ c)
theorem at4_arg2 : W4 m ρ c (Proc.devRef .tc main_arg2) = (m ((c : Thread nD τ).loc main_arg2)) :=
  (W4_of_ne m ρ c main_arg2 (by decide)).trans (at3_arg2 m ρ c)
theorem at4_arg3 : W4 m ρ c (Proc.devRef .tc main_arg3) = (m ((c : Thread nD τ).loc main_arg3)) :=
  (W4_of_ne m ρ c main_arg3 (by decide)).trans (at3_arg3 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_arg11 : W4 m ρ c (Proc.devRef .tc main_arg11) = (m ((c : Thread nD τ).loc main_arg11)) :=
  (W4_of_ne m ρ c main_arg11 (by decide)).trans (at3_arg11 m ρ c)
theorem at4_arg12 : W4 m ρ c (Proc.devRef .tc main_arg12) = (m ((c : Thread nD τ).loc main_arg12)) :=
  (W4_of_ne m ρ c main_arg12 (by decide)).trans (at3_arg12 m ρ c)
theorem at4_arg13 : W4 m ρ c (Proc.devRef .tc main_arg13) = (m ((c : Thread nD τ).loc main_arg13)) :=
  (W4_of_ne m ρ c main_arg13 (by decide)).trans (at3_arg13 m ρ c)

/-! ### After the third stretch -/
theorem at5_v39 : W5 m ρ c (Proc.devRef .tc main_v39) = Cert.Layers.gatherRows (tab1 m c) (m ((c : Thread nD τ).loc main_arg2)) :=
  (s2_v39 (W4 m ρ c)).trans (by rw [at4_v32 m ρ c, at4_arg2 m ρ c])
theorem at5_v41 : W5 m ρ c (Proc.devRef .tc main_v41) = (extractStridedSlice S128x128 ![0, 0] (m ((c : Thread nD τ).loc main_arg8)) Facts₀.slices_S192x128_S128x128_0_0) :=
  (s2_v41 (W4 m ρ c)).trans (by rw [at4_arg8 m ρ c])
theorem at5_v43 : W5 m ρ c (Proc.devRef .tc main_v43) = (extractStridedSlice S64x128 ![128, 0] (m ((c : Thread nD τ).loc main_arg8)) Facts₀.slices_S192x128_S64x128_128_0) :=
  (s2_v43 (W4 m ρ c)).trans (by rw [at4_arg8 m ρ c])
theorem at5_v44 : W5 m ρ c (Proc.devRef .tc main_v44) = (shapeCast S1x128 (m ((c : Thread nD τ).loc main_arg9)) Facts₀.shapeCasts_S128_S1x128) :=
  (s2_v44 (W4 m ρ c)).trans (by rw [at4_arg9 m ρ c])
theorem at5_v1 : W5 m ρ c (Proc.devRef .tc main_v1) = (m ((c : Thread nD τ).loc main_arg1)) :=
  (keep2_v1 (W4 m ρ c)).trans (at4_v1 m ρ c)
theorem at5_v5 : W5 m ρ c (Proc.devRef .tc main_v5) = deg m c :=
  (keep2_v5 (W4 m ρ c)).trans (at4_v5 m ρ c)
theorem at5_v32 : W5 m ρ c (Proc.devRef .tc main_v32) = tab1 m c :=
  (keep2_v32 (W4 m ρ c)).trans (at4_v32 m ρ c)
theorem at5_arg2 : W5 m ρ c (Proc.devRef .tc main_arg2) = (m ((c : Thread nD τ).loc main_arg2)) :=
  (keep2_arg2 (W4 m ρ c)).trans (at4_arg2 m ρ c)
theorem at5_arg3 : W5 m ρ c (Proc.devRef .tc main_arg3) = (m ((c : Thread nD τ).loc main_arg3)) :=
  (keep2_arg3 (W4 m ρ c)).trans (at4_arg3 m ρ c)
theorem at5_arg10 : W5 m ρ c (Proc.devRef .tc main_arg10) = (m ((c : Thread nD τ).loc main_arg10)) :=
  (keep2_arg10 (W4 m ρ c)).trans (at4_arg10 m ρ c)
theorem at5_arg11 : W5 m ρ c (Proc.devRef .tc main_arg11) = (m ((c : Thread nD τ).loc main_arg11)) :=
  (keep2_arg11 (W4 m ρ c)).trans (at4_arg11 m ρ c)
theorem at5_arg12 : W5 m ρ c (Proc.devRef .tc main_arg12) = (m ((c : Thread nD τ).loc main_arg12)) :=
  (keep2_arg12 (W4 m ρ c)).trans (at4_arg12 m ρ c)
theorem at5_arg13 : W5 m ρ c (Proc.devRef .tc main_arg13) = (m ((c : Thread nD τ).loc main_arg13)) :=
  (keep2_arg13 (W4 m ρ c)).trans (at4_arg13 m ρ c)

/-! ### After the third region -/
/-- The third region leaves the second layer's messages. -/
theorem at6_v45 : W6 m ρ c (Proc.devRef .tc main_v45) = msg2 m c :=
  (W6_arr m ρ c 5).trans (region2_msg (V5 m ρ) c _ _ _ _ (at5_v39 m ρ c) (at5_v1 m ρ c) (at5_v41 m ρ c) (at5_v43 m ρ c) (at5_v44 m ρ c))
theorem at6_v5 : W6 m ρ c (Proc.devRef .tc main_v5) = deg m c :=
  (W6_of_ne m ρ c main_v5 (by decide)).trans (at5_v5 m ρ c)
theorem at6_v32 : W6 m ρ c (Proc.devRef .tc main_v32) = tab1 m c :=
  (W6_of_ne m ρ c main_v32 (by decide)).trans (at5_v32 m ρ c)
theorem at6_arg2 : W6 m ρ c (Proc.devRef .tc main_arg2) = (m ((c : Thread nD τ).loc main_arg2)) :=
  (W6_of_ne m ρ c main_arg2 (by decide)).trans (at5_arg2 m ρ c)
theorem at6_arg3 : W6 m ρ c (Proc.devRef .tc main_arg3) = (m ((c : Thread nD τ).loc main_arg3)) :=
  (W6_of_ne m ρ c main_arg3 (by decide)).trans (at5_arg3 m ρ c)
theorem at6_arg10 : W6 m ρ c (Proc.devRef .tc main_arg10) = (m ((c : Thread nD τ).loc main_arg10)) :=
  (W6_of_ne m ρ c main_arg10 (by decide)).trans (at5_arg10 m ρ c)
theorem at6_arg11 : W6 m ρ c (Proc.devRef .tc main_arg11) = (m ((c : Thread nD τ).loc main_arg11)) :=
  (W6_of_ne m ρ c main_arg11 (by decide)).trans (at5_arg11 m ρ c)
theorem at6_arg12 : W6 m ρ c (Proc.devRef .tc main_arg12) = (m ((c : Thread nD τ).loc main_arg12)) :=
  (W6_of_ne m ρ c main_arg12 (by decide)).trans (at5_arg12 m ρ c)
theorem at6_arg13 : W6 m ρ c (Proc.devRef .tc main_arg13) = (m ((c : Thread nD τ).loc main_arg13)) :=
  (W6_of_ne m ρ c main_arg13 (by decide)).trans (at5_arg13 m ρ c)

/-! ### After the fourth stretch -/
theorem at7_v53 : W7 m ρ c (Proc.devRef .tc main_v53) = Cert.Layers.meanBy (msg2 m c) (m ((c : Thread nD τ).loc main_arg3)) (deg m c) :=
  (s3_v53 (W6 m ρ c)).trans (by rw [at6_v45 m ρ c, at6_arg3 m ρ c, at6_v5 m ρ c])
theorem at7_v55 : W7 m ρ c (Proc.devRef .tc main_v55) = (extractStridedSlice S128x128 ![0, 0] (m ((c : Thread nD τ).loc main_arg10)) Facts₀.slices_S256x128_S128x128_0_0) :=
  (s3_v55 (W6 m ρ c)).trans (by rw [at6_arg10 m ρ c])
theorem at7_v57 : W7 m ρ c (Proc.devRef .tc main_v57) = (extractStridedSlice S128x128 ![128, 0] (m ((c : Thread nD τ).loc main_arg10)) Facts₀.slices_S256x128_S128x128_128_0) :=
  (s3_v57 (W6 m ρ c)).trans (by rw [at6_arg10 m ρ c])
theorem at7_v58 : W7 m ρ c (Proc.devRef .tc main_v58) = (shapeCast S1x128 (m ((c : Thread nD τ).loc main_arg11)) Facts₀.shapeCasts_S128_S1x128) :=
  (s3_v58 (W6 m ρ c)).trans (by rw [at6_arg11 m ρ c])
theorem at7_v32 : W7 m ρ c (Proc.devRef .tc main_v32) = tab1 m c :=
  (keep3_v32 (W6 m ρ c)).trans (at6_v32 m ρ c)
theorem at7_arg2 : W7 m ρ c (Proc.devRef .tc main_arg2) = (m ((c : Thread nD τ).loc main_arg2)) :=
  (keep3_arg2 (W6 m ρ c)).trans (at6_arg2 m ρ c)
theorem at7_arg3 : W7 m ρ c (Proc.devRef .tc main_arg3) = (m ((c : Thread nD τ).loc main_arg3)) :=
  (keep3_arg3 (W6 m ρ c)).trans (at6_arg3 m ρ c)
theorem at7_arg12 : W7 m ρ c (Proc.devRef .tc main_arg12) = (m ((c : Thread nD τ).loc main_arg12)) :=
  (keep3_arg12 (W6 m ρ c)).trans (at6_arg12 m ρ c)
theorem at7_arg13 : W7 m ρ c (Proc.devRef .tc main_arg13) = (m ((c : Thread nD τ).loc main_arg13)) :=
  (keep3_arg13 (W6 m ρ c)).trans (at6_arg13 m ρ c)

/-! ### After the fourth region -/
/-- The fourth region leaves the node table after the second layer. -/
theorem at8_v59 : W8 m ρ c (Proc.devRef .tc main_v59) = tab2 m c :=
  (W8_arr m ρ c 5).trans (region3_upd (V7 m ρ) c _ _ _ _ (at7_v32 m ρ c) (at7_v53 m ρ c) (at7_v55 m ρ c) (at7_v57 m ρ c) (at7_v58 m ρ c))
theorem at8_arg2 : W8 m ρ c (Proc.devRef .tc main_arg2) = (m ((c : Thread nD τ).loc main_arg2)) :=
  (W8_of_ne m ρ c main_arg2 (by decide)).trans (at7_arg2 m ρ c)
theorem at8_arg3 : W8 m ρ c (Proc.devRef .tc main_arg3) = (m ((c : Thread nD τ).loc main_arg3)) :=
  (W8_of_ne m ρ c main_arg3 (by decide)).trans (at7_arg3 m ρ c)
theorem at8_arg12 : W8 m ρ c (Proc.devRef .tc main_arg12) = (m ((c : Thread nD τ).loc main_arg12)) :=
  (W8_of_ne m ρ c main_arg12 (by decide)).trans (at7_arg12 m ρ c)
theorem at8_arg13 : W8 m ρ c (Proc.devRef .tc main_arg13) = (m ((c : Thread nD τ).loc main_arg13)) :=
  (W8_of_ne m ρ c main_arg13 (by decide)).trans (at7_arg13 m ρ c)

/-! ### After the last stretch -/
theorem at9_v66 : W9 m ρ c (Proc.devRef .tc main_v66) = Cert.Layers.gatherRows (tab2 m c) (m ((c : Thread nD τ).loc main_arg2)) :=
  (s4_v66 (W8 m ρ c)).trans (by rw [at8_v59 m ρ c, at8_arg2 m ρ c])
theorem at9_v73 : W9 m ρ c (Proc.devRef .tc main_v73) = Cert.Layers.gatherRows (tab2 m c) (m ((c : Thread nD τ).loc main_arg3)) :=
  (s4_v73 (W8 m ρ c)).trans (by rw [at8_v59 m ρ c, at8_arg3 m ρ c])
theorem at9_v75 : W9 m ρ c (Proc.devRef .tc main_v75) = (extractStridedSlice S128x2 ![0, 0] (m ((c : Thread nD τ).loc main_arg12)) Facts₀.slices_S256x2_S128x2_0_0) :=
  (s4_v75 (W8 m ρ c)).trans (by rw [at8_arg12 m ρ c])
theorem at9_v77 : W9 m ρ c (Proc.devRef .tc main_v77) = (extractStridedSlice S128x2 ![128, 0] (m ((c : Thread nD τ).loc main_arg12)) Facts₀.slices_S256x2_S128x2_128_0) :=
  (s4_v77 (W8 m ρ c)).trans (by rw [at8_arg12 m ρ c])
theorem at9_v78 : W9 m ρ c (Proc.devRef .tc main_v78) = (shapeCast S1x2 (m ((c : Thread nD τ).loc main_arg13)) Facts₀.shapeCasts_S2_S1x2) :=
  (s4_v78 (W8 m ρ c)).trans (by rw [at8_arg13 m ρ c])

/-! ### After the last region: the result -/
/-- The result buffer at the end of the run is the network of the arguments as launched. -/
theorem result_eq : W10 m ρ c (Proc.devRef .tc main_v79)
    = Cert.Layers.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W10_arr m ρ c 5).trans (region4_score (V9 m ρ) c _ _ _ _ (at9_v66 m ρ c) (at9_v73 m ρ c) (at9_v75 m ρ c) (at9_v77 m ρ c) (at9_v78 m ρ c))

end Cert.KernelIdeal.Walk

end
-- ==== Proof.RefStage0.lean ====
/-
  The reference's operations before its first join of two tables, read from any buffer contents: every edge's source row of the
  node table (a negative index wrapped first).  The arguments keep their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- Every edge's source row of the node table. -/
theorem r0_v6 : StableHlo.after ((ops (F := Ideal)).take 9) Wv (Proc.devRef .tc main_v6)
    = Cert.Layers.gatherRows (Wv (Proc.devRef .tc main_arg0)) (Wv (Proc.devRef .tc main_arg2)) := by
  simp only [ops, List.drop_succ_cons, List.drop_zero, List.take_succ_cons, List.take_zero]
  after_results_simp <;> (try simp only [TRef.toBuf, TRef.ofBuf, cast_eq, id]) <;> rfl

/-! The buffers these operations do not write. -/
theorem rkeep0_arg0 : StableHlo.after ((ops (F := Ideal)).take 9) Wv (Proc.devRef .tc main_arg0) = Wv (Proc.devRef .tc main_arg0) := by
  simp only [ops, List.drop_succ_cons, List.drop_zero, List.take_succ_cons, List.take_zero]
  after_results_simp <;> rfl
theorem rkeep0_arg1 : StableHlo.after ((ops (F := Ideal)).take 9) Wv (Proc.devRef .tc main_arg1) = Wv (Proc.devRef .tc main_arg1) := by
  simp only [ops, List.drop_succ_cons, List.drop_zero, List.take_succ_cons, List.take_zero]
  after_results_simp <;> rfl
theorem rkeep0_arg2 : StableHlo.after ((ops (F := Ideal)).take 9) Wv (Proc.devRef .tc main_arg2) = Wv (Proc.devRef .tc main_arg2) := by
  simp only [ops, List.drop_succ_cons, List.drop_zero, List.take_succ_cons, List.take_zero]
  after_results_simp <;> rfl
theorem rkeep0_arg3 : StableHlo.after ((ops (F := Ideal)).take 9) Wv (Proc.devRef .tc main_arg3) = Wv (Proc.devRef .tc main_arg3) := by
  simp only [ops, List.drop_succ_cons, List.drop_zero, List.take_succ_cons, List.take_zero]
  after_results_simp <;> rfl
theorem rkeep0_arg4 : StableHlo.after ((ops (F := Ideal)).take 9) Wv (Proc.devRef .tc main_arg4) = Wv (Proc.devRef .tc main_arg4) := by
  simp only [ops, List.drop_succ_cons, List.drop_zero, List.take_succ_cons, List.take_zero]
  after_results_simp <;> rfl
theorem rkeep0_arg5 : StableHlo.after ((ops (F := Ideal)).take 9) Wv (Proc.devRef .tc main_arg5) = Wv (Proc.devRef .tc main_arg5) := by
  simp only [ops, List.drop_succ_cons, List.drop_zero, List.take_succ_cons, List.take_zero]
  after_results_simp <;> rfl
theorem rkeep0_arg6 : StableHlo.after ((ops (F := Ideal)).take 9) Wv (Proc.devRef .tc main_arg6) = Wv (Proc.devRef .tc main_arg6) := by
  simp only [ops, List.drop_succ_cons, List.drop_zero, List.take_succ_cons, List.take_zero]
  after_results_simp <;> rfl
theorem rkeep0_arg7 : StableHlo.after ((ops (F := Ideal)).take 9) Wv (Proc.devRef .tc main_arg7) = Wv (Proc.devRef .tc main_arg7) := by
  simp only [ops, List.drop_succ_cons, List.drop_zero, List.take_succ_cons, List.take_zero]
  after_results_simp <;> rfl
theorem rkeep0_arg8 : StableHlo.after ((ops (F := Ideal)).take 9) Wv (Proc.devRef .tc main_arg8) = Wv (Proc.devRef .tc main_arg8) := by
  simp only [ops, List.drop_succ_cons, List.drop_zero, List.take_succ_cons, List.take_zero]
  after_results_simp <;> rfl
theorem rkeep0_arg9 : StableHlo.after ((ops (F := Ideal)).take 9) Wv (Proc.devRef .tc main_arg9) = Wv (Proc.devRef .tc main_arg9) := by
  simp only [ops, List.drop_succ_cons, List.drop_zero, List.take_succ_cons, List.take_zero]
  after_results_simp <;> rfl
theorem rkeep0_arg10 : StableHlo.after ((ops (F := Ideal)).take 9) Wv (Proc.devRef .tc main_arg10) = Wv (Proc.devRef .tc main_arg10) := by
  simp only [ops, List.drop_succ_cons, List.drop_zero, List.take_succ_cons, List.take_zero]
  after_results_simp <;> rfl
theorem rkeep0_arg11 : StableHlo.after ((ops (F := Ideal)).take 9) Wv (Proc.devRef .tc main_arg11) = Wv (Proc.devRef .tc main_arg11) := by
  simp only [ops, List.drop_succ_cons, List.drop_zero, List.take_succ_cons, List.take_zero]
  after_results_simp <;> rfl
theorem rkeep0_arg12 : StableHlo.after ((ops (F := Ideal)).take 9) Wv (Proc.devRef .tc main_arg12) = Wv (Proc.devRef .tc main_arg12) := by
  simp only [ops, List.drop_succ_cons, List.drop_zero, List.take_succ_cons, List.take_zero]
  after_results_simp <;> rfl
theorem rkeep0_arg13 : StableHlo.after ((ops (F := Ideal)).take 9) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefStage1.lean ====
/-
  The reference's operations from its first join to before its second, read from any buffer contents: the first layer's
  messages (the linear image of the gathered rows joined with the edge features, plus the bias) summed into their
  destination nodes and divided by the larger of the in-degree and 1.  The arguments keep their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- The first layer's neighbourhood means. -/
theorem r1_v22 : StableHlo.after (((ops (F := Ideal)).drop 9).take 20) Wv (Proc.devRef .tc main_v22)
    = Cert.Layers.meanBy (Cert.Layers.msg (Wv (Proc.devRef .tc main_v6)) (Wv (Proc.devRef .tc main_arg1)) (Wv (Proc.devRef .tc main_arg4)) (Wv (Proc.devRef .tc main_arg5))) (Wv (Proc.devRef .tc main_arg3)) (Cert.Layers.cnt (Wv (Proc.devRef .tc main_arg3))) := by
  simp only [ops, List.drop_succ_cons, List.drop_zero, List.take_succ_cons, List.take_zero]
  after_results_simp <;> (try simp only [TRef.toBuf, TRef.ofBuf, cast_eq, id]) <;> rfl

/-! The buffers these operations do not write. -/
theorem rkeep1_arg0 : StableHlo.after (((ops (F := Ideal)).drop 9).take 20) Wv (Proc.devRef .tc main_arg0) = Wv (Proc.devRef .tc main_arg0) := by
  simp only [ops, List.drop_succ_cons, List.drop_zero, List.take_succ_cons, List.take_zero]
  after_results_simp <;> rfl
theorem rkeep1_arg1 : StableHlo.after (((ops (F := Ideal)).drop 9).take 20) Wv (Proc.devRef .tc main_arg1) = Wv (Proc.devRef .tc main_arg1) := by
  simp only [ops, List.drop_succ_cons, List.drop_zero, List.take_succ_cons, List.take_zero]
  after_results_simp <;> rfl
theorem rkeep1_arg2 : StableHlo.after (((ops (F := Ideal)).drop 9).take 20) Wv (Proc.devRef .tc main_arg2) = Wv (Proc.devRef .tc main_arg2) := by
  simp only [ops, List.drop_succ_cons, List.drop_zero, List.take_succ_cons, List.take_zero]
  after_results_simp <;> rfl
theorem rkeep1_arg3 : StableHlo.after (((ops (F := Ideal)).drop 9).take 20) Wv (Proc.devRef .tc main_arg3) = Wv (Proc.devRef .tc main_arg3) := by
  simp only [ops, List.drop_succ_cons, List.drop_zero, List.take_succ_cons, List.take_zero]
  after_results_simp <;> rfl
theorem rkeep1_arg4 : StableHlo.after (((ops (F := Ideal)).drop 9).take 20) Wv (Proc.devRef .tc main_arg4) = Wv (Proc.devRef .tc main_arg4) := by
  simp only [ops, List.drop_succ_cons, List.drop_zero, List.take_succ_cons, List.take_zero]
  after_results_simp <;> rfl
theorem rkeep1_arg5 : StableHlo.after (((ops (F := Ideal)).drop 9).take 20) Wv (Proc.devRef .tc main_arg5) = Wv (Proc.devRef .tc main_arg5) := by
  simp only [ops, List.drop_succ_cons, List.drop_zero, List.take_succ_cons, List.take_zero]
  after_results_simp <;> rfl
theorem rkeep1_arg6 : StableHlo.after (((ops (F := Ideal)).drop 9).take 20) Wv (Proc.devRef .tc main_arg6) = Wv (Proc.devRef .tc main_arg6) := by
  simp only [ops, List.drop_succ_cons, List.drop_zero, List.take_succ_cons, List.take_zero]
  after_results_simp <;> rfl
theorem rkeep1_arg7 : StableHlo.after (((ops (F := Ideal)).drop 9).take 20) Wv (Proc.devRef .tc main_arg7) = Wv (Proc.devRef .tc main_arg7) := by
  simp only [ops, List.drop_succ_cons, List.drop_zero, List.take_succ_cons, List.take_zero]
  after_results_simp <;> rfl
theorem rkeep1_arg8 : StableHlo.after (((ops (F := Ideal)).drop 9).take 20) Wv (Proc.devRef .tc main_arg8) = Wv (Proc.devRef .tc main_arg8) := by
  simp only [ops, List.drop_succ_cons, List.drop_zero, List.take_succ_cons, List.take_zero]
  after_results_simp <;> rfl
theorem rkeep1_arg9 : StableHlo.after (((ops (F := Ideal)).drop 9).take 20) Wv (Proc.devRef .tc main_arg9) = Wv (Proc.devRef .tc main_arg9) := by
  simp only [ops, List.drop_succ_cons, List.drop_zero, List.take_succ_cons, List.take_zero]
  after_results_simp <;> rfl
theorem rkeep1_arg10 : StableHlo.after (((ops (F := Ideal)).drop 9).take 20) Wv (Proc.devRef .tc main_arg10) = Wv (Proc.devRef .tc main_arg10) := by
  simp only [ops, List.drop_succ_cons, List.drop_zero, List.take_succ_cons, List.take_zero]
  after_results_simp <;> rfl
theorem rkeep1_arg11 : StableHlo.after (((ops (F := Ideal)).drop 9).take 20) Wv (Proc.devRef .tc main_arg11) = Wv (Proc.devRef .tc main_arg11) := by
  simp only [ops, List.drop_succ_cons, List.drop_zero, List.take_succ_cons, List.take_zero]
  after_results_simp <;> rfl
theorem rkeep1_arg12 : StableHlo.after (((ops (F := Ideal)).drop 9).take 20) Wv (Proc.devRef .tc main_arg12) = Wv (Proc.devRef .tc main_arg12) := by
  simp only [ops, List.drop_succ_cons, List.drop_zero, List.take_succ_cons, List.take_zero]
  after_results_simp <;> rfl
theorem rkeep1_arg13 : StableHlo.after (((ops (F := Ideal)).drop 9).take 20) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefStage2.lean ====
/-
  The reference's operations from its second join to before its third, read from any buffer contents: the node table after
  the first layer (the rectified linear image of the node rows joined with the neighbourhood means) and every edge's source
  row of it.  The arguments keep their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- The node table after the first layer. -/
theorem r2_v28 : StableHlo.after ((((ops (F := Ideal)).drop 9).drop 20).take 17) Wv (Proc.devRef .tc main_v28)
    = Cert.Layers.upd (Wv (Proc.devRef .tc main_arg0)) (Wv (Proc.devRef .tc main_v22)) (Wv (Proc.devRef .tc main_arg6)) (Wv (Proc.devRef .tc main_arg7)) := by
  simp only [ops, List.drop_succ_cons, List.drop_zero, List.take_succ_cons, List.take_zero]
  after_results_simp <;> (try simp only [TRef.toBuf, TRef.ofBuf, cast_eq, id]) <;> rfl
/-- Every edge's source row of it. -/
theorem r2_v35 : StableHlo.after ((((ops (F := Ideal)).drop 9).drop 20).take 17) Wv (Proc.devRef .tc main_v35)
    = Cert.Layers.gatherRows (Cert.Layers.upd (Wv (Proc.devRef .tc main_arg0)) (Wv (Proc.devRef .tc main_v22)) (Wv (Proc.devRef .tc main_arg6)) (Wv (Proc.devRef .tc main_arg7))) (Wv (Proc.devRef .tc main_arg2)) := by
  simp only [ops, List.drop_succ_cons, List.drop_zero, List.take_succ_cons, List.take_zero]
  after_results_simp <;> (try simp only [TRef.toBuf, TRef.ofBuf, cast_eq, id]) <;> rfl

/-! The buffers these operations do not write. -/
theorem rkeep2_arg0 : StableHlo.after ((((ops (F := Ideal)).drop 9).drop 20).take 17) Wv (Proc.devRef .tc main_arg0) = Wv (Proc.devRef .tc main_arg0) := by
  simp only [ops, List.drop_succ_cons, List.drop_zero, List.take_succ_cons, List.take_zero]
  after_results_simp <;> rfl
theorem rkeep2_arg1 : StableHlo.after ((((ops (F := Ideal)).drop 9).drop 20).take 17) Wv (Proc.devRef .tc main_arg1) = Wv (Proc.devRef .tc main_arg1) := by
  simp only [ops, List.drop_succ_cons, List.drop_zero, List.take_succ_cons, List.take_zero]
  after_results_simp <;> rfl
theorem rkeep2_arg2 : StableHlo.after ((((ops (F := Ideal)).drop 9).drop 20).take 17) Wv (Proc.devRef .tc main_arg2) = Wv (Proc.devRef .tc main_arg2) := by
  simp only [ops, List.drop_succ_cons, List.drop_zero, List.take_succ_cons, List.take_zero]
  after_results_simp <;> rfl
theorem rkeep2_arg3 : StableHlo.after ((((ops (F := Ideal)).drop 9).drop 20).take 17) Wv (Proc.devRef .tc main_arg3) = Wv (Proc.devRef .tc main_arg3) := by
  simp only [ops, List.drop_succ_cons, List.drop_zero, List.take_succ_cons, List.take_zero]
  after_results_simp <;> rfl
theorem rkeep2_arg4 : StableHlo.after ((((ops (F := Ideal)).drop 9).drop 20).take 17) Wv (Proc.devRef .tc main_arg4) = Wv (Proc.devRef .tc main_arg4) := by
  simp only [ops, List.drop_succ_cons, List.drop_zero, List.take_succ_cons, List.take_zero]
  after_results_simp <;> rfl
theorem rkeep2_arg5 : StableHlo.after ((((ops (F := Ideal)).drop 9).drop 20).take 17) Wv (Proc.devRef .tc main_arg5) = Wv (Proc.devRef .tc main_arg5) := by
  simp only [ops, List.drop_succ_cons, List.drop_zero, List.take_succ_cons, List.take_zero]
  after_results_simp <;> rfl
theorem rkeep2_arg6 : StableHlo.after ((((ops (F := Ideal)).drop 9).drop 20).take 17) Wv (Proc.devRef .tc main_arg6) = Wv (Proc.devRef .tc main_arg6) := by
  simp only [ops, List.drop_succ_cons, List.drop_zero, List.take_succ_cons, List.take_zero]
  after_results_simp <;> rfl
theorem rkeep2_arg7 : StableHlo.after ((((ops (F := Ideal)).drop 9).drop 20).take 17) Wv (Proc.devRef .tc main_arg7) = Wv (Proc.devRef .tc main_arg7) := by
  simp only [ops, List.drop_succ_cons, List.drop_zero, List.take_succ_cons, List.take_zero]
  after_results_simp <;> rfl
theorem rkeep2_arg8 : StableHlo.after ((((ops (F := Ideal)).drop 9).drop 20).take 17) Wv (Proc.devRef .tc main_arg8) = Wv (Proc.devRef .tc main_arg8) := by
  simp only [ops, List.drop_succ_cons, List.drop_zero, List.take_succ_cons, List.take_zero]
  after_results_simp <;> rfl
theorem rkeep2_arg9 : StableHlo.after ((((ops (F := Ideal)).drop 9).drop 20).take 17) Wv (Proc.devRef .tc main_arg9) = Wv (Proc.devRef .tc main_arg9) := by
  simp only [ops, List.drop_succ_cons, List.drop_zero, List.take_succ_cons, List.take_zero]
  after_results_simp <;> rfl
theorem rkeep2_arg10 : StableHlo.after ((((ops (F := Ideal)).drop 9).drop 20).take 17) Wv (Proc.devRef .tc main_arg10) = Wv (Proc.devRef .tc main_arg10) := by
  simp only [ops, List.drop_succ_cons, List.drop_zero, List.take_succ_cons, List.take_zero]
  after_results_simp <;> rfl
theorem rkeep2_arg11 : StableHlo.after ((((ops (F := Ideal)).drop 9).drop 20).take 17) Wv (Proc.devRef .tc main_arg11) = Wv (Proc.devRef .tc main_arg11) := by
  simp only [ops, List.drop_succ_cons, List.drop_zero, List.take_succ_cons, List.take_zero]
  after_results_simp <;> rfl
theorem rkeep2_arg12 : StableHlo.after ((((ops (F := Ideal)).drop 9).drop 20).take 17) Wv (Proc.devRef .tc main_arg12) = Wv (Proc.devRef .tc main_arg12) := by
  simp only [ops, List.drop_succ_cons, List.drop_zero, List.take_succ_cons, List.take_zero]
  after_results_simp <;> rfl
theorem rkeep2_arg13 : StableHlo.after ((((ops (F := Ideal)).drop 9).drop 20).take 17) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefStage3.lean ====
/-
  The reference's operations from its third join to before its fourth, read from any buffer contents: the second layer's
  neighbourhood means.  The first layer's node table and the arguments keep their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- The second layer's neighbourhood means. -/
theorem r3_v51 : StableHlo.after (((((ops (F := Ideal)).drop 9).drop 20).drop 17).take 20) Wv (Proc.devRef .tc main_v51)
    = Cert.Layers.meanBy (Cert.Layers.msg (Wv (Proc.devRef .tc main_v35)) (Wv (Proc.devRef .tc main_arg1)) (Wv (Proc.devRef .tc main_arg8)) (Wv (Proc.devRef .tc main_arg9))) (Wv (Proc.devRef .tc main_arg3)) (Cert.Layers.cnt (Wv (Proc.devRef .tc main_arg3))) := by
  simp only [ops, List.drop_succ_cons, List.drop_zero, List.take_succ_cons, List.take_zero]
  after_results_simp <;> (try simp only [TRef.toBuf, TRef.ofBuf, cast_eq, id]) <;> rfl

/-! The buffers these operations do not write. -/
theorem rkeep3_v28 : StableHlo.after (((((ops (F := Ideal)).drop 9).drop 20).drop 17).take 20) Wv (Proc.devRef .tc main_v28) = Wv (Proc.devRef .tc main_v28) := by
  simp only [ops, List.drop_succ_cons, List.drop_zero, List.take_succ_cons, List.take_zero]
  after_results_simp <;> rfl
theorem rkeep3_arg0 : StableHlo.after (((((ops (F := Ideal)).drop 9).drop 20).drop 17).take 20) Wv (Proc.devRef .tc main_arg0) = Wv (Proc.devRef .tc main_arg0) := by
  simp only [ops, List.drop_succ_cons, List.drop_zero, List.take_succ_cons, List.take_zero]
  after_results_simp <;> rfl
theorem rkeep3_arg1 : StableHlo.after (((((ops (F := Ideal)).drop 9).drop 20).drop 17).take 20) Wv (Proc.devRef .tc main_arg1) = Wv (Proc.devRef .tc main_arg1) := by
  simp only [ops, List.drop_succ_cons, List.drop_zero, List.take_succ_cons, List.take_zero]
  after_results_simp <;> rfl
theorem rkeep3_arg2 : StableHlo.after (((((ops (F := Ideal)).drop 9).drop 20).drop 17).take 20) Wv (Proc.devRef .tc main_arg2) = Wv (Proc.devRef .tc main_arg2) := by
  simp only [ops, List.drop_succ_cons, List.drop_zero, List.take_succ_cons, List.take_zero]
  after_results_simp <;> rfl
theorem rkeep3_arg3 : StableHlo.after (((((ops (F := Ideal)).drop 9).drop 20).drop 17).take 20) Wv (Proc.devRef .tc main_arg3) = Wv (Proc.devRef .tc main_arg3) := by
  simp only [ops, List.drop_succ_cons, List.drop_zero, List.take_succ_cons, List.take_zero]
  after_results_simp <;> rfl
theorem rkeep3_arg4 : StableHlo.after (((((ops (F := Ideal)).drop 9).drop 20).drop 17).take 20) Wv (Proc.devRef .tc main_arg4) = Wv (Proc.devRef .tc main_arg4) := by
  simp only [ops, List.drop_succ_cons, List.drop_zero, List.take_succ_cons, List.take_zero]
  after_results_simp <;> rfl
theorem rkeep3_arg5 : StableHlo.after (((((ops (F := Ideal)).drop 9).drop 20).drop 17).take 20) Wv (Proc.devRef .tc main_arg5) = Wv (Proc.devRef .tc main_arg5) := by
  simp only [ops, List.drop_succ_cons, List.drop_zero, List.take_succ_cons, List.take_zero]
  after_results_simp <;> rfl
theorem rkeep3_arg6 : StableHlo.after (((((ops (F := Ideal)).drop 9).drop 20).drop 17).take 20) Wv (Proc.devRef .tc main_arg6) = Wv (Proc.devRef .tc main_arg6) := by
  simp only [ops, List.drop_succ_cons, List.drop_zero, List.take_succ_cons, List.take_zero]
  after_results_simp <;> rfl
theorem rkeep3_arg7 : StableHlo.after (((((ops (F := Ideal)).drop 9).drop 20).drop 17).take 20) Wv (Proc.devRef .tc main_arg7) = Wv (Proc.devRef .tc main_arg7) := by
  simp only [ops, List.drop_succ_cons, List.drop_zero, List.take_succ_cons, List.take_zero]
  after_results_simp <;> rfl
theorem rkeep3_arg8 : StableHlo.after (((((ops (F := Ideal)).drop 9).drop 20).drop 17).take 20) Wv (Proc.devRef .tc main_arg8) = Wv (Proc.devRef .tc main_arg8) := by
  simp only [ops, List.drop_succ_cons, List.drop_zero, List.take_succ_cons, List.take_zero]
  after_results_simp <;> rfl
theorem rkeep3_arg9 : StableHlo.after (((((ops (F := Ideal)).drop 9).drop 20).drop 17).take 20) Wv (Proc.devRef .tc main_arg9) = Wv (Proc.devRef .tc main_arg9) := by
  simp only [ops, List.drop_succ_cons, List.drop_zero, List.take_succ_cons, List.take_zero]
  after_results_simp <;> rfl
theorem rkeep3_arg10 : StableHlo.after (((((ops (F := Ideal)).drop 9).drop 20).drop 17).take 20) Wv (Proc.devRef .tc main_arg10) = Wv (Proc.devRef .tc main_arg10) := by
  simp only [ops, List.drop_succ_cons, List.drop_zero, List.take_succ_cons, List.take_zero]
  after_results_simp <;> rfl
theorem rkeep3_arg11 : StableHlo.after (((((ops (F := Ideal)).drop 9).drop 20).drop 17).take 20) Wv (Proc.devRef .tc main_arg11) = Wv (Proc.devRef .tc main_arg11) := by
  simp only [ops, List.drop_succ_cons, List.drop_zero, List.take_succ_cons, List.take_zero]
  after_results_simp <;> rfl
theorem rkeep3_arg12 : StableHlo.after (((((ops (F := Ideal)).drop 9).drop 20).drop 17).take 20) Wv (Proc.devRef .tc main_arg12) = Wv (Proc.devRef .tc main_arg12) := by
  simp only [ops, List.drop_succ_cons, List.drop_zero, List.take_succ_cons, List.take_zero]
  after_results_simp <;> rfl
theorem rkeep3_arg13 : StableHlo.after (((((ops (F := Ideal)).drop 9).drop 20).drop 17).take 20) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefStage4.lean ====
/-
  The reference's operations from its fourth join to before its last, read from any buffer contents: every edge's source
  row and destination row of the node table after the second layer.  The arguments keep their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- Every edge's source row of the final node table. -/
theorem r4_v64 : StableHlo.after ((((((ops (F := Ideal)).drop 9).drop 20).drop 17).drop 20).take 26) Wv (Proc.devRef .tc main_v64)
    = Cert.Layers.gatherRows (Cert.Layers.upd (Wv (Proc.devRef .tc main_v28)) (Wv (Proc.devRef .tc main_v51)) (Wv (Proc.devRef .tc main_arg10)) (Wv (Proc.devRef .tc main_arg11))) (Wv (Proc.devRef .tc main_arg2)) := by
  simp only [ops, List.drop_succ_cons, List.drop_zero, List.take_succ_cons, List.take_zero]
  after_results_simp <;> (try simp only [TRef.toBuf, TRef.ofBuf, cast_eq, id]) <;> rfl
/-- Every edge's destination row of it. -/
theorem r4_v71 : StableHlo.after ((((((ops (F := Ideal)).drop 9).drop 20).drop 17).drop 20).take 26) Wv (Proc.devRef .tc main_v71)
    = Cert.Layers.gatherRows (Cert.Layers.upd (Wv (Proc.devRef .tc main_v28)) (Wv (Proc.devRef .tc main_v51)) (Wv (Proc.devRef .tc main_arg10)) (Wv (Proc.devRef .tc main_arg11))) (Wv (Proc.devRef .tc main_arg3)) := by
  simp only [ops, List.drop_succ_cons, List.drop_zero, List.take_succ_cons, List.take_zero]
  after_results_simp <;> (try simp only [TRef.toBuf, TRef.ofBuf, cast_eq, id]) <;> rfl

/-! The buffers these operations do not write. -/
theorem rkeep4_arg0 : StableHlo.after ((((((ops (F := Ideal)).drop 9).drop 20).drop 17).drop 20).take 26) Wv (Proc.devRef .tc main_arg0) = Wv (Proc.devRef .tc main_arg0) := by
  simp only [ops, List.drop_succ_cons, List.drop_zero, List.take_succ_cons, List.take_zero]
  after_results_simp <;> rfl
theorem rkeep4_arg1 : StableHlo.after ((((((ops (F := Ideal)).drop 9).drop 20).drop 17).drop 20).take 26) Wv (Proc.devRef .tc main_arg1) = Wv (Proc.devRef .tc main_arg1) := by
  simp only [ops, List.drop_succ_cons, List.drop_zero, List.take_succ_cons, List.take_zero]
  after_results_simp <;> rfl
theorem rkeep4_arg2 : StableHlo.after ((((((ops (F := Ideal)).drop 9).drop 20).drop 17).drop 20).take 26) Wv (Proc.devRef .tc main_arg2) = Wv (Proc.devRef .tc main_arg2) := by
  simp only [ops, List.drop_succ_cons, List.drop_zero, List.take_succ_cons, List.take_zero]
  after_results_simp <;> rfl
theorem rkeep4_arg3 : StableHlo.after ((((((ops (F := Ideal)).drop 9).drop 20).drop 17).drop 20).take 26) Wv (Proc.devRef .tc main_arg3) = Wv (Proc.devRef .tc main_arg3) := by
  simp only [ops, List.drop_succ_cons, List.drop_zero, List.take_succ_cons, List.take_zero]
  after_results_simp <;> rfl
theorem rkeep4_arg4 : StableHlo.after ((((((ops (F := Ideal)).drop 9).drop 20).drop 17).drop 20).take 26) Wv (Proc.devRef .tc main_arg4) = Wv (Proc.devRef .tc main_arg4) := by
  simp only [ops, List.drop_succ_cons, List.drop_zero, List.take_succ_cons, List.take_zero]
  after_results_simp <;> rfl
theorem rkeep4_arg5 : StableHlo.after ((((((ops (F := Ideal)).drop 9).drop 20).drop 17).drop 20).take 26) Wv (Proc.devRef .tc main_arg5) = Wv (Proc.devRef .tc main_arg5) := by
  simp only [ops, List.drop_succ_cons, List.drop_zero, List.take_succ_cons, List.take_zero]
  after_results_simp <;> rfl
theorem rkeep4_arg6 : StableHlo.after ((((((ops (F := Ideal)).drop 9).drop 20).drop 17).drop 20).take 26) Wv (Proc.devRef .tc main_arg6) = Wv (Proc.devRef .tc main_arg6) := by
  simp only [ops, List.drop_succ_cons, List.drop_zero, List.take_succ_cons, List.take_zero]
  after_results_simp <;> rfl
theorem rkeep4_arg7 : StableHlo.after ((((((ops (F := Ideal)).drop 9).drop 20).drop 17).drop 20).take 26) Wv (Proc.devRef .tc main_arg7) = Wv (Proc.devRef .tc main_arg7) := by
  simp only [ops, List.drop_succ_cons, List.drop_zero, List.take_succ_cons, List.take_zero]
  after_results_simp <;> rfl
theorem rkeep4_arg8 : StableHlo.after ((((((ops (F := Ideal)).drop 9).drop 20).drop 17).drop 20).take 26) Wv (Proc.devRef .tc main_arg8) = Wv (Proc.devRef .tc main_arg8) := by
  simp only [ops, List.drop_succ_cons, List.drop_zero, List.take_succ_cons, List.take_zero]
  after_results_simp <;> rfl
theorem rkeep4_arg9 : StableHlo.after ((((((ops (F := Ideal)).drop 9).drop 20).drop 17).drop 20).take 26) Wv (Proc.devRef .tc main_arg9) = Wv (Proc.devRef .tc main_arg9) := by
  simp only [ops, List.drop_succ_cons, List.drop_zero, List.take_succ_cons, List.take_zero]
  after_results_simp <;> rfl
theorem rkeep4_arg10 : StableHlo.after ((((((ops (F := Ideal)).drop 9).drop 20).drop 17).drop 20).take 26) Wv (Proc.devRef .tc main_arg10) = Wv (Proc.devRef .tc main_arg10) := by
  simp only [ops, List.drop_succ_cons, List.drop_zero, List.take_succ_cons, List.take_zero]
  after_results_simp <;> rfl
theorem rkeep4_arg11 : StableHlo.after ((((((ops (F := Ideal)).drop 9).drop 20).drop 17).drop 20).take 26) Wv (Proc.devRef .tc main_arg11) = Wv (Proc.devRef .tc main_arg11) := by
  simp only [ops, List.drop_succ_cons, List.drop_zero, List.take_succ_cons, List.take_zero]
  after_results_simp <;> rfl
theorem rkeep4_arg12 : StableHlo.after ((((((ops (F := Ideal)).drop 9).drop 20).drop 17).drop 20).take 26) Wv (Proc.devRef .tc main_arg12) = Wv (Proc.devRef .tc main_arg12) := by
  simp only [ops, List.drop_succ_cons, List.drop_zero, List.take_succ_cons, List.take_zero]
  after_results_simp <;> rfl
theorem rkeep4_arg13 : StableHlo.after ((((((ops (F := Ideal)).drop 9).drop 20).drop 17).drop 20).take 26) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefStage5.lean ====
/-
  The reference's last operations, from its last join, read from any buffer contents: the edge scores.  The arguments keep
  their contents.
-/
import proofs.«134400_j56057913147666_2_alg».proof.Proof.RefOps
import proofs.«134400_j56057913147666_2_alg».proof.Proof.Layers
import Idealize.ShloMosaic.Lib.StableHlo.Run

set_option maxRecDepth 16384

noncomputable section

namespace Cert.ReferenceIdeal.Stages

open Idealize.ShloMosaic Idealize.ShloMosaic.TcCoe Idealize.ShloMosaic.StableHlo
open Cert.ReferenceIdeal Cert.ReferenceIdeal.Gen Cert.ReferenceIdeal.RunP

variable [Cert.ReferenceIdeal.Facts]
variable (Wv : Valuation τ sig (Elt Ideal))

/-- The edge scores. -/
theorem r5_v76 : StableHlo.after ((((((ops (F := Ideal)).drop 9).drop 20).drop 17).drop 20).drop 26) Wv (Proc.devRef .tc main_v76)
    = Cert.Layers.score (Wv (Proc.devRef .tc main_v64)) (Wv (Proc.devRef .tc main_v71)) (Wv (Proc.devRef .tc main_arg12)) (Wv (Proc.devRef .tc main_arg13)) := by
  simp only [ops, List.drop_succ_cons, List.drop_zero, List.take_succ_cons, List.take_zero]
  after_results_simp <;> (try simp only [TRef.toBuf, TRef.ofBuf, cast_eq, id]) <;> rfl

/-! The buffers these operations do not write. -/
theorem rkeep5_arg0 : StableHlo.after ((((((ops (F := Ideal)).drop 9).drop 20).drop 17).drop 20).drop 26) Wv (Proc.devRef .tc main_arg0) = Wv (Proc.devRef .tc main_arg0) := by
  simp only [ops, List.drop_succ_cons, List.drop_zero, List.take_succ_cons, List.take_zero]
  after_results_simp <;> rfl
theorem rkeep5_arg1 : StableHlo.after ((((((ops (F := Ideal)).drop 9).drop 20).drop 17).drop 20).drop 26) Wv (Proc.devRef .tc main_arg1) = Wv (Proc.devRef .tc main_arg1) := by
  simp only [ops, List.drop_succ_cons, List.drop_zero, List.take_succ_cons, List.take_zero]
  after_results_simp <;> rfl
theorem rkeep5_arg2 : StableHlo.after ((((((ops (F := Ideal)).drop 9).drop 20).drop 17).drop 20).drop 26) Wv (Proc.devRef .tc main_arg2) = Wv (Proc.devRef .tc main_arg2) := by
  simp only [ops, List.drop_succ_cons, List.drop_zero, List.take_succ_cons, List.take_zero]
  after_results_simp <;> rfl
theorem rkeep5_arg3 : StableHlo.after ((((((ops (F := Ideal)).drop 9).drop 20).drop 17).drop 20).drop 26) Wv (Proc.devRef .tc main_arg3) = Wv (Proc.devRef .tc main_arg3) := by
  simp only [ops, List.drop_succ_cons, List.drop_zero, List.take_succ_cons, List.take_zero]
  after_results_simp <;> rfl
theorem rkeep5_arg4 : StableHlo.after ((((((ops (F := Ideal)).drop 9).drop 20).drop 17).drop 20).drop 26) Wv (Proc.devRef .tc main_arg4) = Wv (Proc.devRef .tc main_arg4) := by
  simp only [ops, List.drop_succ_cons, List.drop_zero, List.take_succ_cons, List.take_zero]
  after_results_simp <;> rfl
theorem rkeep5_arg5 : StableHlo.after ((((((ops (F := Ideal)).drop 9).drop 20).drop 17).drop 20).drop 26) Wv (Proc.devRef .tc main_arg5) = Wv (Proc.devRef .tc main_arg5) := by
  simp only [ops, List.drop_succ_cons, List.drop_zero, List.take_succ_cons, List.take_zero]
  after_results_simp <;> rfl
theorem rkeep5_arg6 : StableHlo.after ((((((ops (F := Ideal)).drop 9).drop 20).drop 17).drop 20).drop 26) Wv (Proc.devRef .tc main_arg6) = Wv (Proc.devRef .tc main_arg6) := by
  simp only [ops, List.drop_succ_cons, List.drop_zero, List.take_succ_cons, List.take_zero]
  after_results_simp <;> rfl
theorem rkeep5_arg7 : StableHlo.after ((((((ops (F := Ideal)).drop 9).drop 20).drop 17).drop 20).drop 26) Wv (Proc.devRef .tc main_arg7) = Wv (Proc.devRef .tc main_arg7) := by
  simp only [ops, List.drop_succ_cons, List.drop_zero, List.take_succ_cons, List.take_zero]
  after_results_simp <;> rfl
theorem rkeep5_arg8 : StableHlo.after ((((((ops (F := Ideal)).drop 9).drop 20).drop 17).drop 20).drop 26) Wv (Proc.devRef .tc main_arg8) = Wv (Proc.devRef .tc main_arg8) := by
  simp only [ops, List.drop_succ_cons, List.drop_zero, List.take_succ_cons, List.take_zero]
  after_results_simp <;> rfl
theorem rkeep5_arg9 : StableHlo.after ((((((ops (F := Ideal)).drop 9).drop 20).drop 17).drop 20).drop 26) Wv (Proc.devRef .tc main_arg9) = Wv (Proc.devRef .tc main_arg9) := by
  simp only [ops, List.drop_succ_cons, List.drop_zero, List.take_succ_cons, List.take_zero]
  after_results_simp <;> rfl
theorem rkeep5_arg10 : StableHlo.after ((((((ops (F := Ideal)).drop 9).drop 20).drop 17).drop 20).drop 26) Wv (Proc.devRef .tc main_arg10) = Wv (Proc.devRef .tc main_arg10) := by
  simp only [ops, List.drop_succ_cons, List.drop_zero, List.take_succ_cons, List.take_zero]
  after_results_simp <;> rfl
theorem rkeep5_arg11 : StableHlo.after ((((((ops (F := Ideal)).drop 9).drop 20).drop 17).drop 20).drop 26) Wv (Proc.devRef .tc main_arg11) = Wv (Proc.devRef .tc main_arg11) := by
  simp only [ops, List.drop_succ_cons, List.drop_zero, List.take_succ_cons, List.take_zero]
  after_results_simp <;> rfl
theorem rkeep5_arg12 : StableHlo.after ((((((ops (F := Ideal)).drop 9).drop 20).drop 17).drop 20).drop 26) Wv (Proc.devRef .tc main_arg12) = Wv (Proc.devRef .tc main_arg12) := by
  simp only [ops, List.drop_succ_cons, List.drop_zero, List.take_succ_cons, List.take_zero]
  after_results_simp <;> rfl
theorem rkeep5_arg13 : StableHlo.after ((((((ops (F := Ideal)).drop 9).drop 20).drop 17).drop 20).drop 26) Wv (Proc.devRef .tc main_arg13) = Wv (Proc.devRef .tc main_arg13) := by
  simp only [ops, List.drop_succ_cons, List.drop_zero, List.take_succ_cons, List.take_zero]
  after_results_simp <;> rfl

end Cert.ReferenceIdeal.Stages

end
-- ==== Proof.RefValue.lean ====
/-
  The reference's run, read back as the network of Layers.lean.

  The reference is one straight line of 97 host operations.  Every weakly fair execution terminates with each buffer at
  the fold of the operations' results over the launch memory.  The fold is cut before each of the five joins of two tables,
  so that every stretch reads its operands from the contents the stretch before left; walked stretch by stretch from the
  launch memory, the result buffer ends at the network applied to the arguments, and each argument as launched.
-/
import proofs.«134400_j56057913147666_2_alg».proof.Proof.RefOps
import proofs.«134400_j56057913147666_2_alg».proof.Proof.Layers
import proofs.«134400_j56057913147666_2_alg».proof.Proof.RefStage0
import proofs.«134400_j56057913147666_2_alg».proof.Proof.RefStage1
import proofs.«134400_j56057913147666_2_alg».proof.Proof.RefStage2
import proofs.«134400_j56057913147666_2_alg».proof.Proof.RefStage3
import proofs.«134400_j56057913147666_2_alg».proof.Proof.RefStage4
import proofs.«134400_j56057913147666_2_alg».proof.Proof.RefStage5
import Idealize.ShloMosaic.Lib.StableHlo.Run
import Idealize.ShloMosaic.Lib.Pipeline.Frame

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.RunP Cert.ReferenceIdeal.Stages

variable [Cert.ReferenceIdeal.Facts]

/-- A line of operations run from V is its tail run from what its first n operations leave. -/
theorem after_cut {Val : EltTy → Type} (l : List (HloOp τ sig Val)) (n : Nat) (V : Valuation τ sig Val) :
    StableHlo.after l V = StableHlo.after (l.drop n) (StableHlo.after (l.take n) V) := by
  rw [← StableHlo.after_append, List.take_append_drop]

variable (m : (ℓ : Loc nD τ sig) → Buf (Elt Ideal) ℓ) (c : Dev nD)

/-- The buffer contents at launch, and after each of the six stretches. -/
abbrev L0 : Valuation τ sig (Elt Ideal) := launchContents m c
abbrev L1 : Valuation τ sig (Elt Ideal) := StableHlo.after ((ops (F := Ideal)).take 9) (L0 m c)
abbrev L2 : Valuation τ sig (Elt Ideal) := StableHlo.after (((ops (F := Ideal)).drop 9).take 20) (L1 m c)
abbrev L3 : Valuation τ sig (Elt Ideal) := StableHlo.after ((((ops (F := Ideal)).drop 9).drop 20).take 17) (L2 m c)
abbrev L4 : Valuation τ sig (Elt Ideal) := StableHlo.after (((((ops (F := Ideal)).drop 9).drop 20).drop 17).take 20) (L3 m c)
abbrev L5 : Valuation τ sig (Elt Ideal) := StableHlo.after ((((((ops (F := Ideal)).drop 9).drop 20).drop 17).drop 20).take 26) (L4 m c)
abbrev L6 : Valuation τ sig (Elt Ideal) := StableHlo.after ((((((ops (F := Ideal)).drop 9).drop 20).drop 17).drop 20).drop 26) (L5 m c)

/-- The whole line run from the launch memory is the six stretches run one after the other. -/
theorem ops_run : StableHlo.after (ops (F := Ideal)) (L0 m c) = L6 m c :=
  (after_cut _ 9 _).trans ((after_cut _ 20 _).trans ((after_cut _ 17 _).trans ((after_cut _ 20 _).trans (after_cut _ 26 _))))

/-! ### The launch memory -/
theorem l0_arg0 : L0 m c (Proc.devRef .tc main_arg0) = (m ((c.tc : Thread nD τ).loc main_arg0)) :=
  rfl
theorem l0_arg1 : L0 m c (Proc.devRef .tc main_arg1) = (m ((c.tc : Thread nD τ).loc main_arg1)) :=
  rfl
theorem l0_arg2 : L0 m c (Proc.devRef .tc main_arg2) = (m ((c.tc : Thread nD τ).loc main_arg2)) :=
  rfl
theorem l0_arg3 : L0 m c (Proc.devRef .tc main_arg3) = (m ((c.tc : Thread nD τ).loc main_arg3)) :=
  rfl
theorem l0_arg4 : L0 m c (Proc.devRef .tc main_arg4) = (m ((c.tc : Thread nD τ).loc main_arg4)) :=
  rfl
theorem l0_arg5 : L0 m c (Proc.devRef .tc main_arg5) = (m ((c.tc : Thread nD τ).loc main_arg5)) :=
  rfl
theorem l0_arg6 : L0 m c (Proc.devRef .tc main_arg6) = (m ((c.tc : Thread nD τ).loc main_arg6)) :=
  rfl
theorem l0_arg7 : L0 m c (Proc.devRef .tc main_arg7) = (m ((c.tc : Thread nD τ).loc main_arg7)) :=
  rfl
theorem l0_arg8 : L0 m c (Proc.devRef .tc main_arg8) = (m ((c.tc : Thread nD τ).loc main_arg8)) :=
  rfl
theorem l0_arg9 : L0 m c (Proc.devRef .tc main_arg9) = (m ((c.tc : Thread nD τ).loc main_arg9)) :=
  rfl
theorem l0_arg10 : L0 m c (Proc.devRef .tc main_arg10) = (m ((c.tc : Thread nD τ).loc main_arg10)) :=
  rfl
theorem l0_arg11 : L0 m c (Proc.devRef .tc main_arg11) = (m ((c.tc : Thread nD τ).loc main_arg11)) :=
  rfl
theorem l0_arg12 : L0 m c (Proc.devRef .tc main_arg12) = (m ((c.tc : Thread nD τ).loc main_arg12)) :=
  rfl
theorem l0_arg13 : L0 m c (Proc.devRef .tc main_arg13) = (m ((c.tc : Thread nD τ).loc main_arg13)) :=
  rfl

/-! ### After the operations before the first join -/
theorem l1_v6 : L1 m c (Proc.devRef .tc main_v6) = Cert.Layers.gatherRows (m ((c.tc : Thread nD τ).loc main_arg0)) (m ((c.tc : Thread nD τ).loc main_arg2)) :=
  (r0_v6 (L0 m c)).trans (by rw [l0_arg0 m c, l0_arg2 m c] <;> rfl)
theorem l1_arg0 : L1 m c (Proc.devRef .tc main_arg0) = (m ((c.tc : Thread nD τ).loc main_arg0)) :=
  (rkeep0_arg0 (L0 m c)).trans (l0_arg0 m c)
theorem l1_arg1 : L1 m c (Proc.devRef .tc main_arg1) = (m ((c.tc : Thread nD τ).loc main_arg1)) :=
  (rkeep0_arg1 (L0 m c)).trans (l0_arg1 m c)
theorem l1_arg2 : L1 m c (Proc.devRef .tc main_arg2) = (m ((c.tc : Thread nD τ).loc main_arg2)) :=
  (rkeep0_arg2 (L0 m c)).trans (l0_arg2 m c)
theorem l1_arg3 : L1 m c (Proc.devRef .tc main_arg3) = (m ((c.tc : Thread nD τ).loc main_arg3)) :=
  (rkeep0_arg3 (L0 m c)).trans (l0_arg3 m c)
theorem l1_arg4 : L1 m c (Proc.devRef .tc main_arg4) = (m ((c.tc : Thread nD τ).loc main_arg4)) :=
  (rkeep0_arg4 (L0 m c)).trans (l0_arg4 m c)
theorem l1_arg5 : L1 m c (Proc.devRef .tc main_arg5) = (m ((c.tc : Thread nD τ).loc main_arg5)) :=
  (rkeep0_arg5 (L0 m c)).trans (l0_arg5 m c)
theorem l1_arg6 : L1 m c (Proc.devRef .tc main_arg6) = (m ((c.tc : Thread nD τ).loc main_arg6)) :=
  (rkeep0_arg6 (L0 m c)).trans (l0_arg6 m c)
theorem l1_arg7 : L1 m c (Proc.devRef .tc main_arg7) = (m ((c.tc : Thread nD τ).loc main_arg7)) :=
  (rkeep0_arg7 (L0 m c)).trans (l0_arg7 m c)
theorem l1_arg8 : L1 m c (Proc.devRef .tc main_arg8) = (m ((c.tc : Thread nD τ).loc main_arg8)) :=
  (rkeep0_arg8 (L0 m c)).trans (l0_arg8 m c)
theorem l1_arg9 : L1 m c (Proc.devRef .tc main_arg9) = (m ((c.tc : Thread nD τ).loc main_arg9)) :=
  (rkeep0_arg9 (L0 m c)).trans (l0_arg9 m c)
theorem l1_arg10 : L1 m c (Proc.devRef .tc main_arg10) = (m ((c.tc : Thread nD τ).loc main_arg10)) :=
  (rkeep0_arg10 (L0 m c)).trans (l0_arg10 m c)
theorem l1_arg11 : L1 m c (Proc.devRef .tc main_arg11) = (m ((c.tc : Thread nD τ).loc main_arg11)) :=
  (rkeep0_arg11 (L0 m c)).trans (l0_arg11 m c)
theorem l1_arg12 : L1 m c (Proc.devRef .tc main_arg12) = (m ((c.tc : Thread nD τ).loc main_arg12)) :=
  (rkeep0_arg12 (L0 m c)).trans (l0_arg12 m c)
theorem l1_arg13 : L1 m c (Proc.devRef .tc main_arg13) = (m ((c.tc : Thread nD τ).loc main_arg13)) :=
  (rkeep0_arg13 (L0 m c)).trans (l0_arg13 m c)

/-! ### After the first layer's messages and means -/
theorem l2_v22 : L2 m c (Proc.devRef .tc main_v22) = Cert.Layers.meanBy (Cert.Layers.msg (Cert.Layers.gatherRows (m ((c.tc : Thread nD τ).loc main_arg0)) (m ((c.tc : Thread nD τ).loc main_arg2))) (m ((c.tc : Thread nD τ).loc main_arg1)) (m ((c.tc : Thread nD τ).loc main_arg4)) (m ((c.tc : Thread nD τ).loc main_arg5))) (m ((c.tc : Thread nD τ).loc main_arg3)) (Cert.Layers.cnt (m ((c.tc : Thread nD τ).loc main_arg3))) :=
  (r1_v22 (L1 m c)).trans (by rw [l1_v6 m c, l1_arg1 m c, l1_arg4 m c, l1_arg5 m c, l1_arg3 m c] <;> rfl)
theorem l2_arg0 : L2 m c (Proc.devRef .tc main_arg0) = (m ((c.tc : Thread nD τ).loc main_arg0)) :=
  (rkeep1_arg0 (L1 m c)).trans (l1_arg0 m c)
theorem l2_arg1 : L2 m c (Proc.devRef .tc main_arg1) = (m ((c.tc : Thread nD τ).loc main_arg1)) :=
  (rkeep1_arg1 (L1 m c)).trans (l1_arg1 m c)
theorem l2_arg2 : L2 m c (Proc.devRef .tc main_arg2) = (m ((c.tc : Thread nD τ).loc main_arg2)) :=
  (rkeep1_arg2 (L1 m c)).trans (l1_arg2 m c)
theorem l2_arg3 : L2 m c (Proc.devRef .tc main_arg3) = (m ((c.tc : Thread nD τ).loc main_arg3)) :=
  (rkeep1_arg3 (L1 m c)).trans (l1_arg3 m c)
theorem l2_arg4 : L2 m c (Proc.devRef .tc main_arg4) = (m ((c.tc : Thread nD τ).loc main_arg4)) :=
  (rkeep1_arg4 (L1 m c)).trans (l1_arg4 m c)
theorem l2_arg5 : L2 m c (Proc.devRef .tc main_arg5) = (m ((c.tc : Thread nD τ).loc main_arg5)) :=
  (rkeep1_arg5 (L1 m c)).trans (l1_arg5 m c)
theorem l2_arg6 : L2 m c (Proc.devRef .tc main_arg6) = (m ((c.tc : Thread nD τ).loc main_arg6)) :=
  (rkeep1_arg6 (L1 m c)).trans (l1_arg6 m c)
theorem l2_arg7 : L2 m c (Proc.devRef .tc main_arg7) = (m ((c.tc : Thread nD τ).loc main_arg7)) :=
  (rkeep1_arg7 (L1 m c)).trans (l1_arg7 m c)
theorem l2_arg8 : L2 m c (Proc.devRef .tc main_arg8) = (m ((c.tc : Thread nD τ).loc main_arg8)) :=
  (rkeep1_arg8 (L1 m c)).trans (l1_arg8 m c)
theorem l2_arg9 : L2 m c (Proc.devRef .tc main_arg9) = (m ((c.tc : Thread nD τ).loc main_arg9)) :=
  (rkeep1_arg9 (L1 m c)).trans (l1_arg9 m c)
theorem l2_arg10 : L2 m c (Proc.devRef .tc main_arg10) = (m ((c.tc : Thread nD τ).loc main_arg10)) :=
  (rkeep1_arg10 (L1 m c)).trans (l1_arg10 m c)
theorem l2_arg11 : L2 m c (Proc.devRef .tc main_arg11) = (m ((c.tc : Thread nD τ).loc main_arg11)) :=
  (rkeep1_arg11 (L1 m c)).trans (l1_arg11 m c)
theorem l2_arg12 : L2 m c (Proc.devRef .tc main_arg12) = (m ((c.tc : Thread nD τ).loc main_arg12)) :=
  (rkeep1_arg12 (L1 m c)).trans (l1_arg12 m c)
theorem l2_arg13 : L2 m c (Proc.devRef .tc main_arg13) = (m ((c.tc : Thread nD τ).loc main_arg13)) :=
  (rkeep1_arg13 (L1 m c)).trans (l1_arg13 m c)

/-! ### After the first layer's update -/
/-- The node table after the first layer. -/
theorem l3_v28 : L3 m c (Proc.devRef .tc main_v28) = Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (r2_v28 (L2 m c)).trans (by rw [l2_arg0 m c, l2_v22 m c, l2_arg6 m c, l2_arg7 m c] <;> rfl)
theorem l3_v35 : L3 m c (Proc.devRef .tc main_v35) = Cert.Layers.gatherRows (Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) :=
  (r2_v35 (L2 m c)).trans (by rw [l2_arg0 m c, l2_v22 m c, l2_arg6 m c, l2_arg7 m c, l2_arg2 m c] <;> rfl)
theorem l3_arg0 : L3 m c (Proc.devRef .tc main_arg0) = (m ((c.tc : Thread nD τ).loc main_arg0)) :=
  (rkeep2_arg0 (L2 m c)).trans (l2_arg0 m c)
theorem l3_arg1 : L3 m c (Proc.devRef .tc main_arg1) = (m ((c.tc : Thread nD τ).loc main_arg1)) :=
  (rkeep2_arg1 (L2 m c)).trans (l2_arg1 m c)
theorem l3_arg2 : L3 m c (Proc.devRef .tc main_arg2) = (m ((c.tc : Thread nD τ).loc main_arg2)) :=
  (rkeep2_arg2 (L2 m c)).trans (l2_arg2 m c)
theorem l3_arg3 : L3 m c (Proc.devRef .tc main_arg3) = (m ((c.tc : Thread nD τ).loc main_arg3)) :=
  (rkeep2_arg3 (L2 m c)).trans (l2_arg3 m c)
theorem l3_arg4 : L3 m c (Proc.devRef .tc main_arg4) = (m ((c.tc : Thread nD τ).loc main_arg4)) :=
  (rkeep2_arg4 (L2 m c)).trans (l2_arg4 m c)
theorem l3_arg5 : L3 m c (Proc.devRef .tc main_arg5) = (m ((c.tc : Thread nD τ).loc main_arg5)) :=
  (rkeep2_arg5 (L2 m c)).trans (l2_arg5 m c)
theorem l3_arg6 : L3 m c (Proc.devRef .tc main_arg6) = (m ((c.tc : Thread nD τ).loc main_arg6)) :=
  (rkeep2_arg6 (L2 m c)).trans (l2_arg6 m c)
theorem l3_arg7 : L3 m c (Proc.devRef .tc main_arg7) = (m ((c.tc : Thread nD τ).loc main_arg7)) :=
  (rkeep2_arg7 (L2 m c)).trans (l2_arg7 m c)
theorem l3_arg8 : L3 m c (Proc.devRef .tc main_arg8) = (m ((c.tc : Thread nD τ).loc main_arg8)) :=
  (rkeep2_arg8 (L2 m c)).trans (l2_arg8 m c)
theorem l3_arg9 : L3 m c (Proc.devRef .tc main_arg9) = (m ((c.tc : Thread nD τ).loc main_arg9)) :=
  (rkeep2_arg9 (L2 m c)).trans (l2_arg9 m c)
theorem l3_arg10 : L3 m c (Proc.devRef .tc main_arg10) = (m ((c.tc : Thread nD τ).loc main_arg10)) :=
  (rkeep2_arg10 (L2 m c)).trans (l2_arg10 m c)
theorem l3_arg11 : L3 m c (Proc.devRef .tc main_arg11) = (m ((c.tc : Thread nD τ).loc main_arg11)) :=
  (rkeep2_arg11 (L2 m c)).trans (l2_arg11 m c)
theorem l3_arg12 : L3 m c (Proc.devRef .tc main_arg12) = (m ((c.tc : Thread nD τ).loc main_arg12)) :=
  (rkeep2_arg12 (L2 m c)).trans (l2_arg12 m c)
theorem l3_arg13 : L3 m c (Proc.devRef .tc main_arg13) = (m ((c.tc : Thread nD τ).loc main_arg13)) :=
  (rkeep2_arg13 (L2 m c)).trans (l2_arg13 m c)

/-! ### After the second layer's messages and means -/
theorem l4_v51 : L4 m c (Proc.devRef .tc main_v51) = Cert.Layers.meanBy (Cert.Layers.msg (Cert.Layers.gatherRows (Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2))) (m ((c.tc : Thread nD τ).loc main_arg1)) (m ((c.tc : Thread nD τ).loc main_arg8)) (m ((c.tc : Thread nD τ).loc main_arg9))) (m ((c.tc : Thread nD τ).loc main_arg3)) (Cert.Layers.cnt (m ((c.tc : Thread nD τ).loc main_arg3))) :=
  (r3_v51 (L3 m c)).trans (by rw [l3_v35 m c, l3_arg1 m c, l3_arg8 m c, l3_arg9 m c, l3_arg3 m c] <;> rfl)
theorem l4_v28 : L4 m c (Proc.devRef .tc main_v28) = Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (rkeep3_v28 (L3 m c)).trans (l3_v28 m c)
theorem l4_arg0 : L4 m c (Proc.devRef .tc main_arg0) = (m ((c.tc : Thread nD τ).loc main_arg0)) :=
  (rkeep3_arg0 (L3 m c)).trans (l3_arg0 m c)
theorem l4_arg1 : L4 m c (Proc.devRef .tc main_arg1) = (m ((c.tc : Thread nD τ).loc main_arg1)) :=
  (rkeep3_arg1 (L3 m c)).trans (l3_arg1 m c)
theorem l4_arg2 : L4 m c (Proc.devRef .tc main_arg2) = (m ((c.tc : Thread nD τ).loc main_arg2)) :=
  (rkeep3_arg2 (L3 m c)).trans (l3_arg2 m c)
theorem l4_arg3 : L4 m c (Proc.devRef .tc main_arg3) = (m ((c.tc : Thread nD τ).loc main_arg3)) :=
  (rkeep3_arg3 (L3 m c)).trans (l3_arg3 m c)
theorem l4_arg4 : L4 m c (Proc.devRef .tc main_arg4) = (m ((c.tc : Thread nD τ).loc main_arg4)) :=
  (rkeep3_arg4 (L3 m c)).trans (l3_arg4 m c)
theorem l4_arg5 : L4 m c (Proc.devRef .tc main_arg5) = (m ((c.tc : Thread nD τ).loc main_arg5)) :=
  (rkeep3_arg5 (L3 m c)).trans (l3_arg5 m c)
theorem l4_arg6 : L4 m c (Proc.devRef .tc main_arg6) = (m ((c.tc : Thread nD τ).loc main_arg6)) :=
  (rkeep3_arg6 (L3 m c)).trans (l3_arg6 m c)
theorem l4_arg7 : L4 m c (Proc.devRef .tc main_arg7) = (m ((c.tc : Thread nD τ).loc main_arg7)) :=
  (rkeep3_arg7 (L3 m c)).trans (l3_arg7 m c)
theorem l4_arg8 : L4 m c (Proc.devRef .tc main_arg8) = (m ((c.tc : Thread nD τ).loc main_arg8)) :=
  (rkeep3_arg8 (L3 m c)).trans (l3_arg8 m c)
theorem l4_arg9 : L4 m c (Proc.devRef .tc main_arg9) = (m ((c.tc : Thread nD τ).loc main_arg9)) :=
  (rkeep3_arg9 (L3 m c)).trans (l3_arg9 m c)
theorem l4_arg10 : L4 m c (Proc.devRef .tc main_arg10) = (m ((c.tc : Thread nD τ).loc main_arg10)) :=
  (rkeep3_arg10 (L3 m c)).trans (l3_arg10 m c)
theorem l4_arg11 : L4 m c (Proc.devRef .tc main_arg11) = (m ((c.tc : Thread nD τ).loc main_arg11)) :=
  (rkeep3_arg11 (L3 m c)).trans (l3_arg11 m c)
theorem l4_arg12 : L4 m c (Proc.devRef .tc main_arg12) = (m ((c.tc : Thread nD τ).loc main_arg12)) :=
  (rkeep3_arg12 (L3 m c)).trans (l3_arg12 m c)
theorem l4_arg13 : L4 m c (Proc.devRef .tc main_arg13) = (m ((c.tc : Thread nD τ).loc main_arg13)) :=
  (rkeep3_arg13 (L3 m c)).trans (l3_arg13 m c)

/-! ### After the second layer's update and the two gathers -/
theorem l5_v64 : L5 m c (Proc.devRef .tc main_v64) = Cert.Layers.gatherRows (Cert.Layers.layer (Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg2)) :=
  (r4_v64 (L4 m c)).trans (by rw [l4_v28 m c, l4_v51 m c, l4_arg10 m c, l4_arg11 m c, l4_arg2 m c] <;> rfl)
theorem l5_v71 : L5 m c (Proc.devRef .tc main_v71) = Cert.Layers.gatherRows (Cert.Layers.layer (Cert.Layers.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg3)) :=
  (r4_v71 (L4 m c)).trans (by rw [l4_v28 m c, l4_v51 m c, l4_arg10 m c, l4_arg11 m c, l4_arg3 m c] <;> rfl)
theorem l5_arg0 : L5 m c (Proc.devRef .tc main_arg0) = (m ((c.tc : Thread nD τ).loc main_arg0)) :=
  (rkeep4_arg0 (L4 m c)).trans (l4_arg0 m c)
theorem l5_arg1 : L5 m c (Proc.devRef .tc main_arg1) = (m ((c.tc : Thread nD τ).loc main_arg1)) :=
  (rkeep4_arg1 (L4 m c)).trans (l4_arg1 m c)
theorem l5_arg2 : L5 m c (Proc.devRef .tc main_arg2) = (m ((c.tc : Thread nD τ).loc main_arg2)) :=
  (rkeep4_arg2 (L4 m c)).trans (l4_arg2 m c)
theorem l5_arg3 : L5 m c (Proc.devRef .tc main_arg3) = (m ((c.tc : Thread nD τ).loc main_arg3)) :=
  (rkeep4_arg3 (L4 m c)).trans (l4_arg3 m c)
theorem l5_arg4 : L5 m c (Proc.devRef .tc main_arg4) = (m ((c.tc : Thread nD τ).loc main_arg4)) :=
  (rkeep4_arg4 (L4 m c)).trans (l4_arg4 m c)
theorem l5_arg5 : L5 m c (Proc.devRef .tc main_arg5) = (m ((c.tc : Thread nD τ).loc main_arg5)) :=
  (rkeep4_arg5 (L4 m c)).trans (l4_arg5 m c)
theorem l5_arg6 : L5 m c (Proc.devRef .tc main_arg6) = (m ((c.tc : Thread nD τ).loc main_arg6)) :=
  (rkeep4_arg6 (L4 m c)).trans (l4_arg6 m c)
theorem l5_arg7 : L5 m c (Proc.devRef .tc main_arg7) = (m ((c.tc : Thread nD τ).loc main_arg7)) :=
  (rkeep4_arg7 (L4 m c)).trans (l4_arg7 m c)
theorem l5_arg8 : L5 m c (Proc.devRef .tc main_arg8) = (m ((c.tc : Thread nD τ).loc main_arg8)) :=
  (rkeep4_arg8 (L4 m c)).trans (l4_arg8 m c)
theorem l5_arg9 : L5 m c (Proc.devRef .tc main_arg9) = (m ((c.tc : Thread nD τ).loc main_arg9)) :=
  (rkeep4_arg9 (L4 m c)).trans (l4_arg9 m c)
theorem l5_arg10 : L5 m c (Proc.devRef .tc main_arg10) = (m ((c.tc : Thread nD τ).loc main_arg10)) :=
  (rkeep4_arg10 (L4 m c)).trans (l4_arg10 m c)
theorem l5_arg11 : L5 m c (Proc.devRef .tc main_arg11) = (m ((c.tc : Thread nD τ).loc main_arg11)) :=
  (rkeep4_arg11 (L4 m c)).trans (l4_arg11 m c)
theorem l5_arg12 : L5 m c (Proc.devRef .tc main_arg12) = (m ((c.tc : Thread nD τ).loc main_arg12)) :=
  (rkeep4_arg12 (L4 m c)).trans (l4_arg12 m c)
theorem l5_arg13 : L5 m c (Proc.devRef .tc main_arg13) = (m ((c.tc : Thread nD τ).loc main_arg13)) :=
  (rkeep4_arg13 (L4 m c)).trans (l4_arg13 m c)

/-! ### After the score -/
/-- The result buffer holds the network of the arguments as launched. -/
theorem l6_v76 : L6 m c (Proc.devRef .tc main_v76) = Cert.Layers.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (r5_v76 (L5 m c)).trans (by rw [l5_v64 m c, l5_v71 m c, l5_arg12 m c, l5_arg13 m c] <;> rfl)
theorem l6_arg0 : L6 m c (Proc.devRef .tc main_arg0) = (m ((c.tc : Thread nD τ).loc main_arg0)) :=
  (rkeep5_arg0 (L5 m c)).trans (l5_arg0 m c)
theorem l6_arg1 : L6 m c (Proc.devRef .tc main_arg1) = (m ((c.tc : Thread nD τ).loc main_arg1)) :=
  (rkeep5_arg1 (L5 m c)).trans (l5_arg1 m c)
theorem l6_arg2 : L6 m c (Proc.devRef .tc main_arg2) = (m ((c.tc : Thread nD τ).loc main_arg2)) :=
  (rkeep5_arg2 (L5 m c)).trans (l5_arg2 m c)
theorem l6_arg3 : L6 m c (Proc.devRef .tc main_arg3) = (m ((c.tc : Thread nD τ).loc main_arg3)) :=
  (rkeep5_arg3 (L5 m c)).trans (l5_arg3 m c)
theorem l6_arg4 : L6 m c (Proc.devRef .tc main_arg4) = (m ((c.tc : Thread nD τ).loc main_arg4)) :=
  (rkeep5_arg4 (L5 m c)).trans (l5_arg4 m c)
theorem l6_arg5 : L6 m c (Proc.devRef .tc main_arg5) = (m ((c.tc : Thread nD τ).loc main_arg5)) :=
  (rkeep5_arg5 (L5 m c)).trans (l5_arg5 m c)
theorem l6_arg6 : L6 m c (Proc.devRef .tc main_arg6) = (m ((c.tc : Thread nD τ).loc main_arg6)) :=
  (rkeep5_arg6 (L5 m c)).trans (l5_arg6 m c)
theorem l6_arg7 : L6 m c (Proc.devRef .tc main_arg7) = (m ((c.tc : Thread nD τ).loc main_arg7)) :=
  (rkeep5_arg7 (L5 m c)).trans (l5_arg7 m c)
theorem l6_arg8 : L6 m c (Proc.devRef .tc main_arg8) = (m ((c.tc : Thread nD τ).loc main_arg8)) :=
  (rkeep5_arg8 (L5 m c)).trans (l5_arg8 m c)
theorem l6_arg9 : L6 m c (Proc.devRef .tc main_arg9) = (m ((c.tc : Thread nD τ).loc main_arg9)) :=
  (rkeep5_arg9 (L5 m c)).trans (l5_arg9 m c)
theorem l6_arg10 : L6 m c (Proc.devRef .tc main_arg10) = (m ((c.tc : Thread nD τ).loc main_arg10)) :=
  (rkeep5_arg10 (L5 m c)).trans (l5_arg10 m c)
theorem l6_arg11 : L6 m c (Proc.devRef .tc main_arg11) = (m ((c.tc : Thread nD τ).loc main_arg11)) :=
  (rkeep5_arg11 (L5 m c)).trans (l5_arg11 m c)
theorem l6_arg12 : L6 m c (Proc.devRef .tc main_arg12) = (m ((c.tc : Thread nD τ).loc main_arg12)) :=
  (rkeep5_arg12 (L5 m c)).trans (l5_arg12 m c)
theorem l6_arg13 : L6 m c (Proc.devRef .tc main_arg13) = (m ((c.tc : Thread nD τ).loc main_arg13)) :=
  (rkeep5_arg13 (L5 m c)).trans (l5_arg13 m c)

/-! ### The run -/

/-- From any memory with zero counters every weakly fair execution of the reference terminates with the result buffer at
    the network of the arguments as launched, and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Cert.Layers.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v76).trans ((congrFun (ops_run m c) _).trans (l6_v76 m c)),
      (h c main_arg0).trans ((congrFun (ops_run m c) _).trans (l6_arg0 m c)),
      (h c main_arg1).trans ((congrFun (ops_run m c) _).trans (l6_arg1 m c)),
      (h c main_arg2).trans ((congrFun (ops_run m c) _).trans (l6_arg2 m c)),
      (h c main_arg3).trans ((congrFun (ops_run m c) _).trans (l6_arg3 m c)),
      (h c main_arg4).trans ((congrFun (ops_run m c) _).trans (l6_arg4 m c)),
      (h c main_arg5).trans ((congrFun (ops_run m c) _).trans (l6_arg5 m c)),
      (h c main_arg6).trans ((congrFun (ops_run m c) _).trans (l6_arg6 m c)),
      (h c main_arg7).trans ((congrFun (ops_run m c) _).trans (l6_arg7 m c)),
      (h c main_arg8).trans ((congrFun (ops_run m c) _).trans (l6_arg8 m c)),
      (h c main_arg9).trans ((congrFun (ops_run m c) _).trans (l6_arg9 m c)),
      (h c main_arg10).trans ((congrFun (ops_run m c) _).trans (l6_arg10 m c)),
      (h c main_arg11).trans ((congrFun (ops_run m c) _).trans (l6_arg11 m c)),
      (h c main_arg12).trans ((congrFun (ops_run m c) _).trans (l6_arg12 m c)),
      (h c main_arg13).trans ((congrFun (ops_run m c) _).trans (l6_arg13 m c))⟩)
    (run_seq scopedRefs_eq scopedSems_eq defs main (fun _ => ops) main_eq (fun _ => ops_sub) m ρ)

end Cert.ReferenceIdeal.RefValue

end
-- ==== Proof.lean ====
/-
  The certificate of a two-layer graph network against its reference.

  The network: every edge gathers its source node's row of the node table, the message is the linear image of that row
  joined with the edge's features, the messages are summed into their destination nodes and divided by the larger of the
  in-degree and 1, and a node's new row is the rectified linear image of its old row joined with that mean; after two
  layers every edge is scored by the linear image of its two end points' rows joined.

  The reference multiplies each joined table [x1 | x2] by one weight table W.  The kernel never joins: each of its five
  regions multiplies x1 by W's first rows and x2 by W's last rows, tile of rows by tile of rows, and adds the two products
  and the bias.  On the extended reals a sum over the joined columns is the sum over x1's columns plus the sum over x2's
  columns, term by term the same products, so the two agree — an identity of a commutative monoid, for which no input
  needs to be finite.  Gathers, the scatter-sums, the division and the in-degree are the same host operations on both
  sides and are carried as they are; a change of float format is the identity on the extended reals.

  Modules: LibSplitLinearDef / LibSplitLinear (the split layer and its equality with the joined product), RegionValue0–4
  (each region's output array is the split layer of its input arrays: tile by tile, the tiles covering the array), Bridge
  (the same at the program's shapes), Layers (the network in the reference's operations), Stretch0–4 and Walk (the
  kernel's buffers from the launch memory to the result), RunNamed (the kernel's run with the result named), RefOps,
  RefStage0–5 and RefValue (the reference's run read back), and here the five claims.
-/
import proofs.«134400_j56057913147666_2_alg».proof.Defs
import proofs.«134400_j56057913147666_2_alg».proof.Proof.Gen.Kernel
import proofs.«134400_j56057913147666_2_alg».proof.Proof.Gen.Kernel.Frame
import proofs.«134400_j56057913147666_2_alg».proof.Proof.Gen.KernelIdeal
import proofs.«134400_j56057913147666_2_alg».proof.Proof.Gen.KernelIdeal.Frame
import proofs.«134400_j56057913147666_2_alg».proof.Proof.Gen.ReferenceIdeal
import proofs.«134400_j56057913147666_2_alg».proof.Proof.Gen.Pre_finite_inputs
import proofs.«134400_j56057913147666_2_alg».proof.Proof.RunNamed
import proofs.«134400_j56057913147666_2_alg».proof.Proof.Walk
import proofs.«134400_j56057913147666_2_alg».proof.Proof.RefValue
import Idealize.ShloMosaic.Adequacy
import Idealize.ShloMosaic.Init

noncomputable section

namespace Cert.Proof

open Idealize.ShloMosaic Idealize.ShloMosaic.TcCoe Idealize.SL.Sem

/-- The kernel's frame, at the word level and idealized: the generated frame certificates. -/
theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs, run from memories that agree on the arguments, end with the network of the arguments in their result
    buffers: the kernel by its walk from the launch memory, the reference by its run read back. -/
theorem algebraic : Cert.algebraic_KernelIdeal_ReferenceIdeal := by
  intro m ρ m' ρ' _ hagree
  refine ⟨fun c => Cert.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Walk.result_eq m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.RefValue.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
